-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "a_c" .f32 0x3D122279#32 ((80338380498831 / 2251799813685248 : ℝ) : EReal)
  ∧ IdealRules.named_const.Statement Cert.KernelIdeal.κ "a_c" .f32 0x3D122279#32 ((80338380498831 / 2251799813685248 : ℝ) : EReal)
  ∧ IdealRules.named_const.Statement Cert.KernelIdeal.κ "a_c" .f32 0x3D122279#32 ((80338380498831 / 2251799813685248 : ℝ) : EReal)
  ∧ IdealRules.named_const.Statement Cert.KernelIdeal.κ "a_c" .f32 0x3D122279#32 ((80338380498831 / 2251799813685248 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_arg5 : IVec S_ 32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_c_8 : IVec S_ 32 := constantI S_ 32 0#32
  let main_v24 : IVec S_ 1 := cmpi .sge main_arg5 main_c_8
  let main_v25 : IVec S_ 1 := andi main_v23 main_v24
  let main_c_9 : IVec S_ 32 := constantI S_ 32 8#32
  let main_v26 : IVec S_ 1 := cmpi .slt main_arg5 main_c_9
  let main_v27 : IVec S_ 1 := andi main_v25 main_v26
  main_v27

def fn {F : FTy → Type} [FloatOps F] (main_arg0 : FVec F S8192x1024 .f32) (main_arg1 : FVec F S8x1024x4096 .f32) (main_arg2 : FVec F S8x4096 .f32) (main_arg3 : FVec F S8x4096x1024 .f32) (main_arg4 : FVec F S8x1024 .f32) (main_arg5 : IVec S_ 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_arg5 main_v13 main_v16
-- ==== Kernel.lean ====
abbrev S8192x1024 : Shape := ⟨2, ![8192, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩
abbrev S1 : Shape := ⟨1, ![1]⟩
abbrev S8x4x1x1024 : Shape := ⟨4, ![8, 4, 1, 1024]⟩
abbrev S8x1x1x1024 : Shape := ⟨4, ![8, 1, 1, 1024]⟩
abbrev S1024x1024 : Shape := ⟨2, ![1024, 1024]⟩
abbrev S1x1024x1024 : Shape := ⟨3, ![1, 1024, 1024]⟩
abbrev S1x1x1x1024 : Shape := ⟨4, ![1, 1, 1, 1024]⟩
abbrev S1x1024x256 : Shape := ⟨3, ![1, 1024, 256]⟩
abbrev S1024x256 : Shape := ⟨2, ![1024, 256]⟩
abbrev S1x1x1x256 : Shape := ⟨4, ![1, 1, 1, 256]⟩
abbrev S256 : Shape := ⟨1, ![256]⟩
abbrev S1x256 : Shape := ⟨2, ![1, 256]⟩
abbrev S1x256x1024 : Shape := ⟨3, ![1, 256, 1024]⟩
abbrev S256x1024 : Shape := ⟨2, ![256, 1024]⟩
abbrev S1x1024 : Shape := ⟨2, ![1, 1024]⟩

abbrev nBuf : Space → Nat
  | .hbm => 9
  | .vmem => 12
  | .smem => 1
  | _ => 0

abbrev bufTy : (tb : Table) → Fin (tcTables nBuf tb) → BufTy
  | .hbm, ⟨0, _⟩ => ⟨S8192x1024, .f32⟩
  | .hbm, ⟨1, _⟩ => ⟨S8x1024x4096, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S_, .i32⟩
  | .hbm, ⟨6, _⟩ => ⟨S8x4x1x1024, .f32⟩
  | .hbm, ⟨7, _⟩ => ⟨S8x1x1x1024, .f32⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .smem, ⟨0, _⟩ => ⟨S1, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_call0_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_call0_v0.idx], fun | 0 => main_call0_v0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_58 : BitVec 32 := 0#32
  let v107 : BitVec 1 := Scalar.cmpi .eq arg1 c0_i32_58
  let v108 : BitVec 32 := Scalar.extui v107
  let c0_i32_59 : BitVec 32 := 0#32
  let v109 : BitVec 1 := Scalar.cmpi .ne v108 c0_i32_59
  v109

def k0_cond3 (i : grid0.Coords) : BitVec 1 :=
  let arg1 : BitVec 32 := BitVec.ofNat 32 (i 1).val
  let c0_i32_60 : BitVec 32 := 0#32
  let v110 : BitVec 1 := Scalar.cmpi .ne arg1 c0_i32_60
  let v111 : BitVec 32 := Scalar.extui v110
  let c0_i32_61 : BitVec 32 := 0#32
  let v112 : BitVec 1 := Scalar.cmpi .ne v111 c0_i32_61
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, arg1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S1 : S_.BroadcastsInDim S1 (![] : Fin 0 → Fin S1.rank)
  shapeCasts_S8x4096_S8x4x1x1024 : S8x4096.ShapeCasts S8x4x1x1024
  shapeCasts_S8x1024_S8x1x1x1024 : S8x1024.ShapeCasts S8x1x1x1024
  inb_S1_S1_0 : ∀ a, (![0] : Fin 1 → Nat) a + S1.size a ≤ S1.size a
  numel1_S1 : S1.numel = 1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024x1024_S1x1024x256_0_0_0 : ∀ a, (![0, 0, 0] : Fin 3 → Nat) a + S1x1024x256.size a ≤ S1x1024x1024.size a
  h_S1x1024x256 : 0 < S1x1024x256.numel
  shapeCasts_S1x1024x256_S1024x256 : S1x1024x256.ShapeCasts S1024x256
  inb_S1x1x1x1024_S1x1x1x256_0_0_0_0 : ∀ a, (![0, 0, 0, 0] : Fin 4 → Nat) a + S1x1x1x256.size a ≤ S1x1x1x1024.size a
  h_S1x1x1x256 : 0 < S1x1x1x256.numel
  shapeCasts_S1x1x1x256_S256 : S1x1x1x256.ShapeCasts S256
  shapeCasts_S256_S1x256 : S256.ShapeCasts S1x256
  broadcasts_S1x256_S1024x256 : S1x256.Broadcasts S1024x256
  inb_S1x1024x1024_S1x256x1024_0_0_0 : ∀ a, (![0, 0, 0] : Fin 3 → Nat) a + S1x256x1024.size a ≤ S1x1024x1024.size a
  h_S1x256x1024 : 0 < S1x256x1024.numel
  shapeCasts_S1x256x1024_S256x1024 : S1x256x1024.ShapeCasts S256x1024
  inb_S1x1024x1024_S1x1024x256_0_0_256 : ∀ a, (![0, 0, 256] : Fin 3 → Nat) a + S1x1024x256.size a ≤ S1x1024x1024.size a
  inb_S1x1x1x1024_S1x1x1x256_0_0_0_256 : ∀ a, (![0, 0, 0, 256] : Fin 4 → Nat) a + S1x1x1x256.size a ≤ S1x1x1x1024.size a
  inb_S1x1024x1024_S1x256x1024_0_256_0 : ∀ a, (![0, 256, 0] : Fin 3 → Nat) a + S1x256x1024.size a ≤ S1x1024x1024.size a
  inb_S1x1024x1024_S1x1024x256_0_0_512 : ∀ a, (![0, 0, 512] : Fin 3 → Nat) a + S1x1024x256.size a ≤ S1x1024x1024.size a
  inb_S1x1x1x1024_S1x1x1x256_0_0_0_512 : ∀ a, (![0, 0, 0, 512] : Fin 4 → Nat) a + S1x1x1x256.size a ≤ S1x1x1x1024.size a
  inb_S1x1024x1024_S1x256x1024_0_512_0 : ∀ a, (![0, 512, 0] : Fin 3 → Nat) a + S1x256x1024.size a ≤ S1x1024x1024.size a
  inb_S1x1024x1024_S1x1024x256_0_0_768 : ∀ a, (![0, 0, 768] : Fin 3 → Nat) a + S1x1024x256.size a ≤ S1x1024x1024.size a
  inb_S1x1x1x1024_S1x1x1x256_0_0_0_768 : ∀ a, (![0, 0, 0, 768] : Fin 4 → Nat) a + S1x1x1x256.size a ≤ S1x1x1x1024.size a
  inb_S1x1024x1024_S1x256x1024_0_768_0 : ∀ a, (![0, 768, 0] : Fin 3 → Nat) a + S1x256x1024.size a ≤ S1x1024x1024.size a
  inb_S1x1x1x1024_S1x1x1x1024_0_0_0_0 : ∀ a, (![0, 0, 0, 0] : Fin 4 → Nat) a + S1x1x1x1024.size a ≤ S1x1x1x1024.size a
  h_S1x1x1x1024 : 0 < S1x1x1x1024.numel
  shapeCasts_S1x1x1x1024_S1x1024 : S1x1x1x1024.ShapeCasts S1x1024
  broadcasts_S1x1024_S1024x1024 : S1x1024.Broadcasts S1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 inb_S1_S1_0 numel1_S1 pf i = cc0_transform_1 inb_S1_S1_0 numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 inb_S1_S1_0 numel1_S1 pf i = cc0_transform_2 inb_S1_S1_0 numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 inb_S1_S1_0 numel1_S1 pf i = cc0_transform_3 inb_S1_S1_0 numel1_S1 pf i'
  hstage0_4 : ∀ j, (stage0_4 j).IsWhole
  nbuf0_4 : grid0.bufCount reads0_4 false = 1
  hreads0_4 : ∀ {F : FTy → Type} [FloatOps F] (pf : pre0.Contents (Elt F)) (i i' : grid0.Coords), (∀ a, reads0_4 a = true → i a = i' a) → cc0_transform_4 inb_S1_S1_0 numel1_S1 pf i = cc0_transform_4 inb_S1_S1_0 numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev spec0_0 : Pipeline.WinSpec sig grid0.rank :=
  Pipeline.WinSpec.ofSpec (Memref.whole main_arg0) S1024x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_call0_v1) S1x1x1x1024.size reads0_2 false false 2 stage0_2 sem0_2 nbuf0_2 hstage0_2

abbrev spec0_3 : Pipeline.WinSpec sig grid0.rank :=
  Pipeline.WinSpec.ofSpec (Memref.whole main_arg3) S1x1024x1024.size reads0_3 false false 2 stage0_3 sem0_3 nbuf0_3 hstage0_3

abbrev spec0_4 : Pipeline.WinSpec sig grid0.rank :=
  Pipeline.WinSpec.ofSpec (Memref.whole main_call0_v2) S1x1x1x1024.size reads0_4 false false 1 stage0_4 sem0_4 nbuf0_4 hstage0_4

abbrev spec0_5 : Pipeline.WinSpec sig grid0.rank :=
  Pipeline.WinSpec.ofSpec (Memref.whole main_v0) S1024x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 inb_S1_S1_0 numel1_S1 pf | 2 => cc0_transform_2 inb_S1_S1_0 numel1_S1 pf | 3 => cc0_transform_3 inb_S1_S1_0 numel1_S1 pf | 4 => cc0_transform_4 inb_S1_S1_0 numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 inb_S1_S1_0 numel1_S1 pf i a + 1) * S1x1024x1024.size a ≤ S8x1024x4096.size a), EltTy.bits .f32 = 32 ∨ (Rect.block (s := S8x1024x4096) S1x1024x1024.size (cc0_transform_1 inb_S1_S1_0 numel1_S1 pf i) h).WholeWords (EltTy.packing .f32)) ∧
  (∀ i : grid0.Coords, ∃ h : (∀ a, (cc0_transform_2 inb_S1_S1_0 numel1_S1 pf i a + 1) * S1x1x1x1024.size a ≤ S8x4x1x1024.size a), EltTy.bits .f32 = 32 ∨ (Rect.block (s := S8x4x1x1024) S1x1x1x1024.size (cc0_transform_2 inb_S1_S1_0 numel1_S1 pf i) h).WholeWords (EltTy.packing .f32)) ∧
  (∀ i : grid0.Coords, ∃ h : (∀ a, (cc0_transform_3 inb_S1_S1_0 numel1_S1 pf i a + 1) * S1x1024x1024.size a ≤ S8x4096x1024.size a), EltTy.bits .f32 = 32 ∨ (Rect.block (s := S8x4096x1024) S1x1024x1024.size (cc0_transform_3 inb_S1_S1_0 numel1_S1 pf i) h).WholeWords (EltTy.packing .f32)) ∧
  (∀ i : grid0.Coords, ∃ h : (∀ a, (cc0_transform_4 inb_S1_S1_0 numel1_S1 pf i a + 1) * S1x1x1x1024.size a ≤ S8x1x1x1024.size a), EltTy.bits .f32 = 32 ∨ (Rect.block (s := S8x1x1x1024) S1x1x1x1024.size (cc0_transform_4 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))
abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8192x1024 : Shape := ⟨2, ![8192, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩
abbrev S1 : Shape := ⟨1, ![1]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024x4096, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S1, .i1⟩
  | .hbm, ⟨17, _⟩ => ⟨S1, .i1⟩
  | .hbm, ⟨18, _⟩ => ⟨S_, .i1⟩
  | .hbm, ⟨19, _⟩ => ⟨S_, .i1⟩
  | .hbm, ⟨20, _⟩ => ⟨S1024x4096, .f32⟩
  | .hbm, ⟨21, _⟩ => ⟨S1024x4096, .i1⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S1, .i1⟩
  | .hbm, ⟨36, _⟩ => ⟨S1, .i1⟩
  | .hbm, ⟨37, _⟩ => ⟨S_, .i1⟩
  | .hbm, ⟨38, _⟩ => ⟨S_, .i1⟩
  | .hbm, ⟨39, _⟩ => ⟨S4096, .f32⟩
  | .hbm, ⟨40, _⟩ => ⟨S4096, .i1⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S1, .i1⟩
  | .hbm, ⟨54, _⟩ => ⟨S1, .i1⟩
  | .hbm, ⟨55, _⟩ => ⟨S1, .i1⟩
  | .hbm, ⟨56, _⟩ => ⟨S_, .i1⟩
  | .hbm, ⟨57, _⟩ => ⟨S_, .i1⟩
  | .hbm, ⟨58, _⟩ => ⟨S4096x1024, .f32⟩
  | .hbm, ⟨59, _⟩ => ⟨S4096x1024, .i1⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i1⟩
  | .hbm, ⟨73, _⟩ => ⟨S1, .i1⟩
  | .hbm, ⟨74, _⟩ => ⟨S1, .i1⟩
  | .hbm, ⟨75, _⟩ => ⟨S_, .i1⟩
  | .hbm, ⟨76, _⟩ => ⟨S_, .i1⟩
  | .hbm, ⟨77, _⟩ => ⟨S1024, .f32⟩
  | .hbm, ⟨78, _⟩ => ⟨S1024, .i1⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S8192x4096, .f32⟩
  | .hbm, ⟨83, _⟩ => ⟨S1x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S_, .f32⟩
  | .hbm, ⟨89, _⟩ => ⟨S8192x4096, .f32⟩
  | .hbm, ⟨90, _⟩ => ⟨S8192x4096, .f32⟩
  | .hbm, ⟨91, _⟩ => ⟨S8192x4096, .f32⟩
  | .hbm, ⟨92, _⟩ => ⟨S_, .f32⟩
  | .hbm, ⟨93, _⟩ => ⟨S8192x4096, .f32⟩
  | .hbm, ⟨94, _⟩ => ⟨S8192x4096, .f32⟩
  | .hbm, ⟨95, _⟩ => ⟨S8192x4096, .f32⟩
  | .hbm, ⟨96, _⟩ => ⟨S_, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S8192x4096, .f32⟩
  | .hbm, ⟨103, _⟩ => ⟨S8192x1024, .f32⟩
  | .hbm, ⟨104, _⟩ => ⟨S1x1024, .f32⟩
  | .hbm, ⟨105, _⟩ => ⟨S8192x1024, .f32⟩
  | .hbm, ⟨106, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_c_2 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c_3 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst : Ref sig .tc := ⟨.hbm, 22, rfl⟩
abbrev main_call0_v11 : Ref sig .tc := ⟨.hbm, 23, rfl⟩
abbrev main_v0 : Ref sig .tc := ⟨.hbm, 24, rfl⟩
abbrev main_call1_c : Ref sig .tc := ⟨.hbm, 25, rfl⟩
abbrev main_call1_v0 : Ref sig .tc := ⟨.hbm, 26, rfl⟩
abbrev main_call1_c_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_c_1 : Ref sig .tc := ⟨.hbm, 31, rfl⟩
abbrev main_call1_c_2 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_c_3 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_cst : Ref sig .tc := ⟨.hbm, 41, rfl⟩
abbrev main_call1_v11 : Ref sig .tc := ⟨.hbm, 42, rfl⟩
abbrev main_v1 : Ref sig .tc := ⟨.hbm, 43, rfl⟩
abbrev main_call2_c : Ref sig .tc := ⟨.hbm, 44, rfl⟩
abbrev main_call2_v0 : Ref sig .tc := ⟨.hbm, 45, rfl⟩
abbrev main_call2_c_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_c_1 : Ref sig .tc := ⟨.hbm, 50, rfl⟩
abbrev main_call2_c_2 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_c_3 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_cst : Ref sig .tc := ⟨.hbm, 60, rfl⟩
abbrev main_call2_v11 : Ref sig .tc := ⟨.hbm, 61, rfl⟩
abbrev main_v2 : Ref sig .tc := ⟨.hbm, 62, rfl⟩
abbrev main_call3_c : Ref sig .tc := ⟨.hbm, 63, rfl⟩
abbrev main_call3_v0 : Ref sig .tc := ⟨.hbm, 64, rfl⟩
abbrev main_call3_c_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_c_1 : Ref sig .tc := ⟨.hbm, 69, rfl⟩
abbrev main_call3_c_2 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_c_3 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_cst : Ref sig .tc := ⟨.hbm, 79, rfl⟩
abbrev main_call3_v11 : Ref sig .tc := ⟨.hbm, 80, rfl⟩
abbrev main_v3 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_v8 : Ref sig .tc := ⟨.hbm, 86, rfl⟩
abbrev main_v9 : Ref sig .tc := ⟨.hbm, 87, rfl⟩
abbrev main_cst : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_cst_0 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_cst_1 : Ref sig .tc := ⟨.hbm, 96, rfl⟩
abbrev main_v16 : Ref sig .tc := ⟨.hbm, 97, rfl⟩
abbrev main_v17 : Ref sig .tc := ⟨.hbm, 98, rfl⟩
abbrev main_cst_2 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩

abbrev nD : Nat := 1
abbrev τ : Topo := Topo.v7x

variable {F : FTy → Type} [FloatOps F]

class Facts₀ : Prop where
  bcast_S_S1 : S_.BroadcastsInDim S1 (![] : Fin 0 → Fin S1.rank)
  reducesTo_S1_S_d0 : S1.ReducesTo [0] S_
  h_S_ : 0 < S_.numel
  bcast_S_S1024x4096 : S_.BroadcastsInDim S1024x4096 (![] : Fin 0 → Fin S1024x4096.rank)
  bcast_S_S4096 : S_.BroadcastsInDim S4096 (![] : Fin 0 → Fin S4096.rank)
  bcast_S_S4096x1024 : S_.BroadcastsInDim S4096x1024 (![] : Fin 0 → Fin S4096x1024.rank)
  bcast_S_S1024 : S_.BroadcastsInDim S1024 (![] : Fin 0 → Fin S1024.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  gather_S8x1024x4096_S1_S1024x4096_01_0_n_n_0_0_110244096_wf : GatherDims.WF S8x1024x4096 S1 S1024x4096 [0, 1] [0] [] [0] [] 0 ![1, 1024, 4096]
  gather_S8x4096_S1_S4096_0_0_n_n_0_0_14096_wf : GatherDims.WF S8x4096 S1 S4096 [0] [0] [] [0] [] 0 ![1, 4096]
  gather_S8x4096x1024_S1_S4096x1024_01_0_n_n_0_0_140961024_wf : GatherDims.WF S8x4096x1024 S1 S4096x1024 [0, 1] [0] [] [0] [] 0 ![1, 4096, 1024]
  gather_S8x1024_S1_S1024_0_0_n_n_0_0_11024_wf : GatherDims.WF S8x1024 S1 S1024 [0] [0] [] [0] [] 0 ![1, 1024]
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def gather_S8x1024x4096_S1_S1024x4096_01_0_n_n_0_0_110244096 : GatherDims S8x1024x4096 S1 S1024x4096 where
  offsetDims := [0, 1]
  collapsedSliceDims := [0]
  operandBatchingDims := []
  startIndicesBatchingDims := []
  startIndexMap := [0]
  indexVectorDim := 0
  sliceSizes := ![1, 1024, 4096]
  wf := gather_S8x1024x4096_S1_S1024x4096_01_0_n_n_0_0_110244096_wf
def gather_S8x4096_S1_S4096_0_0_n_n_0_0_14096 : GatherDims S8x4096 S1 S4096 where
  offsetDims := [0]
  collapsedSliceDims := [0]
  operandBatchingDims := []
  startIndicesBatchingDims := []
  startIndexMap := [0]
  indexVectorDim := 0
  sliceSizes := ![1, 4096]
  wf := gather_S8x4096_S1_S4096_0_0_n_n_0_0_14096_wf
def gather_S8x4096x1024_S1_S4096x1024_01_0_n_n_0_0_140961024 : GatherDims S8x4096x1024 S1 S4096x1024 where
  offsetDims := [0, 1]
  collapsedSliceDims := [0]
  operandBatchingDims := []
  startIndicesBatchingDims := []
  startIndexMap := [0]
  indexVectorDim := 0
  sliceSizes := ![1, 4096, 1024]
  wf := gather_S8x4096x1024_S1_S4096x1024_01_0_n_n_0_0_140961024_wf
def gather_S8x1024_S1_S1024_0_0_n_n_0_0_11024 : GatherDims S8x1024 S1 S1024 where
  offsetDims := [0]
  collapsedSliceDims := [0]
  operandBatchingDims := []
  startIndicesBatchingDims := []
  startIndexMap := [0]
  indexVectorDim := 0
  sliceSizes := ![1, 1024]
  wf := gather_S8x1024_S1_S1024_0_0_n_n_0_0_11024_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.PreFacts.lean ====
/-
  What the precondition says, read back: every entry of each of the five float arrays is a real number
  (its absolute value lies strictly below +∞), and the scalar expert index, read signed, lies in 0 ≤ · < 8.
-/
import proofs.«119035_g17592186045067_cont_7to1_1554_11_alg».proof.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A conjunction of one-bit words at the scalar index is the conjunction of the words. -/
theorem andi_ix (x y : IVec S_ 1) (i : S_.Idx) : andi x y i = IntOp.andi (x i) (y i) := rfl
/-- An integer comparison of scalars at the scalar index is the comparison of the words. -/
theorem cmpi_ix (p : CmpIPredicate) (x y : IVec S_ 32) (i : S_.Idx) : cmpi p x y i = IntOp.cmpi p (x i) (y i) := rfl

/-- The pattern of +∞ denotes the top element. -/
theorem ofBits_inf : Ideal.ofBits .f32 2139095040#32 = ⊤ := by
  simp [Ideal.ofBits, Ideal.ieee]

/-- An entry whose absolute value compares strictly below +∞ is a real number: `max x (-x) < ⊤` excludes both infinities. -/
theorem real_of_abs_lt_inf {s : Shape} (a : FVec Ideal s .f32) (hb : S_.BroadcastsInDim s ![]) (i : s.Idx)
    (h : cmpf CmpFPredicate.olt (Host.absf a) (broadcastInDim s ![] hb (constant S_ FTy.f32 2139095040#32)) i = 1#1) :
    ∃ r : ℝ, a i = (r : EReal) := by
  have h' : Ideal.cmp .olt (max (a i) (-(a i))) (Ideal.ofBits .f32 2139095040#32) = 1#1 := h
  rw [ofBits_inf] at h'
  have hlt : max (a i) (-(a i)) < ⊤ := by
    by_contra hn
    simp [Ideal.cmp, hn] at h'
  have h1 : a i ≠ ⊤ := fun e => by rw [e] at hlt; simp at hlt
  have h2 : a i ≠ ⊥ := fun e => by rw [e] at hlt; simp at hlt
  exact ⟨(a i).toReal, (EReal.coe_toReal h1 h2).symm⟩

/-- The precondition read back: five arrays of real numbers and an expert index in range. -/
theorem decode [Facts] (a0 : FVec Ideal S8192x1024 .f32) (a1 : FVec Ideal S8x1024x4096 .f32) (a2 : FVec Ideal S8x4096 .f32)
    (a3 : FVec Ideal S8x4096x1024 .f32) (a4 : FVec Ideal S8x1024 .f32) (a5 : IVec S_ 32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal))
    ∧ 0 ≤ (a5 ix0).toInt ∧ (a5 ix0).toInt < 8 := by
  have h0 := congrFun h ix0
  dsimp only [fn, fn_part1] at h0
  simp only [andi_ix, IntOp.andi_eq_one] at h0
  obtain ⟨⟨⟨⟨⟨⟨e0, e1⟩, e2⟩, e3⟩, e4⟩, hge⟩, hlt⟩ := h0
  rw [cmpi_ix, IntOp.cmpi_sge] at hge
  rw [cmpi_ix, IntOp.cmpi_slt] at hlt
  have z0 : (constantI S_ 32 (0#32) ix0).toInt = 0 := by decide
  have z8 : (constantI S_ 32 (8#32) ix0).toInt = 8 := by decide
  rw [z0] at hge
  rw [z8] at hlt
  exact ⟨fun i => real_of_abs_lt_inf a0 _ i (Host.reduce_andi_all _ _ _ _ ix0 e0 i),
    fun i => real_of_abs_lt_inf a1 _ i (Host.reduce_andi_all _ _ _ _ ix0 e1 i),
    fun i => real_of_abs_lt_inf a2 _ i (Host.reduce_andi_all _ _ _ _ ix0 e2 i),
    fun i => real_of_abs_lt_inf a3 _ i (Host.reduce_andi_all _ _ _ _ ix0 e3 i),
    fun i => real_of_abs_lt_inf a4 _ i (Host.reduce_andi_all _ _ _ _ ix0 e4 i), hge, hlt⟩

/-- The same, for the word-level reading of the index alone: the precondition at any float instance bounds the index. -/
theorem col_range {F : FTy → Type} [FloatOps F] [Facts] (a0 : FVec F S8192x1024 .f32) (a1 : FVec F S8x1024x4096 .f32) (a2 : FVec F S8x4096 .f32)
    (a3 : FVec F S8x4096x1024 .f32) (a4 : FVec F S8x1024 .f32) (a5 : IVec S_ 32)
    (h : fn (F := F) a0 a1 a2 a3 a4 a5 = fun _ => 1#1) :
    0 ≤ (a5 ix0).toInt ∧ (a5 ix0).toInt < 8 := by
  have h0 := congrFun h ix0
  dsimp only [fn, fn_part1] at h0
  simp only [andi_ix, IntOp.andi_eq_one] at h0
  obtain ⟨⟨_, hge⟩, hlt⟩ := h0
  rw [cmpi_ix, IntOp.cmpi_sge] at hge
  rw [cmpi_ix, IntOp.cmpi_slt] at hlt
  have z0 : (constantI S_ 32 (0#32) ix0).toInt = 0 := by decide
  have z8 : (constantI S_ 32 (8#32) ix0).toInt = 8 := by decide
  rw [z0] at hge
  rw [z8] at hlt
  exact ⟨hge, hlt⟩

/-- A 32-bit word whose signed value lies in `0 ≤ · < 8` has unsigned value below 8: the sign bit is clear. -/
theorem toNat_lt_of_toInt (w : BitVec 32) (h0 : 0 ≤ w.toInt) (h8 : w.toInt < 8) : w.toNat < 8 := by
  have e := BitVec.toInt_eq_toNat_cond w
  have hlt := w.isLt
  split_ifs at e with hc <;> omega

/-- The precondition, at any float instance, puts the expert index word below 8. -/
theorem col_lt {F : FTy → Type} [FloatOps F] [Facts] (a0 : FVec F S8192x1024 .f32) (a1 : FVec F S8x1024x4096 .f32) (a2 : FVec F S8x4096 .f32)
    (a3 : FVec F S8x4096x1024 .f32) (a4 : FVec F S8x1024 .f32) (a5 : IVec S_ 32)
    (h : fn (F := F) a0 a1 a2 a3 a4 a5 = fun _ => 1#1) : (a5 ix0).toNat < 8 :=
  toNat_lt_of_toInt _ (col_range a0 a1 a2 a3 a4 a5 h).1 (col_range a0 a1 a2 a3 a4 a5 h).2

end Cert.PreFacts

end
-- ==== Proof.RefRun.lean ====
/-
  The host program as one straight line of operations.

  The program selects one expert's parameters out of the four stacked parameter arrays and applies a two-layer
  perceptron to every token row.  Each selection is a small function of its own (the index wrapped when negative,
  tested against the range of the leading axis, one slice gathered, a fill value where the test fails), called
  once per parameter array; a call is the callee's operations on the call's own buffers, so the whole program is
  the list below: four selections of nineteen operations each, then the twenty-five operations of the perceptron
  (a product, a bias, the tanh form of GELU, a product, a bias).

  A straight line of operations always runs: every weakly fair execution ends, and each buffer ends at the fold of
  the operations over the contents it started from.  `result` names that fold at the output buffer; the six
  argument buffers are written by no operation and end as they began.
-/
import proofs.«119035_g17592186045067_cont_7to1_1554_11_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The selection of the first layer's weights: the index wrapped and tested, one `[1024, 4096]` slice gathered. -/
abbrev ops0 : List (HloOp τ sig (Elt F)) :=
  [ StableHlo.TRef.nullary main_call0.c (constantI S_ 32 0#32),
    StableHlo.TRef.binary (.of main_arg5 : TRef sig ⟨S_, .i32⟩) main_call0.c main_call0.v0 (cmpi .slt),
    StableHlo.TRef.nullary main_call0.c_0 (constantI S_ 32 8#32),
    StableHlo.TRef.binary (.of main_arg5 : TRef sig ⟨S_, .i32⟩) main_call0.c_0 main_call0.v1 addi,
    StableHlo.TRef.ternary main_call0.v0 main_call0.v1 (.of main_arg5 : TRef sig ⟨S_, .i32⟩) main_call0.call0.v0 select,
    StableHlo.TRef.unary main_call0.call0.v0 main_call0.v3 (broadcastInDim S1 ![] bcast_S_S1),
    StableHlo.TRef.nullary main_call0.c_1 (constantI S1 32 7#32),
    StableHlo.TRef.nullary main_call0.c_2 (constantI S_ 32 0#32),
    StableHlo.TRef.unary main_call0.c_2 main_call0.v4 (broadcastInDim S1 ![] bcast_S_S1),
    StableHlo.TRef.binary main_call0.v3 main_call0.v4 main_call0.v5 (cmpi .sge),
    StableHlo.TRef.binary main_call0.v3 main_call0.c_1 main_call0.v6 (cmpi .sle),
    StableHlo.TRef.binary main_call0.v5 main_call0.v6 main_call0.v7 andi,
    StableHlo.TRef.nullary main_call0.c_3 (constantI S_ 1 1#1),
    StableHlo.TRef.binary main_call0.v7 main_call0.c_3 main_call0.v8 (fun x v => Host.reduce IntOp.andi x v reducesTo_S1_S_d0 h_S_),
    StableHlo.TRef.binary (.of main_arg1 : TRef sig ⟨S8x1024x4096, .f32⟩) main_call0.v3 main_call0.v9 (fun x i => Host.gather gather_S8x1024x4096_S1_S1024x4096_01_0_n_n_0_0_110244096 x i),
    StableHlo.TRef.unary main_call0.v8 main_call0.v10 (broadcastInDim S1024x4096 ![] bcast_S_S1024x4096),
    StableHlo.TRef.nullary main_call0.cst (constant S_ .f32 0x7FC00000#32),
    StableHlo.TRef.unary main_call0.cst main_call0.v11 (broadcastInDim S1024x4096 ![] bcast_S_S1024x4096),
    StableHlo.TRef.ternary main_call0.v10 main_call0.v9 main_call0.v11 main_call0.v12 select ]

/-- The selection of the first layer's bias: one row of `4096` gathered. -/
abbrev ops1 : List (HloOp τ sig (Elt F)) :=
  [ StableHlo.TRef.nullary main_call1.c (constantI S_ 32 0#32),
    StableHlo.TRef.binary (.of main_arg5 : TRef sig ⟨S_, .i32⟩) main_call1.c main_call1.v0 (cmpi .slt),
    StableHlo.TRef.nullary main_call1.c_0 (constantI S_ 32 8#32),
    StableHlo.TRef.binary (.of main_arg5 : TRef sig ⟨S_, .i32⟩) main_call1.c_0 main_call1.v1 addi,
    StableHlo.TRef.ternary main_call1.v0 main_call1.v1 (.of main_arg5 : TRef sig ⟨S_, .i32⟩) main_call1.call0.v0 select,
    StableHlo.TRef.unary main_call1.call0.v0 main_call1.v3 (broadcastInDim S1 ![] bcast_S_S1),
    StableHlo.TRef.nullary main_call1.c_1 (constantI S1 32 7#32),
    StableHlo.TRef.nullary main_call1.c_2 (constantI S_ 32 0#32),
    StableHlo.TRef.unary main_call1.c_2 main_call1.v4 (broadcastInDim S1 ![] bcast_S_S1),
    StableHlo.TRef.binary main_call1.v3 main_call1.v4 main_call1.v5 (cmpi .sge),
    StableHlo.TRef.binary main_call1.v3 main_call1.c_1 main_call1.v6 (cmpi .sle),
    StableHlo.TRef.binary main_call1.v5 main_call1.v6 main_call1.v7 andi,
    StableHlo.TRef.nullary main_call1.c_3 (constantI S_ 1 1#1),
    StableHlo.TRef.binary main_call1.v7 main_call1.c_3 main_call1.v8 (fun x v => Host.reduce IntOp.andi x v reducesTo_S1_S_d0 h_S_),
    StableHlo.TRef.binary (.of main_arg2 : TRef sig ⟨S8x4096, .f32⟩) main_call1.v3 main_call1.v9 (fun x i => Host.gather gather_S8x4096_S1_S4096_0_0_n_n_0_0_14096 x i),
    StableHlo.TRef.unary main_call1.v8 main_call1.v10 (broadcastInDim S4096 ![] bcast_S_S4096),
    StableHlo.TRef.nullary main_call1.cst (constant S_ .f32 0x7FC00000#32),
    StableHlo.TRef.unary main_call1.cst main_call1.v11 (broadcastInDim S4096 ![] bcast_S_S4096),
    StableHlo.TRef.ternary main_call1.v10 main_call1.v9 main_call1.v11 main_call1.v12 select ]

/-- The selection of the second layer's weights: one `[4096, 1024]` slice gathered. -/
abbrev ops2 : List (HloOp τ sig (Elt F)) :=
  [ StableHlo.TRef.nullary main_call2.c (constantI S_ 32 0#32),
    StableHlo.TRef.binary (.of main_arg5 : TRef sig ⟨S_, .i32⟩) main_call2.c main_call2.v0 (cmpi .slt),
    StableHlo.TRef.nullary main_call2.c_0 (constantI S_ 32 8#32),
    StableHlo.TRef.binary (.of main_arg5 : TRef sig ⟨S_, .i32⟩) main_call2.c_0 main_call2.v1 addi,
    StableHlo.TRef.ternary main_call2.v0 main_call2.v1 (.of main_arg5 : TRef sig ⟨S_, .i32⟩) main_call2.call0.v0 select,
    StableHlo.TRef.unary main_call2.call0.v0 main_call2.v3 (broadcastInDim S1 ![] bcast_S_S1),
    StableHlo.TRef.nullary main_call2.c_1 (constantI S1 32 7#32),
    StableHlo.TRef.nullary main_call2.c_2 (constantI S_ 32 0#32),
    StableHlo.TRef.unary main_call2.c_2 main_call2.v4 (broadcastInDim S1 ![] bcast_S_S1),
    StableHlo.TRef.binary main_call2.v3 main_call2.v4 main_call2.v5 (cmpi .sge),
    StableHlo.TRef.binary main_call2.v3 main_call2.c_1 main_call2.v6 (cmpi .sle),
    StableHlo.TRef.binary main_call2.v5 main_call2.v6 main_call2.v7 andi,
    StableHlo.TRef.nullary main_call2.c_3 (constantI S_ 1 1#1),
    StableHlo.TRef.binary main_call2.v7 main_call2.c_3 main_call2.v8 (fun x v => Host.reduce IntOp.andi x v reducesTo_S1_S_d0 h_S_),
    StableHlo.TRef.binary (.of main_arg3 : TRef sig ⟨S8x4096x1024, .f32⟩) main_call2.v3 main_call2.v9 (fun x i => Host.gather gather_S8x4096x1024_S1_S4096x1024_01_0_n_n_0_0_140961024 x i),
    StableHlo.TRef.unary main_call2.v8 main_call2.v10 (broadcastInDim S4096x1024 ![] bcast_S_S4096x1024),
    StableHlo.TRef.nullary main_call2.cst (constant S_ .f32 0x7FC00000#32),
    StableHlo.TRef.unary main_call2.cst main_call2.v11 (broadcastInDim S4096x1024 ![] bcast_S_S4096x1024),
    StableHlo.TRef.ternary main_call2.v10 main_call2.v9 main_call2.v11 main_call2.v12 select ]

/-- The selection of the second layer's bias: one row of `1024` gathered. -/
abbrev ops3 : List (HloOp τ sig (Elt F)) :=
  [ StableHlo.TRef.nullary main_call3.c (constantI S_ 32 0#32),
    StableHlo.TRef.binary (.of main_arg5 : TRef sig ⟨S_, .i32⟩) main_call3.c main_call3.v0 (cmpi .slt),
    StableHlo.TRef.nullary main_call3.c_0 (constantI S_ 32 8#32),
    StableHlo.TRef.binary (.of main_arg5 : TRef sig ⟨S_, .i32⟩) main_call3.c_0 main_call3.v1 addi,
    StableHlo.TRef.ternary main_call3.v0 main_call3.v1 (.of main_arg5 : TRef sig ⟨S_, .i32⟩) main_call3.call0.v0 select,
    StableHlo.TRef.unary main_call3.call0.v0 main_call3.v3 (broadcastInDim S1 ![] bcast_S_S1),
    StableHlo.TRef.nullary main_call3.c_1 (constantI S1 32 7#32),
    StableHlo.TRef.nullary main_call3.c_2 (constantI S_ 32 0#32),
    StableHlo.TRef.unary main_call3.c_2 main_call3.v4 (broadcastInDim S1 ![] bcast_S_S1),
    StableHlo.TRef.binary main_call3.v3 main_call3.v4 main_call3.v5 (cmpi .sge),
    StableHlo.TRef.binary main_call3.v3 main_call3.c_1 main_call3.v6 (cmpi .sle),
    StableHlo.TRef.binary main_call3.v5 main_call3.v6 main_call3.v7 andi,
    StableHlo.TRef.nullary main_call3.c_3 (constantI S_ 1 1#1),
    StableHlo.TRef.binary main_call3.v7 main_call3.c_3 main_call3.v8 (fun x v => Host.reduce IntOp.andi x v reducesTo_S1_S_d0 h_S_),
    StableHlo.TRef.binary (.of main_arg4 : TRef sig ⟨S8x1024, .f32⟩) main_call3.v3 main_call3.v9 (fun x i => Host.gather gather_S8x1024_S1_S1024_0_0_n_n_0_0_11024 x i),
    StableHlo.TRef.unary main_call3.v8 main_call3.v10 (broadcastInDim S1024 ![] bcast_S_S1024),
    StableHlo.TRef.nullary main_call3.cst (constant S_ .f32 0x7FC00000#32),
    StableHlo.TRef.unary main_call3.cst main_call3.v11 (broadcastInDim S1024 ![] bcast_S_S1024),
    StableHlo.TRef.ternary main_call3.v10 main_call3.v9 main_call3.v11 main_call3.v12 select ]

/-- The perceptron on the selected parameters: product, bias, the tanh form of GELU, product, bias. -/
abbrev opsT : List (HloOp τ sig (Elt F)) :=
  [ StableHlo.binary main_arg0 main_v0 main_v4 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.unary main_v1 main_v5 (broadcastInDim S1x4096 ![1] bcast_S4096_S1x4096_1 : (⟨S4096, .f32⟩ : BufTy).Contents (Elt F) → (⟨S1x4096, .f32⟩ : BufTy).Contents (Elt F)),
    StableHlo.unary main_v5 main_v6 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v4 main_v6 main_v7 (addf : (⟨S8192x4096, .f32⟩ : BufTy).Contents (Elt F) → (⟨S8192x4096, .f32⟩ : BufTy).Contents (Elt F) → (⟨S8192x4096, .f32⟩ : BufTy).Contents (Elt F)),
    StableHlo.binary main_v7 main_v7 main_v8 (mulf : (⟨S8192x4096, .f32⟩ : BufTy).Contents (Elt F) → (⟨S8192x4096, .f32⟩ : BufTy).Contents (Elt F) → (⟨S8192x4096, .f32⟩ : BufTy).Contents (Elt F)),
    StableHlo.binary main_v8 main_v7 main_v9 (mulf : (⟨S8192x4096, .f32⟩ : BufTy).Contents (Elt F) → (⟨S8192x4096, .f32⟩ : BufTy).Contents (Elt F) → (⟨S8192x4096, .f32⟩ : BufTy).Contents (Elt F)),
    StableHlo.nullary main_cst (constant S_ .f32 0x3D372713#32),
    StableHlo.unary main_cst main_v10 (broadcastInDim S8192x4096 ![] bcast_S_S8192x4096 : (⟨S_, .f32⟩ : BufTy).Contents (Elt F) → (⟨S8192x4096, .f32⟩ : BufTy).Contents (Elt F)),
    StableHlo.binary main_v10 main_v9 main_v11 (mulf : (⟨S8192x4096, .f32⟩ : BufTy).Contents (Elt F) → (⟨S8192x4096, .f32⟩ : BufTy).Contents (Elt F) → (⟨S8192x4096, .f32⟩ : BufTy).Contents (Elt F)),
    StableHlo.binary main_v7 main_v11 main_v12 (addf : (⟨S8192x4096, .f32⟩ : BufTy).Contents (Elt F) → (⟨S8192x4096, .f32⟩ : BufTy).Contents (Elt F) → (⟨S8192x4096, .f32⟩ : BufTy).Contents (Elt F)),
    StableHlo.nullary main_cst_0 (constant S_ .f32 0x3F4C422A#32),
    StableHlo.unary main_cst_0 main_v13 (broadcastInDim S8192x4096 ![] bcast_S_S8192x4096 : (⟨S_, .f32⟩ : BufTy).Contents (Elt F) → (⟨S8192x4096, .f32⟩ : BufTy).Contents (Elt F)),
    StableHlo.binary main_v13 main_v12 main_v14 (mulf : (⟨S8192x4096, .f32⟩ : BufTy).Contents (Elt F) → (⟨S8192x4096, .f32⟩ : BufTy).Contents (Elt F) → (⟨S8192x4096, .f32⟩ : BufTy).Contents (Elt F)),
    StableHlo.unary main_v14 main_v15 (Host.tanh : (⟨S8192x4096, .f32⟩ : BufTy).Contents (Elt F) → (⟨S8192x4096, .f32⟩ : BufTy).Contents (Elt F)),
    StableHlo.nullary main_cst_1 (constant S_ .f32 0x3F800000#32),
    StableHlo.unary main_cst_1 main_v16 (broadcastInDim S8192x4096 ![] bcast_S_S8192x4096 : (⟨S_, .f32⟩ : BufTy).Contents (Elt F) → (⟨S8192x4096, .f32⟩ : BufTy).Contents (Elt F)),
    StableHlo.binary main_v16 main_v15 main_v17 (addf : (⟨S8192x4096, .f32⟩ : BufTy).Contents (Elt F) → (⟨S8192x4096, .f32⟩ : BufTy).Contents (Elt F) → (⟨S8192x4096, .f32⟩ : BufTy).Contents (Elt F)),
    StableHlo.nullary main_cst_2 (constant S_ .f32 0x3F000000#32),
    StableHlo.unary main_cst_2 main_v18 (broadcastInDim S8192x4096 ![] bcast_S_S8192x4096 : (⟨S_, .f32⟩ : BufTy).Contents (Elt F) → (⟨S8192x4096, .f32⟩ : BufTy).Contents (Elt F)),
    StableHlo.binary main_v18 main_v17 main_v19 (mulf : (⟨S8192x4096, .f32⟩ : BufTy).Contents (Elt F) → (⟨S8192x4096, .f32⟩ : BufTy).Contents (Elt F) → (⟨S8192x4096, .f32⟩ : BufTy).Contents (Elt F)),
    StableHlo.binary main_v7 main_v19 main_v20 (mulf : (⟨S8192x4096, .f32⟩ : BufTy).Contents (Elt F) → (⟨S8192x4096, .f32⟩ : BufTy).Contents (Elt F) → (⟨S8192x4096, .f32⟩ : BufTy).Contents (Elt F)),
    StableHlo.binary main_v20 main_v2 main_v21 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    StableHlo.unary main_v3 main_v22 (broadcastInDim S1x1024 ![1] bcast_S1024_S1x1024_1 : (⟨S1024, .f32⟩ : BufTy).Contents (Elt F) → (⟨S1x1024, .f32⟩ : BufTy).Contents (Elt F)),
    StableHlo.unary main_v22 main_v23 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v21 main_v23 main_v24 (addf : (⟨S8192x1024, .f32⟩ : BufTy).Contents (Elt F) → (⟨S8192x1024, .f32⟩ : BufTy).Contents (Elt F) → (⟨S8192x1024, .f32⟩ : BufTy).Contents (Elt F)) ]

/-- The program's operations in order: the four selections, then the perceptron. -/
abbrev ops : List (HloOp τ sig (Elt F)) :=
  [ StableHlo.TRef.nullary main_call0.c (constantI S_ 32 0#32),
    StableHlo.TRef.binary (.of main_arg5 : TRef sig ⟨S_, .i32⟩) main_call0.c main_call0.v0 (cmpi .slt),
    StableHlo.TRef.nullary main_call0.c_0 (constantI S_ 32 8#32),
    StableHlo.TRef.binary (.of main_arg5 : TRef sig ⟨S_, .i32⟩) main_call0.c_0 main_call0.v1 addi,
    StableHlo.TRef.ternary main_call0.v0 main_call0.v1 (.of main_arg5 : TRef sig ⟨S_, .i32⟩) main_call0.call0.v0 select,
    StableHlo.TRef.unary main_call0.call0.v0 main_call0.v3 (broadcastInDim S1 ![] bcast_S_S1),
    StableHlo.TRef.nullary main_call0.c_1 (constantI S1 32 7#32),
    StableHlo.TRef.nullary main_call0.c_2 (constantI S_ 32 0#32),
    StableHlo.TRef.unary main_call0.c_2 main_call0.v4 (broadcastInDim S1 ![] bcast_S_S1),
    StableHlo.TRef.binary main_call0.v3 main_call0.v4 main_call0.v5 (cmpi .sge),
    StableHlo.TRef.binary main_call0.v3 main_call0.c_1 main_call0.v6 (cmpi .sle),
    StableHlo.TRef.binary main_call0.v5 main_call0.v6 main_call0.v7 andi,
    StableHlo.TRef.nullary main_call0.c_3 (constantI S_ 1 1#1),
    StableHlo.TRef.binary main_call0.v7 main_call0.c_3 main_call0.v8 (fun x v => Host.reduce IntOp.andi x v reducesTo_S1_S_d0 h_S_),
    StableHlo.TRef.binary (.of main_arg1 : TRef sig ⟨S8x1024x4096, .f32⟩) main_call0.v3 main_call0.v9 (fun x i => Host.gather gather_S8x1024x4096_S1_S1024x4096_01_0_n_n_0_0_110244096 x i),
    StableHlo.TRef.unary main_call0.v8 main_call0.v10 (broadcastInDim S1024x4096 ![] bcast_S_S1024x4096),
    StableHlo.TRef.nullary main_call0.cst (constant S_ .f32 0x7FC00000#32),
    StableHlo.TRef.unary main_call0.cst main_call0.v11 (broadcastInDim S1024x4096 ![] bcast_S_S1024x4096),
    StableHlo.TRef.ternary main_call0.v10 main_call0.v9 main_call0.v11 main_call0.v12 select,
    StableHlo.TRef.nullary main_call1.c (constantI S_ 32 0#32),
    StableHlo.TRef.binary (.of main_arg5 : TRef sig ⟨S_, .i32⟩) main_call1.c main_call1.v0 (cmpi .slt),
    StableHlo.TRef.nullary main_call1.c_0 (constantI S_ 32 8#32),
    StableHlo.TRef.binary (.of main_arg5 : TRef sig ⟨S_, .i32⟩) main_call1.c_0 main_call1.v1 addi,
    StableHlo.TRef.ternary main_call1.v0 main_call1.v1 (.of main_arg5 : TRef sig ⟨S_, .i32⟩) main_call1.call0.v0 select,
    StableHlo.TRef.unary main_call1.call0.v0 main_call1.v3 (broadcastInDim S1 ![] bcast_S_S1),
    StableHlo.TRef.nullary main_call1.c_1 (constantI S1 32 7#32),
    StableHlo.TRef.nullary main_call1.c_2 (constantI S_ 32 0#32),
    StableHlo.TRef.unary main_call1.c_2 main_call1.v4 (broadcastInDim S1 ![] bcast_S_S1),
    StableHlo.TRef.binary main_call1.v3 main_call1.v4 main_call1.v5 (cmpi .sge),
    StableHlo.TRef.binary main_call1.v3 main_call1.c_1 main_call1.v6 (cmpi .sle),
    StableHlo.TRef.binary main_call1.v5 main_call1.v6 main_call1.v7 andi,
    StableHlo.TRef.nullary main_call1.c_3 (constantI S_ 1 1#1),
    StableHlo.TRef.binary main_call1.v7 main_call1.c_3 main_call1.v8 (fun x v => Host.reduce IntOp.andi x v reducesTo_S1_S_d0 h_S_),
    StableHlo.TRef.binary (.of main_arg2 : TRef sig ⟨S8x4096, .f32⟩) main_call1.v3 main_call1.v9 (fun x i => Host.gather gather_S8x4096_S1_S4096_0_0_n_n_0_0_14096 x i),
    StableHlo.TRef.unary main_call1.v8 main_call1.v10 (broadcastInDim S4096 ![] bcast_S_S4096),
    StableHlo.TRef.nullary main_call1.cst (constant S_ .f32 0x7FC00000#32),
    StableHlo.TRef.unary main_call1.cst main_call1.v11 (broadcastInDim S4096 ![] bcast_S_S4096),
    StableHlo.TRef.ternary main_call1.v10 main_call1.v9 main_call1.v11 main_call1.v12 select,
    StableHlo.TRef.nullary main_call2.c (constantI S_ 32 0#32),
    StableHlo.TRef.binary (.of main_arg5 : TRef sig ⟨S_, .i32⟩) main_call2.c main_call2.v0 (cmpi .slt),
    StableHlo.TRef.nullary main_call2.c_0 (constantI S_ 32 8#32),
    StableHlo.TRef.binary (.of main_arg5 : TRef sig ⟨S_, .i32⟩) main_call2.c_0 main_call2.v1 addi,
    StableHlo.TRef.ternary main_call2.v0 main_call2.v1 (.of main_arg5 : TRef sig ⟨S_, .i32⟩) main_call2.call0.v0 select,
    StableHlo.TRef.unary main_call2.call0.v0 main_call2.v3 (broadcastInDim S1 ![] bcast_S_S1),
    StableHlo.TRef.nullary main_call2.c_1 (constantI S1 32 7#32),
    StableHlo.TRef.nullary main_call2.c_2 (constantI S_ 32 0#32),
    StableHlo.TRef.unary main_call2.c_2 main_call2.v4 (broadcastInDim S1 ![] bcast_S_S1),
    StableHlo.TRef.binary main_call2.v3 main_call2.v4 main_call2.v5 (cmpi .sge),
    StableHlo.TRef.binary main_call2.v3 main_call2.c_1 main_call2.v6 (cmpi .sle),
    StableHlo.TRef.binary main_call2.v5 main_call2.v6 main_call2.v7 andi,
    StableHlo.TRef.nullary main_call2.c_3 (constantI S_ 1 1#1),
    StableHlo.TRef.binary main_call2.v7 main_call2.c_3 main_call2.v8 (fun x v => Host.reduce IntOp.andi x v reducesTo_S1_S_d0 h_S_),
    StableHlo.TRef.binary (.of main_arg3 : TRef sig ⟨S8x4096x1024, .f32⟩) main_call2.v3 main_call2.v9 (fun x i => Host.gather gather_S8x4096x1024_S1_S4096x1024_01_0_n_n_0_0_140961024 x i),
    StableHlo.TRef.unary main_call2.v8 main_call2.v10 (broadcastInDim S4096x1024 ![] bcast_S_S4096x1024),
    StableHlo.TRef.nullary main_call2.cst (constant S_ .f32 0x7FC00000#32),
    StableHlo.TRef.unary main_call2.cst main_call2.v11 (broadcastInDim S4096x1024 ![] bcast_S_S4096x1024),
    StableHlo.TRef.ternary main_call2.v10 main_call2.v9 main_call2.v11 main_call2.v12 select,
    StableHlo.TRef.nullary main_call3.c (constantI S_ 32 0#32),
    StableHlo.TRef.binary (.of main_arg5 : TRef sig ⟨S_, .i32⟩) main_call3.c main_call3.v0 (cmpi .slt),
    StableHlo.TRef.nullary main_call3.c_0 (constantI S_ 32 8#32),
    StableHlo.TRef.binary (.of main_arg5 : TRef sig ⟨S_, .i32⟩) main_call3.c_0 main_call3.v1 addi,
    StableHlo.TRef.ternary main_call3.v0 main_call3.v1 (.of main_arg5 : TRef sig ⟨S_, .i32⟩) main_call3.call0.v0 select,
    StableHlo.TRef.unary main_call3.call0.v0 main_call3.v3 (broadcastInDim S1 ![] bcast_S_S1),
    StableHlo.TRef.nullary main_call3.c_1 (constantI S1 32 7#32),
    StableHlo.TRef.nullary main_call3.c_2 (constantI S_ 32 0#32),
    StableHlo.TRef.unary main_call3.c_2 main_call3.v4 (broadcastInDim S1 ![] bcast_S_S1),
    StableHlo.TRef.binary main_call3.v3 main_call3.v4 main_call3.v5 (cmpi .sge),
    StableHlo.TRef.binary main_call3.v3 main_call3.c_1 main_call3.v6 (cmpi .sle),
    StableHlo.TRef.binary main_call3.v5 main_call3.v6 main_call3.v7 andi,
    StableHlo.TRef.nullary main_call3.c_3 (constantI S_ 1 1#1),
    StableHlo.TRef.binary main_call3.v7 main_call3.c_3 main_call3.v8 (fun x v => Host.reduce IntOp.andi x v reducesTo_S1_S_d0 h_S_),
    StableHlo.TRef.binary (.of main_arg4 : TRef sig ⟨S8x1024, .f32⟩) main_call3.v3 main_call3.v9 (fun x i => Host.gather gather_S8x1024_S1_S1024_0_0_n_n_0_0_11024 x i),
    StableHlo.TRef.unary main_call3.v8 main_call3.v10 (broadcastInDim S1024 ![] bcast_S_S1024),
    StableHlo.TRef.nullary main_call3.cst (constant S_ .f32 0x7FC00000#32),
    StableHlo.TRef.unary main_call3.cst main_call3.v11 (broadcastInDim S1024 ![] bcast_S_S1024),
    StableHlo.TRef.ternary main_call3.v10 main_call3.v9 main_call3.v11 main_call3.v12 select,
    StableHlo.binary main_arg0 main_v0 main_v4 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.unary main_v1 main_v5 (broadcastInDim S1x4096 ![1] bcast_S4096_S1x4096_1 : (⟨S4096, .f32⟩ : BufTy).Contents (Elt F) → (⟨S1x4096, .f32⟩ : BufTy).Contents (Elt F)),
    StableHlo.unary main_v5 main_v6 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v4 main_v6 main_v7 (addf : (⟨S8192x4096, .f32⟩ : BufTy).Contents (Elt F) → (⟨S8192x4096, .f32⟩ : BufTy).Contents (Elt F) → (⟨S8192x4096, .f32⟩ : BufTy).Contents (Elt F)),
    StableHlo.binary main_v7 main_v7 main_v8 (mulf : (⟨S8192x4096, .f32⟩ : BufTy).Contents (Elt F) → (⟨S8192x4096, .f32⟩ : BufTy).Contents (Elt F) → (⟨S8192x4096, .f32⟩ : BufTy).Contents (Elt F)),
    StableHlo.binary main_v8 main_v7 main_v9 (mulf : (⟨S8192x4096, .f32⟩ : BufTy).Contents (Elt F) → (⟨S8192x4096, .f32⟩ : BufTy).Contents (Elt F) → (⟨S8192x4096, .f32⟩ : BufTy).Contents (Elt F)),
    StableHlo.nullary main_cst (constant S_ .f32 0x3D372713#32),
    StableHlo.unary main_cst main_v10 (broadcastInDim S8192x4096 ![] bcast_S_S8192x4096 : (⟨S_, .f32⟩ : BufTy).Contents (Elt F) → (⟨S8192x4096, .f32⟩ : BufTy).Contents (Elt F)),
    StableHlo.binary main_v10 main_v9 main_v11 (mulf : (⟨S8192x4096, .f32⟩ : BufTy).Contents (Elt F) → (⟨S8192x4096, .f32⟩ : BufTy).Contents (Elt F) → (⟨S8192x4096, .f32⟩ : BufTy).Contents (Elt F)),
    StableHlo.binary main_v7 main_v11 main_v12 (addf : (⟨S8192x4096, .f32⟩ : BufTy).Contents (Elt F) → (⟨S8192x4096, .f32⟩ : BufTy).Contents (Elt F) → (⟨S8192x4096, .f32⟩ : BufTy).Contents (Elt F)),
    StableHlo.nullary main_cst_0 (constant S_ .f32 0x3F4C422A#32),
    StableHlo.unary main_cst_0 main_v13 (broadcastInDim S8192x4096 ![] bcast_S_S8192x4096 : (⟨S_, .f32⟩ : BufTy).Contents (Elt F) → (⟨S8192x4096, .f32⟩ : BufTy).Contents (Elt F)),
    StableHlo.binary main_v13 main_v12 main_v14 (mulf : (⟨S8192x4096, .f32⟩ : BufTy).Contents (Elt F) → (⟨S8192x4096, .f32⟩ : BufTy).Contents (Elt F) → (⟨S8192x4096, .f32⟩ : BufTy).Contents (Elt F)),
    StableHlo.unary main_v14 main_v15 (Host.tanh : (⟨S8192x4096, .f32⟩ : BufTy).Contents (Elt F) → (⟨S8192x4096, .f32⟩ : BufTy).Contents (Elt F)),
    StableHlo.nullary main_cst_1 (constant S_ .f32 0x3F800000#32),
    StableHlo.unary main_cst_1 main_v16 (broadcastInDim S8192x4096 ![] bcast_S_S8192x4096 : (⟨S_, .f32⟩ : BufTy).Contents (Elt F) → (⟨S8192x4096, .f32⟩ : BufTy).Contents (Elt F)),
    StableHlo.binary main_v16 main_v15 main_v17 (addf : (⟨S8192x4096, .f32⟩ : BufTy).Contents (Elt F) → (⟨S8192x4096, .f32⟩ : BufTy).Contents (Elt F) → (⟨S8192x4096, .f32⟩ : BufTy).Contents (Elt F)),
    StableHlo.nullary main_cst_2 (constant S_ .f32 0x3F000000#32),
    StableHlo.unary main_cst_2 main_v18 (broadcastInDim S8192x4096 ![] bcast_S_S8192x4096 : (⟨S_, .f32⟩ : BufTy).Contents (Elt F) → (⟨S8192x4096, .f32⟩ : BufTy).Contents (Elt F)),
    StableHlo.binary main_v18 main_v17 main_v19 (mulf : (⟨S8192x4096, .f32⟩ : BufTy).Contents (Elt F) → (⟨S8192x4096, .f32⟩ : BufTy).Contents (Elt F) → (⟨S8192x4096, .f32⟩ : BufTy).Contents (Elt F)),
    StableHlo.binary main_v7 main_v19 main_v20 (mulf : (⟨S8192x4096, .f32⟩ : BufTy).Contents (Elt F) → (⟨S8192x4096, .f32⟩ : BufTy).Contents (Elt F) → (⟨S8192x4096, .f32⟩ : BufTy).Contents (Elt F)),
    StableHlo.binary main_v20 main_v2 main_v21 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    StableHlo.unary main_v3 main_v22 (broadcastInDim S1x1024 ![1] bcast_S1024_S1x1024_1 : (⟨S1024, .f32⟩ : BufTy).Contents (Elt F) → (⟨S1x1024, .f32⟩ : BufTy).Contents (Elt F)),
    StableHlo.unary main_v22 main_v23 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v21 main_v23 main_v24 (addf : (⟨S8192x1024, .f32⟩ : BufTy).Contents (Elt F) → (⟨S8192x1024, .f32⟩ : BufTy).Contents (Elt F) → (⟨S8192x1024, .f32⟩ : BufTy).Contents (Elt F)) ]

/-- The line is the five stretches one after the other. -/
theorem ops_split : (ops : List (HloOp τ sig (Elt F))) = ops0 ++ (ops1 ++ (ops2 ++ (ops3 ++ opsT))) := rfl

/-- A call is its callee's operations on the call's own buffers. -/
theorem call0_eq : fn_take.body (F := F) (.of main_arg1) (.of main_arg5) main_call0 = seq ops0 := by
  simp only [fn_take.body, fn_where.body, seq, bind_assoc, pure_bind]

/-- A call is its callee's operations on the call's own buffers. -/
theorem call1_eq : fn_take_0.body (F := F) (.of main_arg2) (.of main_arg5) main_call1 = seq ops1 := by
  simp only [fn_take_0.body, fn_where.body, seq, bind_assoc, pure_bind]

/-- A call is its callee's operations on the call's own buffers. -/
theorem call2_eq : fn_take_1.body (F := F) (.of main_arg3) (.of main_arg5) main_call2 = seq ops2 := by
  simp only [fn_take_1.body, fn_where.body, seq, bind_assoc, pure_bind]

/-- A call is its callee's operations on the call's own buffers. -/
theorem call3_eq : fn_take_2.body (F := F) (.of main_arg4) (.of main_arg5) main_call3 = seq ops3 := by
  simp only [fn_take_2.body, fn_where.body, seq, bind_assoc, pure_bind]

/-- The program is that line: the four calls one after the other, then the perceptron's operations. -/
theorem main_eq (c : Dev nD) : main (F := F) c = seq ops := by
  rw [ops_split, seq_append, seq_append, seq_append, seq_append, ← call0_eq, ← call1_eq, ← call2_eq, ← call3_eq]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., nullary_bufs_sub .., binary_bufs_sub .., ternary_bufs_sub .., unary_bufs_sub .., nullary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., binary_bufs_sub .., ternary_bufs_sub .., unary_bufs_sub .., nullary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., binary_bufs_sub .., ternary_bufs_sub .., unary_bufs_sub .., nullary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., binary_bufs_sub .., ternary_bufs_sub .., unary_bufs_sub .., nullary_bufs_sub .., nullary_bufs_sub .., unary_bufs_sub .., binary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

/-- What the output buffer holds after the line, from a memory `m`, on device `c`: the fold of the operations over the
    launch contents, read at the output buffer. -/
def result (m : (ℓ : Loc nD τ sig) → Buf (Elt F) ℓ) (c : Dev nD) : FVec F S8192x1024 .f32 :=
  after ops (launchContents m c) (Proc.devRef .tc main_v24)

/-- No operation writes argument 0. -/
theorem arg0_kept (V : Valuation τ sig (Elt F)) :
    after ops V (Proc.devRef .tc main_arg0) = V (Proc.devRef .tc main_arg0) := by
  after_results_simp

/-- No operation writes argument 1. -/
theorem arg1_kept (V : Valuation τ sig (Elt F)) :
    after ops V (Proc.devRef .tc main_arg1) = V (Proc.devRef .tc main_arg1) := by
  after_results_simp

/-- No operation writes argument 2. -/
theorem arg2_kept (V : Valuation τ sig (Elt F)) :
    after ops V (Proc.devRef .tc main_arg2) = V (Proc.devRef .tc main_arg2) := by
  after_results_simp

/-- No operation writes argument 3. -/
theorem arg3_kept (V : Valuation τ sig (Elt F)) :
    after ops V (Proc.devRef .tc main_arg3) = V (Proc.devRef .tc main_arg3) := by
  after_results_simp

/-- No operation writes argument 4. -/
theorem arg4_kept (V : Valuation τ sig (Elt F)) :
    after ops V (Proc.devRef .tc main_arg4) = V (Proc.devRef .tc main_arg4) := by
  after_results_simp

/-- No operation writes argument 5. -/
theorem arg5_kept (V : Valuation τ sig (Elt F)) :
    after ops V (Proc.devRef .tc main_arg5) = V (Proc.devRef .tc main_arg5) := by
  after_results_simp

/-- On every device, for any float values, from any memory with zero counters: every weakly fair execution of the
    program terminates, with the output buffer at `result` and the six argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v24,
      (h c main_arg0).trans (arg0_kept _), (h c main_arg1).trans (arg1_kept _), (h c main_arg2).trans (arg2_kept _),
      (h c main_arg3).trans (arg3_kept _), (h c main_arg4).trans (arg4_kept _), (h c main_arg5).trans (arg5_kept _)⟩)
    (run_seq scopedRefs_eq scopedSems_eq defs main (fun _ => ops) main_eq (fun _ => ops_sub) m ρ)

end Cert.ReferenceIdeal.RefValue

end
-- ==== Proof.RefFrame.lean ====
/-
  The host program runs and leaves its arguments as they were: its run with the result dropped.
-/
import proofs.«119035_g17592186045067_cont_7to1_1554_11_alg».proof.Defs
import proofs.«119035_g17592186045067_cont_7to1_1554_11_alg».proof.Proof.Gen.Pre_finite_inputs
import proofs.«119035_g17592186045067_cont_7to1_1554_11_alg».proof.Proof.RefRun

noncomputable section

namespace Cert.ReferenceIdeal.RefValue

open Idealize.ShloMosaic Idealize.SL.Sem

/-- Every weakly fair execution of the host program terminates without a fault and the six argument arrays end
    unchanged, from any memory whatever: a straight line of operations needs no precondition. -/
theorem frame : Cert.frame_ReferenceIdeal :=
  fun m ρ _ => (θ_run Cert.ReferenceIdeal.defs _ _).mono (fun _ h c => (h c).2) (run (F := Ideal) m ρ)

end Cert.ReferenceIdeal.RefValue

end
-- ==== Proof.RefDefs.lean ====
/-
  The host program's operations composed into functions of values.

  Each selection is one function of a stacked parameter array and the index word: the word is wrapped (eight added
  when it is negative) and made a one-element vector of start indices, a slice of the leading axis is gathered at
  it, and a test of the wrapped index against `0 … 7` chooses between the gathered slice and a fill value.  The
  perceptron is one function of the token rows and the four selected parameters.  These are the program's own
  operations in its own order, applied to values.
-/
import proofs.«119035_g17592186045067_cont_7to1_1554_11_alg».proof.Proof.Gen.ReferenceIdeal

noncomputable section

namespace Cert.ReferenceIdeal.RefValue

open Cert.ReferenceIdeal Cert.ReferenceIdeal.Gen Idealize.ShloMosaic

variable {F : FTy → Type} [FloatOps F]

/-- The index a selection reads: the index word, with eight added when it is negative, as a one-element vector. -/
def wrapped (col : IVec S_ 32) : IVec S1 32 :=
  broadcastInDim S1 ![] bcast_S_S1
    (select (cmpi .slt col (constantI S_ 32 0#32)) (addi col (constantI S_ 32 8#32)) col)

/-- Whether that index lies in `0 … 7`: both comparisons, conjoined over the one element. -/
def inRange (i : IVec S1 32) : IVec S_ 1 :=
  Host.reduce IntOp.andi
    (andi (cmpi .sge i (broadcastInDim S1 ![] bcast_S_S1 (constantI S_ 32 0#32))) (cmpi .sle i (constantI S1 32 7#32)))
    (constantI S_ 1 1#1) reducesTo_S1_S_d0 h_S_

/-- The first layer's weights of the selected expert: the gathered `[1024, 4096]` slice where the index is in range, the fill value elsewhere. -/
def sel0 (P : FVec F S8x1024x4096 .f32) (col : IVec S_ 32) : FVec F S1024x4096 .f32 :=
  select (broadcastInDim S1024x4096 ![] bcast_S_S1024x4096 (inRange (wrapped col)))
    (Host.gather gather_S8x1024x4096_S1_S1024x4096_01_0_n_n_0_0_110244096 P (wrapped col))
    (broadcastInDim S1024x4096 ![] bcast_S_S1024x4096 (constant (F := F) S_ .f32 0x7FC00000#32))

/-- The first layer's bias of the selected expert. -/
def sel1 (P : FVec F S8x4096 .f32) (col : IVec S_ 32) : FVec F S4096 .f32 :=
  select (broadcastInDim S4096 ![] bcast_S_S4096 (inRange (wrapped col)))
    (Host.gather gather_S8x4096_S1_S4096_0_0_n_n_0_0_14096 P (wrapped col))
    (broadcastInDim S4096 ![] bcast_S_S4096 (constant (F := F) S_ .f32 0x7FC00000#32))

/-- The second layer's weights of the selected expert. -/
def sel2 (P : FVec F S8x4096x1024 .f32) (col : IVec S_ 32) : FVec F S4096x1024 .f32 :=
  select (broadcastInDim S4096x1024 ![] bcast_S_S4096x1024 (inRange (wrapped col)))
    (Host.gather gather_S8x4096x1024_S1_S4096x1024_01_0_n_n_0_0_140961024 P (wrapped col))
    (broadcastInDim S4096x1024 ![] bcast_S_S4096x1024 (constant (F := F) S_ .f32 0x7FC00000#32))

/-- The second layer's bias of the selected expert. -/
def sel3 (P : FVec F S8x1024 .f32) (col : IVec S_ 32) : FVec F S1024 .f32 :=
  select (broadcastInDim S1024 ![] bcast_S_S1024 (inRange (wrapped col)))
    (Host.gather gather_S8x1024_S1_S1024_0_0_n_n_0_0_11024 P (wrapped col))
    (broadcastInDim S1024 ![] bcast_S_S1024 (constant (F := F) S_ .f32 0x7FC00000#32))

/-- The hidden pre-activations: the token rows times the first weights, plus the first bias on every row. -/
def pre (x : FVec F S8192x1024 .f32) (W : FVec F S1024x4096 .f32) (b : FVec F S4096 .f32) : FVec F S8192x4096 .f32 :=
  addf (Host.dotGeneral dot_S8192x1024_S1024x4096_S8192x4096_1_0_0_1_n_n none x W)
    (broadcastInDim S8192x4096 ![0, 1] bcast_S1x4096_S8192x4096_0_1 (broadcastInDim S1x4096 ![1] bcast_S4096_S1x4096_1 b))

/-- The tanh form of GELU, elementwise, in the program's order of operations. -/
def act (z : FVec F S8192x4096 .f32) : FVec F S8192x4096 .f32 :=
  mulf z
    (mulf (broadcastInDim S8192x4096 ![] bcast_S_S8192x4096 (constant (F := F) S_ .f32 0x3F000000#32))
      (addf (broadcastInDim S8192x4096 ![] bcast_S_S8192x4096 (constant (F := F) S_ .f32 0x3F800000#32))
        (Host.tanh
          (mulf (broadcastInDim S8192x4096 ![] bcast_S_S8192x4096 (constant (F := F) S_ .f32 0x3F4C422A#32))
            (addf z
              (mulf (broadcastInDim S8192x4096 ![] bcast_S_S8192x4096 (constant (F := F) S_ .f32 0x3D372713#32))
                (mulf (mulf z z) z)))))))

/-- The perceptron on selected parameters: the activations times the second weights, plus the second bias on every row. -/
def mlp (x : FVec F S8192x1024 .f32) (W1 : FVec F S1024x4096 .f32) (b1 : FVec F S4096 .f32)
    (W2 : FVec F S4096x1024 .f32) (b2 : FVec F S1024 .f32) : FVec F S8192x1024 .f32 :=
  addf (Host.dotGeneral dot_S8192x4096_S4096x1024_S8192x1024_1_0_0_1_n_n none (act (pre x W1 b1)) W2)
    (broadcastInDim S8192x1024 ![0, 1] bcast_S1x1024_S8192x1024_0_1 (broadcastInDim S1x1024 ![1] bcast_S1024_S1x1024_1 b2))

/-- The whole program as one function of the six argument arrays. -/
def whole (x : FVec F S8192x1024 .f32) (W1 : FVec F S8x1024x4096 .f32) (b1 : FVec F S8x4096 .f32)
    (W2 : FVec F S8x4096x1024 .f32) (b2 : FVec F S8x1024 .f32) (col : IVec S_ 32) : FVec F S8192x1024 .f32 :=
  mlp x (sel0 W1 col) (sel1 b1 col) (sel2 W2 col) (sel3 b2 col)

end Cert.ReferenceIdeal.RefValue

end
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.RefTerm.lean ====
/-
  The fold of the host program's operations at the output buffer, as the composed function of the six argument
  arrays.  Each operation's result at its own buffer is its function of its operands' contents, and at any other
  buffer what was there; unwinding the line from the output buffer back to the arguments leaves the selections and
  the perceptron applied to the argument contents.  A called function's operations pass their operands through the
  transport between a buffer's declared type and the value's type, which is the identity at these literal buffers.
-/
import proofs.«119035_g17592186045067_cont_7to1_1554_11_alg».proof.Proof.RefRun
import proofs.«119035_g17592186045067_cont_7to1_1554_11_alg».proof.Proof.RefDefs
import proofs.«119035_g17592186045067_cont_7to1_1554_11_alg».proof.Proof.LibTRefCasts

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- the gathers, the reductions, the products and the hyperbolic tangent stay folded: the equation is between the
-- same operations applied to the same operands, and never looks inside one
attribute [local irreducible] Host.gather Host.reduce FloatOps.dotGeneral Host.tanh broadcastInDim in
set_option maxRecDepth 8192 in
/-- The fold of the line at the output buffer is the composed function of the contents of the six argument buffers. -/
theorem value (V : Valuation τ sig (Elt F)) :
    after ops V (Proc.devRef .tc main_v24)
      = whole (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  simp only [Cert.Lib.ofBuf_toBuf]
  rfl

end Cert.ReferenceIdeal.RefValue

end
-- ==== Proof.RefSelect.lean ====
/-
  The selections read at an index, for an index word in range.

  With the index word `w` satisfying `w.toNat = e` for some `e < 8`: the word is not negative as a signed number,
  so the wrap keeps it; both range comparisons hold, so the conjunction over the one-element vector is 1 and the
  final choice takes the gathered slice; and the gather's start index, read signed and clamped into `0 … 7`, is `e`
  itself.  So each selection is the stacked array's slice number `e`.
-/
import proofs.«119035_g17592186045067_cont_7to1_1554_11_alg».proof.Proof.RefDefs
import Idealize.ShloMosaic.Lib.ValueIdx
import Idealize.ShloMosaic.Lib.Affine
import Idealize.ShloMosaic.PureOps.Reduce

noncomputable section

namespace Cert.ReferenceIdeal.RefValue

open Cert.ReferenceIdeal Cert.ReferenceIdeal.Gen Idealize.ShloMosaic Idealize.ShloMosaic.ValueIdx

variable {α : Type}

/-! ## Words in range -/

/-- A word below eight as a natural number is the same number read signed. -/
theorem toInt_of_lt8 {w : BitVec 32} {n : Nat} (hn : n < 8) (h : w.toNat = n) : w.toInt = (n : Int) := by
  rw [BitVec.toInt_eq_toNat_cond]
  split <;> omega

/-- A scalar broadcast reads the scalar's one element everywhere. -/
theorem scalar_bcast (t : Shape) (h : S_.BroadcastsInDim t (![] : Fin 0 → Fin t.rank)) (x : S_.Idx → α) (j : t.Idx) :
    broadcastInDim t ![] h x j = x ix0 :=
  congrArg x (funext fun a => a.elim0)

/-- The wrap keeps a word in range: it is not negative. -/
theorem wrapped_apply (col : IVec S_ 32) (e : Fin 8) (he : (col ix0).toNat = e.val) (i : S1.Idx) :
    wrapped col i = col ix0 := by
  unfold wrapped
  rw [scalar_bcast]
  show Scalar.select (IntOp.cmpi .slt (col ix0) 0#32) (IntOp.addi (col ix0) 8#32) (col ix0) = col ix0
  have h0 : IntOp.cmpi .slt (col ix0) 0#32 = 0#1 := by
    refine eq_zero_of_ne_one fun h1 => ?_
    have h2 := IntOp.cmpi_slt.1 h1
    rw [toInt_of_lt8 e.isLt he] at h2
    have h3 : (0#32 : BitVec 32).toInt = 0 := by decide
    omega
  rw [h0, select_zero]

/-- A left fold by `and` from 1 over words that are all 1 is 1. -/
theorem foldl_andi_one {ι : Type} (f : ι → BitVec 1) (hf : ∀ n, f n = 1#1) :
    ∀ (l : List ι) (r : BitVec 1), r = 1#1 → l.foldl (fun r n => IntOp.andi r (f n)) r = 1#1
  | [], _, h => h
  | a :: l, _, h => foldl_andi_one f hf l _ (IntOp.andi_eq_one.2 ⟨h, hf a⟩)

/-- The range test of an index vector whose every element is below eight is 1. -/
theorem inRange_one (i : IVec S1 32) (e : Fin 8) (hi : ∀ k, (i k).toNat = e.val) (j : S_.Idx) : inRange i j = 1#1 := by
  unfold inRange
  rw [Host.reduce_eq_foldl]
  refine foldl_andi_one _ (fun k => ?_) _ _ rfl
  have hk := toInt_of_lt8 e.isLt (hi k)
  refine IntOp.andi_eq_one.2 ⟨IntOp.cmpi_sge.2 ?_, IntOp.cmpi_sle.2 ?_⟩
  · rw [scalar_bcast]
    show (0#32 : BitVec 32).toInt ≤ (i k).toInt
    have h3 : (0#32 : BitVec 32).toInt = 0 := by decide
    omega
  · show (i k).toInt ≤ (7#32 : BitVec 32).toInt
    have h3 : (7#32 : BitVec 32).toInt = 7 := by decide
    have := e.isLt
    omega

/-! ## A gather of one slice of the leading axis, read at an index

What `x[i]` of a stacked array at a scalar index lowers to: the start indices are a one-element vector (its only axis
the index vector's), the leading operand axis is collapsed with slice size one, every other axis is an offset axis
taken whole.  The result at an index is the operand at the start index — read signed and clamped into the leading
axis — followed by the same coordinates. -/

/-- Those dimension numbers for an operand `[N, R, C]` and result `[R, C]`. -/
abbrev slab3Dims (N R C : Nat)
    (wf : GatherDims.WF ⟨3, ![N, R, C]⟩ ⟨1, ![1]⟩ ⟨2, ![R, C]⟩ [0, 1] [0] [] [0] [] 0 ![1, R, C]) :
    GatherDims ⟨3, ![N, R, C]⟩ ⟨1, ![1]⟩ ⟨2, ![R, C]⟩ where
  offsetDims := [0, 1]
  collapsedSliceDims := [0]
  operandBatchingDims := []
  startIndicesBatchingDims := []
  startIndexMap := [0]
  indexVectorDim := 0
  sliceSizes := ![1, R, C]
  wf := wf

/-- The slice gather of a rank-3 operand read at `(r, c)`. -/
theorem gather_slab3_apply {N R C w : Nat} (hN : 0 < N)
    (wf : GatherDims.WF ⟨3, ![N, R, C]⟩ ⟨1, ![1]⟩ ⟨2, ![R, C]⟩ [0, 1] [0] [] [0] [] 0 ![1, R, C])
    (x : (⟨3, ![N, R, C]⟩ : Shape).Idx → α) (idx : IVec ⟨1, ![1]⟩ w) (r : Fin R) (c : Fin C) :
    Host.gather (slab3Dims N R C wf) x idx (ix2 r c)
      = x (ix3 (⟨min (idx (ix1 0)).toInt.toNat (N - 1), by omega⟩ : Fin N) r c) := by
  unfold Host.gather
  congr 1
  funext a
  refine Fin.ext ?_
  show (slab3Dims N R C wf).start (ix2 r c) idx a + (slab3Dims N R C wf).batchCoord (ix2 r c) a
      + (slab3Dims N R C wf).offCoord (ix2 r c) a = _
  rw [GatherDims.batchCoord_eq_zero _ _ _ List.not_mem_nil, Nat.add_zero]
  match a with
  | ⟨0, _⟩ =>
    rw [GatherDims.offCoord_eq_zero _ _ _
      (fun h => ((GatherDims.mem_sKept _ _).mp h).1 (List.mem_singleton.mpr rfl)), Nat.add_zero]
    unfold GatherDims.start
    rw [dif_pos (show (⟨0, _⟩ : Fin 3) ∈ (slab3Dims N R C wf).startIndexMap from List.mem_singleton.mpr rfl)]
    have hsi : (slab3Dims N R C wf).siIdx (ix2 r c) ⟨List.idxOf (⟨0, _⟩ : Fin 3) (slab3Dims N R C wf).startIndexMap,
        List.idxOf_lt_length_iff.2 (List.mem_singleton.mpr rfl)⟩ = ix1 0 := by
      funext b; refine Fin.ext ?_
      match b with
      | ⟨0, _⟩ => rfl
    rw [hsi]
    rfl
  | ⟨1, _⟩ =>
    unfold GatherDims.start
    rw [dif_neg (show (⟨1, _⟩ : Fin 3) ∉ (slab3Dims N R C wf).startIndexMap from
      fun h => absurd (congrArg Fin.val (List.mem_singleton.mp h)) Nat.one_ne_zero), Nat.zero_add]
    rfl
  | ⟨2, _⟩ =>
    unfold GatherDims.start
    rw [dif_neg (show (⟨2, _⟩ : Fin 3) ∉ (slab3Dims N R C wf).startIndexMap from
      fun h => absurd (congrArg Fin.val (List.mem_singleton.mp h)) (Nat.succ_ne_zero 1)), Nat.zero_add]
    rfl

/-- Those dimension numbers for an operand `[N, C]` and result `[C]`. -/
abbrev slab2Dims (N C : Nat)
    (wf : GatherDims.WF ⟨2, ![N, C]⟩ ⟨1, ![1]⟩ ⟨1, ![C]⟩ [0] [0] [] [0] [] 0 ![1, C]) :
    GatherDims ⟨2, ![N, C]⟩ ⟨1, ![1]⟩ ⟨1, ![C]⟩ where
  offsetDims := [0]
  collapsedSliceDims := [0]
  operandBatchingDims := []
  startIndicesBatchingDims := []
  startIndexMap := [0]
  indexVectorDim := 0
  sliceSizes := ![1, C]
  wf := wf

/-- The slice gather of a rank-2 operand read at `c`. -/
theorem gather_slab2_apply {N C w : Nat} (hN : 0 < N)
    (wf : GatherDims.WF ⟨2, ![N, C]⟩ ⟨1, ![1]⟩ ⟨1, ![C]⟩ [0] [0] [] [0] [] 0 ![1, C])
    (x : (⟨2, ![N, C]⟩ : Shape).Idx → α) (idx : IVec ⟨1, ![1]⟩ w) (c : Fin C) :
    Host.gather (slab2Dims N C wf) x idx (ix1 c)
      = x (ix2 (⟨min (idx (ix1 0)).toInt.toNat (N - 1), by omega⟩ : Fin N) c) := by
  unfold Host.gather
  congr 1
  funext a
  refine Fin.ext ?_
  show (slab2Dims N C wf).start (ix1 c) idx a + (slab2Dims N C wf).batchCoord (ix1 c) a
      + (slab2Dims N C wf).offCoord (ix1 c) a = _
  rw [GatherDims.batchCoord_eq_zero _ _ _ List.not_mem_nil, Nat.add_zero]
  match a with
  | ⟨0, _⟩ =>
    rw [GatherDims.offCoord_eq_zero _ _ _
      (fun h => ((GatherDims.mem_sKept _ _).mp h).1 (List.mem_singleton.mpr rfl)), Nat.add_zero]
    unfold GatherDims.start
    rw [dif_pos (show (⟨0, _⟩ : Fin 2) ∈ (slab2Dims N C wf).startIndexMap from List.mem_singleton.mpr rfl)]
    have hsi : (slab2Dims N C wf).siIdx (ix1 c) ⟨List.idxOf (⟨0, _⟩ : Fin 2) (slab2Dims N C wf).startIndexMap,
        List.idxOf_lt_length_iff.2 (List.mem_singleton.mpr rfl)⟩ = ix1 0 := by
      funext b; refine Fin.ext ?_
      match b with
      | ⟨0, _⟩ => rfl
    rw [hsi]
    rfl
  | ⟨1, _⟩ =>
    unfold GatherDims.start
    rw [dif_neg (show (⟨1, _⟩ : Fin 2) ∉ (slab2Dims N C wf).startIndexMap from
      fun h => absurd (congrArg Fin.val (List.mem_singleton.mp h)) Nat.one_ne_zero), Nat.zero_add]
    rfl

/-- The clamped start index of a word in range is the word. -/
theorem clamp_eq (col : IVec S_ 32) (e : Fin 8) (he : (col ix0).toNat = e.val) (h) :
    (⟨min (wrapped col (ix1 0)).toInt.toNat (8 - 1), h⟩ : Fin 8) = e := by
  refine Fin.ext ?_
  show min (wrapped col (ix1 0)).toInt.toNat (8 - 1) = e.val
  rw [wrapped_apply col e he, toInt_of_lt8 e.isLt he]
  have := e.isLt
  omega

/-! ## The four selections -/

variable {F : FTy → Type} [FloatOps F]

/-- The choice between the gathered slice and the fill value takes the slice when the word is in range. -/
theorem choice_apply {t : Shape} (hb : S_.BroadcastsInDim t (![] : Fin 0 → Fin t.rank)) (col : IVec S_ 32) (e : Fin 8)
    (he : (col ix0).toNat = e.val) (a b : t.Idx → α) (j : t.Idx) :
    select (broadcastInDim t ![] hb (inRange (wrapped col))) a b j = a j := by
  rw [select_apply, scalar_bcast, inRange_one _ e (fun k => by rw [wrapped_apply col e he]; exact he), select_one]

/-- The first layer's weights of expert `e`. -/
theorem sel0_apply (P : FVec F S8x1024x4096 .f32) (col : IVec S_ 32) (e : Fin 8) (he : (col ix0).toNat = e.val)
    (r : Fin 1024) (c : Fin 4096) : sel0 P col (ix2 r c) = P (ix3 e r c) := by
  unfold sel0
  rw [choice_apply _ col e he]
  refine (gather_slab3_apply (N := 8) (by decide) gather_S8x1024x4096_S1_S1024x4096_01_0_n_n_0_0_110244096_wf P (wrapped col) r c).trans ?_
  rw [clamp_eq col e he]

/-- The first layer's bias of expert `e`. -/
theorem sel1_apply (P : FVec F S8x4096 .f32) (col : IVec S_ 32) (e : Fin 8) (he : (col ix0).toNat = e.val)
    (c : Fin 4096) : sel1 P col (ix1 c) = P (ix2 e c) := by
  unfold sel1
  rw [choice_apply _ col e he]
  refine (gather_slab2_apply (N := 8) (by decide) gather_S8x4096_S1_S4096_0_0_n_n_0_0_14096_wf P (wrapped col) c).trans ?_
  rw [clamp_eq col e he]

/-- The second layer's weights of expert `e`. -/
theorem sel2_apply (P : FVec F S8x4096x1024 .f32) (col : IVec S_ 32) (e : Fin 8) (he : (col ix0).toNat = e.val)
    (r : Fin 4096) (c : Fin 1024) : sel2 P col (ix2 r c) = P (ix3 e r c) := by
  unfold sel2
  rw [choice_apply _ col e he]
  refine (gather_slab3_apply (N := 8) (by decide) gather_S8x4096x1024_S1_S4096x1024_01_0_n_n_0_0_140961024_wf P (wrapped col) r c).trans ?_
  rw [clamp_eq col e he]

/-- The second layer's bias of expert `e`. -/
theorem sel3_apply (P : FVec F S8x1024 .f32) (col : IVec S_ 32) (e : Fin 8) (he : (col ix0).toNat = e.val)
    (c : Fin 1024) : sel3 P col (ix1 c) = P (ix2 e c) := by
  unfold sel3
  rw [choice_apply _ col e he]
  refine (gather_slab2_apply (N := 8) (by decide) gather_S8x1024_S1_S1024_0_0_n_n_0_0_11024_wf P (wrapped col) c).trans ?_
  rw [clamp_eq col e he]

end Cert.ReferenceIdeal.RefValue

end
-- ==== Proof.Spec.lean ====
/-
  The function both programs compute, as extended reals, index by index.

  With `e` the selected expert, a token row `t` and an output column `d`:
    z t f   = (∑ k < 1024, x t k * W1 e k f) + b1 e f                  (the first linear layer, 4096 hidden units)
    gelu z  = z * (1/2 * (1 + tanh (c * (z + a * ((z * z) * z)))))     (the tanh form; c, a the two binary constants)
    out t d = (∑ f < 4096, gelu (z t f) * W2 e f d) + b2 e d           (the second linear layer)
  The spelling is the host program's, operation for operation, so that its run reads as this function at once;
  the blocked, fused program is brought to it by the laws of Algebra.
-/
import Idealize.ShloMosaic.PureOps.Ideal
import Idealize.ShloMosaic.Lib.ValueIdx

noncomputable section

open scoped BigOperators

namespace Cert.MoeMlp

open Idealize.ShloMosaic Idealize.ShloMosaic.ValueIdx

/-- The constant `c` of the tanh form: the binary fraction nearest `√(2/π)` in single precision. -/
abbrev cC : EReal := Ideal.ofBits .f32 0x3F4C422A#32
/-- The constant `a` of the tanh form: the binary fraction nearest `0.044715` in single precision. -/
abbrev cA : EReal := Ideal.ofBits .f32 0x3D372713#32
/-- One half. -/
abbrev cHalf : EReal := Ideal.ofBits .f32 0x3F000000#32
/-- One. -/
abbrev cOne : EReal := Ideal.ofBits .f32 0x3F800000#32

/-- The tanh form of GELU on the extended reals, in the host program's order of operations. -/
def gelu (z : EReal) : EReal :=
  z * (cHalf * (cOne + Ideal.tanh (cC * (z + cA * ((z * z) * z)))))

/-- The hidden pre-activation of token `t` at hidden unit `f` under expert `e`. -/
def hidden (x : (⟨2, ![8192, 1024]⟩ : Shape).Idx → EReal) (W1 : (⟨3, ![8, 1024, 4096]⟩ : Shape).Idx → EReal)
    (b1 : (⟨2, ![8, 4096]⟩ : Shape).Idx → EReal) (e : Fin 8) (t : Fin 8192) (f : Fin 4096) : EReal :=
  (∑ k : Fin 1024, x (ix2 t k) * W1 (ix3 e k f)) + b1 (ix2 e f)

/-- The selected expert's two-layer perceptron applied to every token row. -/
def out (x : (⟨2, ![8192, 1024]⟩ : Shape).Idx → EReal) (W1 : (⟨3, ![8, 1024, 4096]⟩ : Shape).Idx → EReal)
    (b1 : (⟨2, ![8, 4096]⟩ : Shape).Idx → EReal) (W2 : (⟨3, ![8, 4096, 1024]⟩ : Shape).Idx → EReal)
    (b2 : (⟨2, ![8, 1024]⟩ : Shape).Idx → EReal) (e : Fin 8) :
    (⟨2, ![8192, 1024]⟩ : Shape).Idx → EReal :=
  fun i => (∑ f : Fin 4096, gelu (hidden x W1 b1 e (i 0) f) * W2 (ix3 e f (i 1))) + b2 (ix2 e (i 1))

/-- The expert a scalar index word names when it lies in range: its value as a natural number. -/
def expertOf (col : BitVec 32) (h : col.toNat < 8) : Fin 8 := ⟨col.toNat, h⟩

end Cert.MoeMlp

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.RefMlp.lean ====
/-
  The perceptron read at an index, over the extended reals.

  A plain `[M, K] × [K, N]` product at `(p, q)` is the sum over the contracted coordinate; a bias vector made a
  one-row matrix and then repeated on every row reads, at `(p, q)`, the vector at `q`; a broadcast scalar reads the
  scalar; every other operation acts element by element.  So the output at token row `t` and column `d` is
    (∑ f, gelu ((∑ k, x t k * W1 k f) + b1 f) * W2 f d) + b2 d,
  and, the four parameters being slices number `e` of the stacked arrays, the whole program is the function of
  `Cert.MoeMlp.out` at expert `e`.
-/
import proofs.«119035_g17592186045067_cont_7to1_1554_11_alg».proof.Proof.RefSelect
import proofs.«119035_g17592186045067_cont_7to1_1554_11_alg».proof.Proof.Spec
import proofs.«119035_g17592186045067_cont_7to1_1554_11_alg».proof.Proof.LibPlainDot
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- A vector made a one-row matrix and repeated on every row, read at `(p, q)`: the vector at `q`. -/
theorem rows_bcast {A B : Nat} (hB : B ≠ 1) (h1 : (⟨1, ![B]⟩ : Shape).BroadcastsInDim ⟨2, ![1, B]⟩ ![1])
    (h2 : (⟨2, ![1, B]⟩ : Shape).BroadcastsInDim ⟨2, ![A, B]⟩ ![0, 1]) (b : (⟨1, ![B]⟩ : Shape).Idx → EReal) (p : Fin A) (q : Fin B) :
    broadcastInDim ⟨2, ![A, B]⟩ ![0, 1] h2 (broadcastInDim ⟨2, ![1, B]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ => exact (if_neg hB).symm)]
  exact broadcastInDim_apply ![1] h1 b (ix2 (0 : Fin 1) q) (ix1 q) (fun a => by
    match a with
    | ⟨0, _⟩ => exact (if_neg hB).symm)

/-- The hidden pre-activation at token row `t` and hidden unit `f`. -/
theorem pre_apply (x : FVec Ideal S8192x1024 .f32) (W : FVec Ideal S1024x4096 .f32) (b : FVec Ideal S4096 .f32)
    (t : Fin 8192) (f : Fin 4096) :
    pre x W b (ix2 t f) = (∑ k : Fin 1024, x (ix2 t k) * W (ix2 k f)) + b (ix1 f) := by
  unfold pre
  rw [addf_apply]
  refine congrArg₂ (· + ·) ?_ ?_
  · exact Cert.Lib.dotGeneral_plain_apply (M := 8192) (K := 1024) (N := 4096) none .single x W t f
  · exact rows_bcast (by decide) _ _ b t f

/-- The activation is the tanh form of GELU at every element. -/
theorem act_apply (z : FVec Ideal S8192x4096 .f32) (i : S8192x4096.Idx) : act z i = Cert.MoeMlp.gelu (z i) := by
  unfold act Cert.MoeMlp.gelu
  simp only [mulf_apply, addf_apply, scalar_bcast, constant_apply]
  rfl

/-- The perceptron's output at token row `t` and column `d`. -/
theorem mlp_apply (x : FVec Ideal S8192x1024 .f32) (W1 : FVec Ideal S1024x4096 .f32) (b1 : FVec Ideal S4096 .f32)
    (W2 : FVec Ideal S4096x1024 .f32) (b2 : FVec Ideal S1024 .f32) (t : Fin 8192) (d : Fin 1024) :
    mlp x W1 b1 W2 b2 (ix2 t d)
      = (∑ f : Fin 4096, Cert.MoeMlp.gelu ((∑ k : Fin 1024, x (ix2 t k) * W1 (ix2 k f)) + b1 (ix1 f)) * W2 (ix2 f d))
          + b2 (ix1 d) := by
  unfold mlp
  rw [addf_apply]
  refine congrArg₂ (· + ·) ?_ ?_
  · refine (Cert.Lib.dotGeneral_plain_apply (M := 8192) (K := 4096) (N := 1024) none .single (act (pre x W1 b1)) W2 t d).trans ?_
    refine Finset.sum_congr rfl fun f _ => ?_
    rw [act_apply, pre_apply]
  · exact rows_bcast (by decide) _ _ b2 t d

/-- The whole program, for an index word naming expert `e`, is the specification at `e`. -/
theorem whole_eq (x : FVec Ideal S8192x1024 .f32) (W1 : FVec Ideal S8x1024x4096 .f32) (b1 : FVec Ideal S8x4096 .f32)
    (W2 : FVec Ideal S8x4096x1024 .f32) (b2 : FVec Ideal S8x1024 .f32) (col : IVec S_ 32) (e : Fin 8)
    (he : (col ix0).toNat = e.val) :
    whole x W1 b1 W2 b2 col = Cert.MoeMlp.out x W1 b1 W2 b2 e := by
  funext i
  obtain ⟨t, d, rfl⟩ : ∃ (t : Fin 8192) (d : Fin 1024), i = ix2 t d := ⟨i 0, i 1, eq_ix2 i⟩
  unfold whole
  rw [mlp_apply]
  simp only [sel0_apply _ col e he, sel1_apply _ col e he, sel2_apply _ col e he, sel3_apply _ col e he]
  rfl

end Cert.ReferenceIdeal.RefValue

end
-- ==== Proof.RefSpec.lean ====
/-
  The host program's result is the specification.

  The fold of the program's operations at the output buffer is the composed function of the argument arrays, and that
  function, when the index word names expert `e`, is the selected expert's perceptron applied to every token row.
-/
import proofs.«119035_g17592186045067_cont_7to1_1554_11_alg».proof.Proof.RefTerm
import proofs.«119035_g17592186045067_cont_7to1_1554_11_alg».proof.Proof.RefMlp

noncomputable section

namespace Cert.ReferenceIdeal.RefValue

open Cert.ReferenceIdeal Cert.ReferenceIdeal.Gen Idealize.ShloMosaic Idealize.ShloMosaic.TcCoe Idealize.SL.Sem Idealize.ShloMosaic.StableHlo

/-- From a memory whose index word names expert `e`, the program's result on device `c` is the specification at `e` of
    the five parameter arrays as the memory holds them. -/
theorem result_eq (m : (ℓ : Loc nD τ sig) → Buf (Elt Ideal) ℓ) (c : Dev nD) (e : Fin 8)
    (he : (m ((c.tc : Thread nD τ).loc main_arg5) ValueIdx.ix0).toNat = e.val) :
    result (F := Ideal) m c
      = Cert.MoeMlp.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) e :=
  (value (F := Ideal) (launchContents m c)).trans
    (whole_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) e he)

end Cert.ReferenceIdeal.RefValue

end
-- ==== Proof.KBase.lean ====
/-
  The contents of the core's buffers when the kernel region is entered, and the prefetched table read off them.

  The program first broadcasts the scalar expert index into a one-word table in scalar memory and reshapes the two
  bias arrays; then the one kernel region runs. `V` is each buffer after those three host operations, `tbl` the
  table's contents there, `Ok` the pipeline's side condition of it (every table-indexed block inside its array),
  and `adm` / `cfgM` the table as admissible contents and the pipeline at them.
-/
import proofs.«119035_g17592186045067_cont_7to1_1554_11_alg».proof.Proof.Gen.KernelIdeal.Launch
import Idealize.ShloMosaic.Lib.Pipeline.Frame

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-- Core `c`'s buffers at launch, as the host operations' valuation; -/
abbrev V₀ (c : Dev nD) : Valuation τ sig (Elt F) := fun b => m (c, b)

/-- and when the region is entered: the three host operations have run. -/
abbrev V (c : Dev nD) (b : Ref sig .tc) : Buf (Elt F) ((c : Thread nD τ).loc b) :=
  StableHlo.after hostOps0 (V₀ m c) b

/-- The table's contents when the region is entered (there is one device). -/
def tbl : pre0.Contents (Elt F) := fun j => V m (0 : Dev nD) (pre0.ref j)

/-- On every device the table holds those contents. -/
theorem V_pre (c : Dev nD) (j : Fin 1) : V m c (pre0.ref j) = tbl m j := by
  obtain rfl : c = 0 := Subsingleton.elim _ _; rfl

/-- The pipeline's side condition of the table's contents. -/
abbrev Ok : Prop := ok0 (F := F) (tbl m)

/-- The table as admissible contents, and the pipeline at them. -/
abbrev adm (hO : Ok m) : (pcfg0 (F := F)).Adm := ⟨tbl m, hO⟩
abbrev cfgM (hO : Ok m) : Pipeline.Cfg sig Λ₀ := cfg0 (adm m hO)

end Cert.KernelIdeal.Run

end
-- ==== Proof.KLaunch.lean ====
/-
  The kernel's run, from any proof data of the one pipeline.

  The program is three host operations (the scalar expert index broadcast into the one-word table, the two bias
  arrays reshaped) followed by the kernel region, whose index maps read the table. Given proof data for the pipeline
  at the table's contents — what the body leaves in each window, an invariant carrying the scratch tile between grid
  points, and the body obligation — every weakly fair execution terminates without fault, the result array holds
  what the pipeline library computes from the proof data, and the six argument arrays are unchanged.
-/
import proofs.«119035_g17592186045067_cont_7to1_1554_11_alg».proof.Proof.KBase

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No host operation allocates. -/
theorem hostOps0_fresh : (hostOps0 : List (HloOp τ sig (Elt F))).Forall fun op => op.fresh = ∅ :=
  ⟨rfl, rfl, rfl⟩

/-- The program up to the region: the three host operations run over the unscoped buffers, leaving them at `V`. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh fun c => main_chain c

/-- The host operations write the table and the two reshaped biases only. -/
theorem not_written (b : Ref sig .tc) (hb : b ≠ main_call0_v0 ∧ b ≠ main_call0_v1 ∧ b ≠ main_call0_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.TRef.unary, StableHlo.TRef.reshape, StableHlo.unary_writes, StableHlo.reshape_writes, Finset.mem_singleton] <;>
    exact StableHlo.devRef_ne_of_ne ‹_›

/-- An argument array reaches the region as launched. -/
theorem V_arg (c : Dev nD) (b : Ref sig .tc) (hb : b ≠ main_call0_v0 ∧ b ≠ main_call0_v1 ∧ b ≠ main_call0_v2) :
    V m c b = m ((c : Thread nD τ).loc b) :=
  StableHlo.after_of_forall_not_mem (b := Proc.devRef .tc b) hostOps0 (V₀ m c) (not_written b hb)

section Run

variable (hO : Ok m)
  (dats : (p : Fin 1) → (c : Dev nD) → Dat τ (Elt F) Unit ℕ (UR sig nD τ) ℕ (Pipeline.pin pcfgs (fun _ => adm m hO) p) c)

-- the launch theorem's implicit arguments are found by unifying its conclusion with this one, which takes unfolding
-- plain definitions in a metavariable's type
set_option backward.isDefEq.respectTransparency.types false in
/-- The frame run from proof data: the pipeline's arrays at what the library computes, every other unscoped buffer as
    the region found it. -/
theorem run_blocks
    (hbody : ∀ c, BodyObligation (dats 0 c) (defs₀ (F := F)) Variants.none () Set.univ)
    (hq : ∀ c w, (dats 0 c).q w = fullShare) (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m hO).N) ⊢ Pipeline.ΦA spec0 c) :
    θ_run defs (onTc (τ := τ) (main (F := F))) (s₀ m ρ) (Pipeline.FramePost (Pipeline.pin pcfgs fun _ => adm m hO) dats 0 (V m)) :=
  Pipeline.θ_run_frameP_track pcfgs (fun _ => adm m hO) dats (0 : Fin 1) launch0 defs₀ Variants.none m ρ main
    (hbody := fun c => (hbody c).loose) (hshare := fun c => (dats 0 c).share_full (hq c))
    (howed := howed) (V := V m) (hmain := hmain m) (hA := hA) (hpf := V_pre m)
    (hin := hin) (hout := hout)

set_option backward.isDefEq.respectTransparency.types false in
/-- The run from proof data, read at the program's arrays: the result array holds what the library computes from the
    proof data (window 5 after the last grid point), and each argument array is as launched — a staged input because
    the pipeline only reads it, a bias or the expert index because it bypasses the region, each untouched by the host
    operations before it. -/
theorem run_of
    (hbody : ∀ c, BodyObligation (dats 0 c) (defs₀ (F := F)) Variants.none () Set.univ)
    (hq : ∀ c w, (dats 0 c).q w = fullShare) (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m hO).N) ⊢ Pipeline.ΦA spec0 c) :
    θ_run defs (onTc (τ := τ) (main (F := F))) ⟨m, fun _ => 0, ρ⟩ (fun r => ∀ c : Dev nD,
      r.2.mem ((c.tc : Thread nD τ).loc main_v0) = (dats 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1 5,
      ((h c).1 0).trans (((dats 0 c).arrAt_in 0 rfl _).trans ((hA c 0).trans (V_arg m c main_arg0 (by decide)))),
      ((h c).1 1).trans (((dats 0 c).arrAt_in 1 rfl _).trans ((hA c 1).trans (V_arg m c main_arg1 (by decide)))),
      ((h c).2 main_arg2 (by decide : main_arg2 ∈ Pipeline.restRefs sig spec0)).trans (V_arg m c main_arg2 (by decide)),
      ((h c).1 3).trans (((dats 0 c).arrAt_in 3 rfl _).trans ((hA c 3).trans (V_arg m c main_arg3 (by decide)))),
      ((h c).2 main_arg4 (by decide : main_arg4 ∈ Pipeline.restRefs sig spec0)).trans (V_arg m c main_arg4 (by decide)),
      ((h c).2 main_arg5 (by decide : main_arg5 ∈ Pipeline.restRefs sig spec0)).trans (V_arg m c main_arg5 (by decide))⟩)
    (run_blocks m ρ hO dats hbody hq howed hA hin hout)

/-- The frame from proof data: the run with the result dropped. -/
theorem frame_of
    (hbody : ∀ c, BodyObligation (dats 0 c) (defs₀ (F := F)) Variants.none () Set.univ)
    (hq : ∀ c w, (dats 0 c).q w = fullShare) (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m hO).N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_of m ρ hO dats hbody hq howed hA hin hout)

end Run

end Cert.KernelIdeal.Run

end
-- ==== Proof.KOk.lean ====
/-
  The table word in range puts every table-indexed block inside its array.

  The one-word table is the broadcast of the scalar expert index, so its word is that scalar. Four windows' index maps
  read it as the leading block index of an array whose leading extent is 8 (the two weight tensors and the two
  reshaped biases); their other block indices are a grid coordinate below 4 or zero. So when the scalar, read as an
  unsigned word, is below 8, every such block lies inside its array — the pipeline's side condition `Ok`.
-/
import proofs.«119035_g17592186045067_cont_7to1_1554_11_alg».proof.Proof.KBase
import Idealize.ShloMosaic.Lib.ValueIdx

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-- A scalar has one index. -/
theorem scalar_idx (x : S_.Idx) : x = ValueIdx.ix0 := funext fun a => a.elim0

/-- The table's word, at its one index, is the scalar expert index as launched: the broadcast copies it. -/
theorem tbl_word (x : S1.Idx) : tbl m 0 x = m (((0 : Dev nD) : Thread nD τ).loc main_arg5) ValueIdx.ix0 := by
  unfold tbl
  show StableHlo.after hostOps0 (V₀ m 0) (Proc.devRef .tc main_call0_v0) x = _
  after_results
  show m (((0 : Dev nD) : Thread nD τ).loc main_arg5) _ = _
  exact congrArg (m (((0 : Dev nD) : Thread nD τ).loc main_arg5)) (scalar_idx _)

/-- The expert index below 8 (as an unsigned word) gives the pipeline's side condition: each of the four
    table-indexed windows has its block inside its array at every grid point. -/
theorem ok_of_col (hcol : (m (((0 : Dev nD) : Thread nD τ).loc main_arg5) ValueIdx.ix0).toNat < 8) : Ok m := by
  have hl : ∀ x : S1.Idx, BitVec.toNat (tbl m 0 x) < 8 := fun x => lt_of_eq_of_lt (congrArg BitVec.toNat (tbl_word m x)) hcol
  refine ⟨fun i => ?_, fun i => ?_, fun i => ?_, fun i => ?_⟩
  · -- the first weight tensor [8, 1024, 4096] in blocks [1, 1024, 1024] at (word, 0, j)
    obtain ⟨w, hw, e⟩ : ∃ w : BitVec 32, w.toNat < 8 ∧ cc0_transform_1 inb_S1_S1_0 numel1_S1 (tbl m) i = ![w.toNat, 0, (BitVec.ofNat 32 (i 1).val).toNat] :=
      ⟨_, hl _, rfl⟩
    have h1 : (i 1).val < 4 := (i 1).isLt
    refine ⟨fun a => ?_, Or.inl rfl⟩
    rw [e]
    fin_cases a <;> simp [S1x1024x1024, S8x1024x4096] <;> omega
  · -- the first bias, reshaped [8, 4, 1, 1024], in blocks [1, 1, 1, 1024] at (word, j, 0, 0)
    obtain ⟨w, hw, e⟩ : ∃ w : BitVec 32, w.toNat < 8 ∧ cc0_transform_2 inb_S1_S1_0 numel1_S1 (tbl m) i = ![w.toNat, (BitVec.ofNat 32 (i 1).val).toNat, 0, 0] :=
      ⟨_, hl _, rfl⟩
    have h1 : (i 1).val < 4 := (i 1).isLt
    refine ⟨fun a => ?_, Or.inl rfl⟩
    rw [e]
    fin_cases a <;> simp [S1x1x1x1024, S8x4x1x1024] <;> omega
  · -- the second weight tensor [8, 4096, 1024] in blocks [1, 1024, 1024] at (word, j, 0)
    obtain ⟨w, hw, e⟩ : ∃ w : BitVec 32, w.toNat < 8 ∧ cc0_transform_3 inb_S1_S1_0 numel1_S1 (tbl m) i = ![w.toNat, (BitVec.ofNat 32 (i 1).val).toNat, 0] :=
      ⟨_, hl _, rfl⟩
    have h1 : (i 1).val < 4 := (i 1).isLt
    refine ⟨fun a => ?_, Or.inl rfl⟩
    rw [e]
    fin_cases a <;> simp [S1x1024x1024, S8x4096x1024] <;> omega
  · -- the second bias, reshaped [8, 1, 1, 1024], in blocks [1, 1, 1, 1024] at (word, 0, 0, 0)
    obtain ⟨w, hw, e⟩ : ∃ w : BitVec 32, w.toNat < 8 ∧ cc0_transform_4 inb_S1_S1_0 numel1_S1 (tbl m) i = ![w.toNat, 0, 0, 0] :=
      ⟨_, hl _, rfl⟩
    refine ⟨fun a => ?_, Or.inl rfl⟩
    rw [e]
    fin_cases a <;> simp [S1x1x1x1024, S8x1x1x1024] <;> omega

end Cert.KernelIdeal.Run

end
-- ==== Proof.KRunZ.lean ====
/-
  The kernel body at the FIRST hidden tile of a token tile (second grid coordinate 0), run once on any staging
  memrefs. There the body casts the token tile to bf16 into the scratch, reads it back, forms the four 256-wide
  sub-chunks of the hidden tile and their contributions to the output tile, and stores the sum plus the second bias
  into the output's staging buffer. Each buffer the body writes ends with a list of written pieces (a rectangle and the value stored through it), which
  the statement carries as its witness.
-/
import proofs.«119035_g17592186045067_cont_7to1_1554_11_alg».proof.Proof.Gen.KernelIdeal.Launch
import proofs.«119035_g17592186045067_cont_7to1_1554_11_alg».proof.Proof.Gen.KernelIdeal.Skeleton
import Idealize.ShloMosaic.Lib.Pipeline.FrameBody
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch condition (is the second grid coordinate zero?), as the body computes it. -/
abbrev cond1 (i : grid0.Coords) : Prop := (Scalar.cmpi .ne (Scalar.extui (Scalar.cmpi .eq (BitVec.ofNat 32 (i 1).val) 0#32)) 0#32) = 1#1

set_option maxHeartbeats 4000000 in
/-- The body where the second grid coordinate is zero: from the five input buffers at their contents and the output
    buffer and the scratch at anything, it runs to the inputs as they were, the output buffer and the scratch with the
    witness pieces written. -/
noncomputable def runZ (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : cond1 i) (hc2 : k0_cond2 i = 1#1) (hc3 : ¬ k0_cond3 i = 1#1)
    (x0 : Vec F S1024x1024 .f32) (w1 : Vec F S1x1024x1024 .f32) (b1 : Vec F S1x1x1x1024 .f32)
    (w2 : Vec F S1x1024x1024 .f32) (b2 : Vec F S1x1x1x1024 .f32) :
    Σ' (L8 : List (View.Piece (Elt F) S1024x1024 .f32)), { L9 : List (View.Piece (Elt F) S1024x1024 .bf16) //
      ∀ (E : Set ℕ) (K : PUnit → sProp 𝕄),
        iprop(owns (c : Thread nD τ) arg3 fullShare x0 ∗ owns (c : Thread nD τ) arg4 fullShare w1 ∗ owns (c : Thread nD τ) arg5 fullShare b1
            ∗ owns (c : Thread nD τ) arg6 fullShare w2 ∗ owns (c : Thread nD τ) arg7 fullShare b2
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare w1 ∗ owns (c : Thread nD τ) arg5 fullShare b1
                ∗ owns (c : Thread nD τ) arg6 fullShare w2 ∗ owns (c : Thread nD τ) arg7 fullShare b2
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, ?_, fun E K => ?run⟩
  case run =>
    simp only [cc0__mlp_body_eq_skeleton]; unfold cc0__mlp_body_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.KernelIdeal.KRun

end
-- ==== Proof.KRunP.lean ====
/-
  The kernel body at a LATER hidden tile of a token tile (second grid coordinate not 0), run once on any staging
  memrefs. There the body reads the bf16 token tile the first hidden tile left in the scratch, forms the hidden
  tile's contribution to the output tile, and adds it to what the output's staging buffer holds. The output
  buffer ends with a list of written pieces, which the statement carries as its witness.
-/
import proofs.«119035_g17592186045067_cont_7to1_1554_11_alg».proof.Proof.KRunZ

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the second grid coordinate is not zero: from the weight and first-bias buffers at their contents,
    the output buffer at `prev` and the scratch at `xs`, it runs to those as they were and the output buffer with the
    witness pieces written. -/
noncomputable def runP (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : ¬ cond1 i) (hc2 : ¬ k0_cond2 i = 1#1) (hc3 : k0_cond3 i = 1#1)
    (w1 : Vec F S1x1024x1024 .f32) (b1 : Vec F S1x1x1x1024 .f32)
    (w2 : Vec F S1x1024x1024 .f32) (prev : Vec F S1024x1024 .f32) (xs : Vec F S1024x1024 .bf16) :
    { L8 : List (View.Piece (Elt F) S1024x1024 .f32) //
      ∀ (E : Set ℕ) (K : PUnit → sProp 𝕄),
        iprop(owns (c : Thread nD τ) arg4 fullShare w1 ∗ owns (c : Thread nD τ) arg5 fullShare b1
            ∗ owns (c : Thread nD τ) arg6 fullShare w2
            ∗ owns (c : Thread nD τ) arg8 fullShare prev ∗ owns (c : Thread nD τ) arg9 fullShare xs
            ∗ (iprop(owns (c : Thread nD τ) arg4 fullShare w1 ∗ owns (c : Thread nD τ) arg5 fullShare b1
                ∗ owns (c : Thread nD τ) arg6 fullShare w2
                ∗ (∃ f, arg8.view.loc (c : Thread nD τ) ↦[arg8.view.set]{fullShare} arg8.view.writes (Elt F) f L8)
                ∗ owns (c : Thread nD τ) arg9 fullShare xs) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, fun E K => ?run⟩
  case run =>
    simp only [cc0__mlp_body_eq_skeleton]; unfold cc0__mlp_body_skel
    unfold owns
    iintro ⟨⟨%f4, %hf4, H4⟩, ⟨%f5, %hf5, H5⟩, ⟨%f6, %hf6, H6⟩, ⟨%f8, %hf8, H8⟩, ⟨%f9, %hf9, H9⟩, Hk⟩
    obtain rfl := harg4.eq_unread hf4; obtain rfl := harg5.eq_unread hf5
    obtain rfl := harg6.eq_unread hf6; obtain rfl := harg8.eq_unread hf8; obtain rfl := harg9.eq_unread hf9
    sl_exec (disch := first | exact hc1 | exact hc2 | exact hc3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    iexists _; isplitr; · ipureintro; exact harg9.read_unread _
    iexact H9

end Cert.KernelIdeal.KRun

end
-- ==== Proof.KData.lean ====
/-
  The kernel's proof data. The grid is 8 token tiles by 4 hidden tiles, walked row by row: point `t` is token tile
  `t / 4`, hidden tile `t % 4`. At the first hidden tile of a token tile the body casts the token tile to bf16 into
  its scratch and stores (contribution of hidden tile 0) + (second bias) into the output tile's staging buffer; at
  each later hidden tile it reads the cast tile back from the scratch and adds that hidden tile's contribution to the
  staging buffer. So what the output's staging buffer holds after point `t` is a recursion on `t` (`outAt`), and
  between two points of one token tile the scratch holds the cast of that token tile (`PhiK`).
-/
import proofs.«119035_g17592186045067_cont_7to1_1554_11_alg».proof.Proof.KBase
import proofs.«119035_g17592186045067_cont_7to1_1554_11_alg».proof.Proof.KRunP
import Idealize.ShloMosaic.Lib.Pipeline.Value

set_option maxRecDepth 16384

noncomputable section

namespace Cert.KernelIdeal.KData

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Run Cert.KernelIdeal.KRun

/-! ## The sub-chunk rectangles and the body's arithmetic on one point's blocks -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The whole-tile rectangle of a [1024,1024] buffer. -/
abbrev rT : Rect S1024x1024 := Rect.unit (s := S1024x1024) ![0, 0] S1024x1024.size inb_S1024x1024_S1024x1024_0_0
/-- Sub-chunk `k` (256 hidden units) of the first weight block [1,1024,1024]: columns 256k … 256k+255. -/
abbrev rW1_0 : Rect S1x1024x1024 := Rect.unit (s := S1x1024x1024) ![0, 0, 0] S1x1024x256.size inb_S1x1024x1024_S1x1024x256_0_0_0
abbrev rW1_1 : Rect S1x1024x1024 := Rect.unit (s := S1x1024x1024) ![0, 0, 256] S1x1024x256.size inb_S1x1024x1024_S1x1024x256_0_0_256
abbrev rW1_2 : Rect S1x1024x1024 := Rect.unit (s := S1x1024x1024) ![0, 0, 512] S1x1024x256.size inb_S1x1024x1024_S1x1024x256_0_0_512
abbrev rW1_3 : Rect S1x1024x1024 := Rect.unit (s := S1x1024x1024) ![0, 0, 768] S1x1024x256.size inb_S1x1024x1024_S1x1024x256_0_0_768
/-- Sub-chunk `k` of the first bias block [1,1,1,1024]. -/
abbrev rB1_0 : Rect S1x1x1x1024 := Rect.unit (s := S1x1x1x1024) ![0, 0, 0, 0] S1x1x1x256.size inb_S1x1x1x1024_S1x1x1x256_0_0_0_0
abbrev rB1_1 : Rect S1x1x1x1024 := Rect.unit (s := S1x1x1x1024) ![0, 0, 0, 256] S1x1x1x256.size inb_S1x1x1x1024_S1x1x1x256_0_0_0_256
abbrev rB1_2 : Rect S1x1x1x1024 := Rect.unit (s := S1x1x1x1024) ![0, 0, 0, 512] S1x1x1x256.size inb_S1x1x1x1024_S1x1x1x256_0_0_0_512
abbrev rB1_3 : Rect S1x1x1x1024 := Rect.unit (s := S1x1x1x1024) ![0, 0, 0, 768] S1x1x1x256.size inb_S1x1x1x1024_S1x1x1x256_0_0_0_768
/-- Sub-chunk `k` of the second weight block [1,1024,1024]: rows 256k … 256k+255. -/
abbrev rW2_0 : Rect S1x1024x1024 := Rect.unit (s := S1x1024x1024) ![0, 0, 0] S1x256x1024.size inb_S1x1024x1024_S1x256x1024_0_0_0
abbrev rW2_1 : Rect S1x1024x1024 := Rect.unit (s := S1x1024x1024) ![0, 256, 0] S1x256x1024.size inb_S1x1024x1024_S1x256x1024_0_256_0
abbrev rW2_2 : Rect S1x1024x1024 := Rect.unit (s := S1x1024x1024) ![0, 512, 0] S1x256x1024.size inb_S1x1024x1024_S1x256x1024_0_512_0
abbrev rW2_3 : Rect S1x1024x1024 := Rect.unit (s := S1x1024x1024) ![0, 768, 0] S1x256x1024.size inb_S1x1024x1024_S1x256x1024_0_768_0
/-- The whole second-bias block [1,1,1,1024]. -/
abbrev rB2 : Rect S1x1x1x1024 := Rect.unit (s := S1x1x1x1024) ![0, 0, 0, 0] S1x1x1x1024.size inb_S1x1x1x1024_S1x1x1x1024_0_0_0_0

/-- One hidden tile's contribution to the output tile: with `v3` the bf16 token tile, `w1`, `b1`, `w2` the hidden
    tile's first-layer weights and bias and second-layer weights, the sum over the four sub-chunks `k` of
    gelu (v3 · w1ₖ + b1ₖ) · w2ₖ — the body's payloads composed as the body composes them. -/
def accOf (v3 : Vec F S1024x1024 .bf16) (w1 : Vec F S1x1024x1024 .f32) (b1 : Vec F S1x1x1x1024 .f32)
    (w2 : Vec F S1x1024x1024 .f32) : FVec F S1024x1024 .f32 :=
  k0_pay9 v3
    (k0_pay5 (k0_pay3 v3 (View.ld w1 rW1_0) (View.ld b1 rB1_0) (View.ld w2 rW2_0)) (k0_pay4 v3 (View.ld w1 rW1_1))
      (View.ld b1 rB1_1) (View.ld w2 rW2_1))
    (k0_pay6 v3 (View.ld w1 rW1_2) (View.ld b1 rB1_2)) (k0_pay7 v3 (View.ld w1 rW1_2) (View.ld b1 rB1_2)) (k0_pay8 (F := F))
    (View.ld w2 rW2_2) (View.ld w1 rW1_3) (View.ld b1 rB1_3) (View.ld w2 rW2_3)

/-- What the first hidden tile of a token tile stores: its contribution plus the second bias. -/
def firstOf (v3 : Vec F S1024x1024 .bf16) (w1 : Vec F S1x1024x1024 .f32) (b1 : Vec F S1x1x1x1024 .f32)
    (w2 : Vec F S1x1024x1024 .f32) (b2 : Vec F S1x1x1x1024 .f32) : FVec F S1024x1024 .f32 :=
  k0_pay10 v3
    (k0_pay5 (k0_pay3 v3 (View.ld w1 rW1_0) (View.ld b1 rB1_0) (View.ld w2 rW2_0)) (k0_pay4 v3 (View.ld w1 rW1_1))
      (View.ld b1 rB1_1) (View.ld w2 rW2_1))
    (k0_pay6 v3 (View.ld w1 rW1_2) (View.ld b1 rB1_2)) (k0_pay7 v3 (View.ld w1 rW1_2) (View.ld b1 rB1_2)) (k0_pay8 (F := F))
    (View.ld w2 rW2_2) (View.ld w1 rW1_3) (View.ld b1 rB1_3) (View.ld w2 rW2_3) (View.ld b2 rB2)

variable (m : (ℓ : Loc nD τ sig) → Buf (Elt F) ℓ)

/-! ## The windows' blocks -/

/-- The grid has 32 points, at any contents of the table. -/
theorem N_M (hO : Ok m) : (cfgM m hO).N = 32 := N_0

/-- Window `w`'s block at point `t`, read off its array as the region finds it (for a window whose index map
    reads the table, a function of the table's word). -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The token tile, the two weight blocks and the two bias blocks at point `t`. -/
abbrev X (hO : Ok m) (c : Dev nD) (t : Fin (cfgM m hO).N) : Vec F S1024x1024 .f32 := iblk m hO c 0 t
abbrev W1 (hO : Ok m) (c : Dev nD) (t : Fin (cfgM m hO).N) : Vec F S1x1024x1024 .f32 := iblk m hO c 1 t
abbrev B1 (hO : Ok m) (c : Dev nD) (t : Fin (cfgM m hO).N) : Vec F S1x1x1x1024 .f32 := iblk m hO c 2 t
abbrev W2 (hO : Ok m) (c : Dev nD) (t : Fin (cfgM m hO).N) : Vec F S1x1024x1024 .f32 := iblk m hO c 3 t
abbrev B2 (hO : Ok m) (c : Dev nD) (t : Fin (cfgM m hO).N) : Vec F S1x1x1x1024 .f32 := iblk m hO c 4 t

/-- The first point of the token tile position `n` lies in (positions past the grid wrap; none is consulted). -/
def rowPt (hO : Ok m) (n : ℕ) : Fin (cfgM m hO).N := ⟨(n - n % 4) % 32, by rw [N_M]; exact Nat.mod_lt _ (by decide)⟩

theorem rowPt_self (hO : Ok m) (t : Fin (cfgM m hO).N) (h : t.val % 4 = 0) : rowPt m hO t.val = t := by
  have hN := N_M m hO; have := t.isLt
  apply Fin.ext; show (t.val - t.val % 4) % 32 = t.val; omega

theorem rowPt_succ (hO : Ok m) (n : ℕ) (h : (n + 1) % 4 ≠ 0) : rowPt m hO (n + 1) = rowPt m hO n := by
  apply Fin.ext; show (n + 1 - (n + 1) % 4) % 32 = (n - n % 4) % 32; omega

/-- The bf16 cast of the token tile of the row position `n` lies in: what the scratch holds between that row's points. -/
abbrev castAt (hO : Ok m) (c : Dev nD) (n : ℕ) : Vec F S1024x1024 .bf16 := k0_pay2 (X m hO c (rowPt m hO n))

/-! ## What the output tile's staging buffer holds after each point -/

/-- THE ACCUMULATION, by recursion on the position: at the first hidden tile of a token tile, that tile's contribution
    plus the second bias; at a later one, its contribution added to what the point before left. -/
def outAt (hO : Ok m) (c : Dev nD) : (n : ℕ) → n < (cfgM m hO).N → Vec F S1024x1024 .f32
  | 0, hn => firstOf (k0_pay2 (X m hO c ⟨0, hn⟩)) (W1 m hO c ⟨0, hn⟩) (B1 m hO c ⟨0, hn⟩) (W2 m hO c ⟨0, hn⟩) (B2 m hO c ⟨0, hn⟩)
  | n + 1, hn =>
    if (n + 1) % 4 = 0 then
      firstOf (k0_pay2 (X m hO c ⟨n + 1, hn⟩)) (W1 m hO c ⟨n + 1, hn⟩) (B1 m hO c ⟨n + 1, hn⟩) (W2 m hO c ⟨n + 1, hn⟩) (B2 m hO c ⟨n + 1, hn⟩)
    else
      k0_pay1 (accOf (castAt m hO c (n + 1)) (W1 m hO c ⟨n + 1, hn⟩) (B1 m hO c ⟨n + 1, hn⟩) (W2 m hO c ⟨n + 1, hn⟩))
        (outAt hO c n (Nat.lt_of_succ_lt hn))

/-- At the first hidden tile of a token tile. -/
theorem outAt_first (hO : Ok m) (c : Dev nD) (t : Fin (cfgM m hO).N) (h : t.val % 4 = 0) :
    outAt m hO c t.val t.isLt = firstOf (k0_pay2 (X m hO c t)) (W1 m hO c t) (B1 m hO c t) (W2 m hO c t) (B2 m hO c t) := by
  obtain ⟨n, hn⟩ := t
  cases n with
  | zero => rfl
  | succ n => exact (if_pos h).trans rfl

/-- At a later hidden tile: over what the point before left. -/
theorem outAt_later (hO : Ok m) (c : Dev nD) (t : Fin (cfgM m hO).N) (h : ¬t.val % 4 = 0) :
    outAt m hO c t.val t.isLt = k0_pay1 (accOf (castAt m hO c t.val) (W1 m hO c t) (B1 m hO c t) (W2 m hO c t))
      (outAt m hO c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- The scratch as a memref: the kernel's own whole scoped buffer. -/
abbrev scM : Memref sig .tc .vmem S1024x1024 .bf16 := Memref.whole cc0_scratch0

/-- Before position `n`: the generator register at some state, the table's half the region hands the body (the body
    never loads it), and the scratch — at anything before the first hidden tile of a token tile, at the cast of the
    row's token tile before a later one. -/
def PhiK (hO : Ok m) (c : Dev nD) (n : ℕ) : sProp 𝕄 :=
  iprop((∃ r, prngReg c r) ∗ Pipeline.ΦT pre0 (tbl m) c
    ∗ (if n % 4 = 0 then iprop(∃ d, owns (c : Thread nD τ) scM fullShare d) else owns (c : Thread nD τ) scM fullShare (castAt m hO c n)))

theorem PhiK_first (hO : Ok m) (c : Dev nD) (n : ℕ) (h : n % 4 = 0) :
    PhiK m hO c n = iprop((∃ r, prngReg c r) ∗ Pipeline.ΦT pre0 (tbl m) c ∗ (∃ d, owns (c : Thread nD τ) scM fullShare d)) := by
  unfold PhiK; rw [if_pos h]

theorem PhiK_later (hO : Ok m) (c : Dev nD) (n : ℕ) (h : ¬n % 4 = 0) :
    PhiK m hO c n = iprop((∃ r, prngReg c r) ∗ Pipeline.ΦT pre0 (tbl m) c ∗ owns (c : Thread nD τ) scM fullShare (castAt m hO c n)) := by
  unfold PhiK; rw [if_neg h]

/-! ## The proof data -/

/-- The proof data of the one pipeline on core `c`: the arrays as the region finds them; after the body at point `t`
    each input's buffer at its block and the output's at `outAt`; the invariant `PhiK`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t.val t.isLt
  Φ t := PhiK m hO c t.val
  q _ := fullShare
  owed _ := 0

theorem A_eq (hO : Ok m) (c : Dev nD) (w : Fin (cfgM m hO).W) : (dats m hO 0 c).A w = V m c (Pipeline.arrRef spec0 w) := by
  dsimp only [dats]

theorem Phi_eq (hO : Ok m) (c : Dev nD) (t : Fin ((cfgM m hO).N + 1)) : (dats m hO 0 c).Φ t = PhiK m hO c t.val := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = outAt m hO c t.val t.isLt := by dsimp only [dats]; try rfl

/-! ## The two ends of the invariant -/

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [Phi_eq, show ((0 : Fin ((cfgM m hO).N + 1)).val) = 0 from rfl, PhiK_first m hO c 0 rfl, PhiA_eq]
  iintro ⟨⟨HS, Hg⟩, HT⟩
  isplitl [Hg]; · iexact Hg
  isplitl [HT]; · iexact HT
  iexact HS

/-- After the last point the invariant gives the class invariant back (the table's half is dropped). -/
theorem hout (hO : Ok m) (c : Dev nD) : (dats m hO 0 c).Φ (Fin.last (cfgM m hO).N) ⊢ Pipeline.ΦA spec0 c := by
  rw [Phi_eq, PhiK_first m hO c _ (by rw [Fin.val_last, N_M]), PhiA_eq]
  iintro ⟨Hg, -, HS⟩
  isplitl [HS]; · iexact HS
  iexact Hg

end Cert.KernelIdeal.KData

end
-- ==== Proof.KBody.lean ====
/-
  The body obligation of the kernel's proof data. Per point, by the case the second grid coordinate puts the point in:
  at the first hidden tile of a token tile the body finds its five inputs at their blocks, the output's staging buffer and
  the scratch at anything, and leaves the cast token tile in the scratch and (contribution + second bias) in the
  output's buffer; at a later hidden tile it finds the cast token tile in the scratch and in the output's buffer what
  the point before left (the buffer is written back only after the last hidden tile of a token tile), and leaves the
  sum. The body's two cases are stated once on any staging memrefs; here the pieces they leave are read back as the proof
  data's values.
-/
import proofs.«119035_g17592186045067_cont_7to1_1554_11_alg».proof.Proof.KData

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Run Cert.KernelIdeal.KRun Cert.KernelIdeal.KData

/-! ## What the two cases' pieces read back as -/

/-- Every index of a [1024,1024] buffer lies in the whole-tile rectangle: one store through it covers the buffer. -/
theorem coverT {e : EltTy} (w : rT.shape.Idx → Elt F e) (y : S1024x1024.Idx) :
    ∃ p ∈ [(⟨rT, w⟩ : View.Piece (Elt F) S1024x1024 e)], y ∈ p.1.set :=
  ⟨_, List.mem_singleton_self _, View.mem_set_unit_zero hz2 inb_S1024x1024_S1024x1024_0_0 y⟩

/-- At the first hidden tile the scratch ends at the bf16 cast of the token tile. -/
theorem read9Z (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : cond1 i) (hc2 : k0_cond2 i = 1#1) (hc3 : ¬ k0_cond3 i = 1#1)
    (x0 : Vec F S1024x1024 .f32) (w1 : Vec F S1x1024x1024 .f32) (b1 : Vec F S1x1x1x1024 .f32)
    (w2 : Vec F S1x1024x1024 .f32) (b2 : Vec F S1x1x1x1024 .f32) (f) :
    arg9.view.read (Elt F) (arg9.view.writes (Elt F) f (runZ c i arg2 harg2 arg3 harg3 arg4 harg4 arg5 harg5 arg6 harg6 arg7 harg7 arg8 harg8 arg9 harg9 hc1 hc2 hc3 x0 w1 b1 w2 b2).2.1) = k0_pay2 x0 := by
  unfold runZ
  dsimp only
  unfold runZ.sl.H9_1
  rw [View.read_writes_eq_canon _ _ _ (coverT _), View.canon_unit_zero hz2, View.readAt_eq_ld, Memref.IsWhole.read_unread,
    View.ld_unit_zero hz2]

/-- At the first hidden tile the output's staging buffer ends at that tile's contribution plus the second bias. -/
theorem read8Z (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : cond1 i) (hc2 : k0_cond2 i = 1#1) (hc3 : ¬ k0_cond3 i = 1#1)
    (x0 : Vec F S1024x1024 .f32) (w1 : Vec F S1x1024x1024 .f32) (b1 : Vec F S1x1x1x1024 .f32)
    (w2 : Vec F S1x1024x1024 .f32) (b2 : Vec F S1x1x1x1024 .f32) (f) :
    arg8.view.read (Elt F) (arg8.view.writes (Elt F) f (runZ c i arg2 harg2 arg3 harg3 arg4 harg4 arg5 harg5 arg6 harg6 arg7 harg7 arg8 harg8 arg9 harg9 hc1 hc2 hc3 x0 w1 b1 w2 b2).1) = firstOf (k0_pay2 x0) w1 b1 w2 b2 := by
  unfold runZ
  dsimp only
  rw [View.read_writes_eq_canon _ _ _ (coverT _), View.canon_unit_zero hz2]
  unfold runZ.sl.r_2 runZ.sl.r_3 runZ.sl.r_4 runZ.sl.r runZ.sl.r_1 runZ.sl.v3
  unfold runZ.sl.H9_1
  simp only [View.readCov_cons_toLoadRect, View.readAt_eq_ld, Memref.IsWhole.read_unread, View.ld_unit_zero (S := S1024x1024) hz2]
  rfl

/-- At a later hidden tile the output's staging buffer ends at what it held plus that tile's contribution. -/
theorem read8P (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : ¬ cond1 i) (hc2 : ¬ k0_cond2 i = 1#1) (hc3 : k0_cond3 i = 1#1)
    (w1 : Vec F S1x1024x1024 .f32) (b1 : Vec F S1x1x1x1024 .f32)
    (w2 : Vec F S1x1024x1024 .f32) (prev : Vec F S1024x1024 .f32) (xs : Vec F S1024x1024 .bf16) (f) :
    arg8.view.read (Elt F) (arg8.view.writes (Elt F) f (runP c i arg2 harg2 arg3 harg3 arg4 harg4 arg5 harg5 arg6 harg6 arg7 harg7 arg8 harg8 arg9 harg9 hc1 hc2 hc3 w1 b1 w2 prev xs).1) = k0_pay1 (accOf xs w1 b1 w2) prev := by
  unfold runP
  dsimp only
  rw [View.read_writes_eq_canon _ _ _ (coverT _), View.canon_unit_zero hz2]
  unfold runP.sl.r_6 runP.sl.r_3 runP.sl.r_4 runP.sl.r_5 runP.sl.r_1 runP.sl.r_2 runP.sl.r
  simp only [View.readAt_eq_ld, Memref.IsWhole.read_unread, View.ld_unit_zero (S := S1024x1024) hz2]
  rfl

/-! ## The branch conditions and the schedule, decided over the grid -/

/-- The three conditions hold, respectively fail, exactly at the first hidden tile of a token tile. -/
theorem hcond1 : ∀ t : Fin grid0.N, cond1 (grid0.coords t) ↔ t.val % 4 = 0 := by decide +kernel
theorem hcond2 : ∀ t : Fin grid0.N, k0_cond2 (grid0.coords t) = 1#1 ↔ t.val % 4 = 0 := by decide +kernel
theorem hcond3 : ∀ t : Fin grid0.N, k0_cond3 (grid0.coords t) = 1#1 ↔ ¬t.val % 4 = 0 := by decide +kernel

/-- The output tile is written back after the last hidden tile of each token tile, whatever the table holds (its index
    map does not read it). -/
theorem flush5 (a : (pcfg0 (F := F)).Adm) : ∀ t : Fin (cfg0 a).N, ((cfg0 a).win 5).flush t = true ↔ t.val % 4 = 3 :=
  (by decide +kernel : ∀ t : Fin grid0.N, Pipeline.Window.flushOf grid0 true cc0_transform_5 t = true ↔ t.val % 4 = 3)

/-- The output window is idle nowhere: one of its two stores runs at every point. -/
theorem live5 (a : (pcfg0 (F := F)).Adm) : ∀ i : grid0.Coords, (cfg0 a).idle 5 i = false :=
  (by decide +kernel : ∀ i : grid0.Coords, (!(k0_cond2 i == 1#1) && !(k0_cond3 i == 1#1)) = false)

variable (m : (ℓ : Loc nD τ sig) → Buf (Elt F) ℓ)

/-! ## What the body finds in each staging buffer -/
/-- Each input's current staging buffer holds its block at every point, fetched there or not. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- At the first hidden tile of a token tile the output's staging buffer is fresh (the first point, or just written back). -/
theorem before5_first (hO : Ok m) (c : Dev nD) (t : Fin (cfgM m hO).N) (h : t.val % 4 = 0) (d) :
    (dats m hO 0 c).before 5 t d = d := by
  refine (dats m hO 0 c).before_out_reset 5 rfl t ?_ d
  by_cases h0 : t.val = 0
  · exact .inl h0
  · refine .inr ⟨h0, (flush5 (adm m hO) _).mpr ?_⟩
    show (t.val - 1) % 4 = 3
    omega

/-- At a later one it holds what the point before left. -/
theorem before5_later (hO : Ok m) (c : Dev nD) (t : Fin (cfgM m hO).N) (h : ¬t.val % 4 = 0) (d) :
    (dats m hO 0 c).before 5 t d = outAt m hO c (t.val - 1) (Nat.lt_of_le_of_lt (Nat.sub_le _ _) t.isLt) := by
  have h0 : t.val ≠ 0 := fun e => h (by rw [e])
  rw [(dats m hO 0 c).before_out_kept 5 rfl t h0 ?_ (live5 (adm m hO)) (fun _ _ => rfl) d, after5]
  cases hf : ((cfgM m hO).win 5).flush ⟨t.val - 1, Nat.lt_of_le_of_lt (Nat.sub_le _ _) t.isLt⟩
  · rfl
  · exfalso
    have := (flush5 (adm m hO) _).mp hf
    change (t.val - 1) % 4 = 3 at this
    omega

/-! ## The body at a point -/

/-- Each window's current staging memref at point `t`, as the pipeline passes it to the body, and its wholeness. -/
abbrev ms0 (hO : Ok m) (t : Fin (cfgM m hO).N) : Memref sig .tc .vmem S1024x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1024x1024 .f32 := spec0_5.stage ((cfgM m hO).slots t 5)
abbrev hs5 (hO : Ok m) (t : Fin (cfgM m hO).N) : (ms5 m hO t).IsWhole := hstage0_5 (((cfgM m hO).slots t 5).cast nbuf0_5)

/-- The kernel body at point `t`, on what the pipeline calls it with. -/
abbrev bodyAt (hO : Ok m) (t : Fin (cfgM m hO).N) : Prog (TpuEff nD τ sig (Elt F) Λ₀ .tc) PUnit :=
  cc0__mlp_body (grid0.coords t) (Memref.whole main_call0_v0) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t) scM (Memref.isWhole_whole _)

/-- What the body is called with at point `t` (the body obligation's precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 4000000 in
/-- The body at any point: the inputs' memrefs hold their blocks; the second grid coordinate decides the case; at the
    first hidden tile the output's buffer and the scratch are handed at anything and taken back at this point's
    contents; at a later one the output's buffer holds what the point before left and the scratch the row's cast token
    tile, and the first and last inputs, which the body does not touch there, pass by. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).owesAt () t.succ = (dats m hO 0 c).owesAt () t.castSucc from rfl]
  rw [Phi_eq, Phi_eq, show (t.castSucc).val = t.val from rfl, show (t.succ).val = t.val + 1 from rfl]
  rw [show (dats m hO 0 c).leavesExact 0 t = owns (c : Thread nD τ) (ms0 m hO t) fullShare ((dats m hO 0 c).after 0 t) from by
    unfold Dat.leavesExact; rfl, after0]
  rw [show (dats m hO 0 c).leavesExact 1 t = owns (c : Thread nD τ) (ms1 m hO t) fullShare ((dats m hO 0 c).after 1 t) from by
    unfold Dat.leavesExact; rfl, after1]
  rw [show (dats m hO 0 c).leavesExact 2 t = owns (c : Thread nD τ) (ms2 m hO t) fullShare ((dats m hO 0 c).after 2 t) from by
    unfold Dat.leavesExact; rfl, after2]
  rw [show (dats m hO 0 c).leavesExact 3 t = owns (c : Thread nD τ) (ms3 m hO t) fullShare ((dats m hO 0 c).after 3 t) from by
    unfold Dat.leavesExact; rfl, after3]
  rw [show (dats m hO 0 c).leavesExact 4 t = owns (c : Thread nD τ) (ms4 m hO t) fullShare ((dats m hO 0 c).after 4 t) from by
    unfold Dat.leavesExact; rfl, after4]
  rw [show (dats m hO 0 c).leavesExact 5 t = owns (c : Thread nD τ) (ms5 m hO t) fullShare ((dats m hO 0 c).after 5 t) from by
    unfold Dat.leavesExact; rw [live5 (adm m hO) _]; rfl, after5]
  have hN : t.val < 32 := lt_of_lt_of_eq t.isLt (N_M m hO)
  by_cases h0 : t.val % 4 = 0
  · have h1 : ¬(t.val + 1) % 4 = 0 := by omega
    rw [PhiK_first m hO c _ h0, PhiK_later m hO c _ h1, outAt_first m hO c t h0]
    rw [show castAt m hO c (t.val + 1) = k0_pay2 (X m hO c t) from by
      unfold castAt; rw [rowPt_succ m hO _ h1, rowPt_self m hO t h0]]
    iintro ⟨⟨Hg, HT, ⟨%ds, HS⟩⟩, Ho, ⟨%d0, H0⟩, ⟨%d1, H1⟩, ⟨%d2, H2⟩, ⟨%d3, H3⟩, ⟨%d4, H4⟩, ⟨%d5, H5⟩⟩
    iapply ((runZ c (grid0.coords t) _ _ _ _ _ _ _ _ _ _ _ _ _ _ _ _ ((hcond1 t).mpr h0) ((hcond2 t).mpr h0) (fun h => (hcond3 t).mp h h0)
      (X m hO c t) (W1 m hO c t) (B1 m hO c t) (W2 m hO c t) (B2 m hO c t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, ⟨%e5, H5⟩, ⟨%es, HS⟩⟩
    isplitl [Hg HT HS]
    · isplitl [Hg]; · iexact Hg
      isplitl [HT]; · iexact HT
      unfold owns; iexists _; isplitr
      swap; · iexact HS
      ipureintro; exact read9Z c _ _ _ _ _ _ _ _ _ _ _ _ _ _ _ _ _ _ _ _ _ _ _ _ _ _
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read8Z c _ _ _ _ _ _ _ _ _ _ _ _ _ _ _ _ _ _ _ _ _ _ _ _ _ _
  · rw [PhiK_later m hO c _ h0, outAt_later m hO c t h0]
    simp only [before5_later m hO c t h0]
    iintro ⟨⟨Hg, HT, HS⟩, Ho, ⟨%d0, H0⟩, ⟨%d1, H1⟩, ⟨%d2, H2⟩, ⟨%d3, H3⟩, ⟨%d4, H4⟩, ⟨%d5, H5⟩⟩
    iapply ((runP c (grid0.coords t) (Memref.whole main_call0_v0) (Memref.isWhole_whole _) (ms0 m hO t) (hs0 m hO t) _ _ _ _ _ _ (ms4 m hO t) (hs4 m hO t) _ _ _ _
      (fun h => h0 ((hcond1 t).mp h)) (fun h => h0 ((hcond2 t).mp h)) ((hcond3 t).mpr h0)
      (W1 m hO c t) (B1 m hO c t) (W2 m hO c t) (outAt m hO c (t.val - 1) (Nat.lt_of_le_of_lt (Nat.sub_le _ _) t.isLt)) (castAt m hO c t.val)).2 Set.univ _)
    isplitl [H1]; · iexact H1
    isplitl [H2]; · iexact H2
    isplitl [H3]; · iexact H3
    isplitl [H5]; · iexact H5
    isplitl [HS]; · iexact HS
    iintro ⟨H1, H2, H3, ⟨%e5, H5⟩, HS⟩
    isplitl [Hg HT HS]
    · by_cases h1 : (t.val + 1) % 4 = 0
      · rw [PhiK_first m hO c _ h1]
        isplitl [Hg]; · iexact Hg
        isplitl [HT]; · iexact HT
        iexists _; iexact HS
      · rw [PhiK_later m hO c _ h1, show castAt m hO c (t.val + 1) = castAt m hO c t.val from by
          unfold castAt; rw [rowPt_succ m hO _ h1]]
        isplitl [Hg]; · iexact Hg
        isplitl [HT]; · iexact HT
        iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read8P c _ _ _ _ _ _ _ _ _ _ _ _ _ _ _ _ _ _ _ _ _ _ _ _ _ _

/-- The library's body obligation, at every point. -/
theorem body_obligation (hO : Ok m) (c : Dev nD) :
    BodyObligation (dats (F := F) m hO 0 c) (defs₀ (F := F)) Variants.none () Set.univ := fun t => by
  rw [bigSep_W0, bigSep_W0]
  exact sound_body m hO c t

end Cert.KernelIdeal.KBody

end
-- ==== Proof.KRun.lean ====
/-
  The kernel's run at the proof data of the pipeline, under the expert index in range.

  With the expert index below 8 the table's contents are admissible (every table-indexed block inside its array), the
  pipeline runs at them, and the proof data name what each grid point leaves in the output window. So the run ends
  with the result array at the library's fold of those blocks over the 32 grid points and the six arguments as
  launched. The body obligation is the kernel body's own triple at every grid point.
-/
import proofs.«119035_g17592186045067_cont_7to1_1554_11_alg».proof.Proof.KLaunch
import proofs.«119035_g17592186045067_cont_7to1_1554_11_alg».proof.Proof.KOk
import proofs.«119035_g17592186045067_cont_7to1_1554_11_alg».proof.Proof.KData
import proofs.«119035_g17592186045067_cont_7to1_1554_11_alg».proof.Proof.KBody

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The run, given the body obligation of the proof data: the result array is window 5's array after the last grid
    point, the arguments are unchanged. -/
theorem run_main_of (hO : Ok m)
    (hbody : ∀ c, BodyObligation (KData.dats m hO 0 c) (defs₀ (F := F)) Variants.none () Set.univ) :
    θ_run defs (onTc (τ := τ) (main (F := F))) ⟨m, fun _ => 0, ρ⟩ (fun r => ∀ c : Dev nD,
      r.2.mem ((c.tc : Thread nD τ).loc main_v0) = (KData.dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ hO (KData.dats m hO) hbody (fun _ _ => rfl) (fun _ _ => rfl) (KData.A_eq m hO) (KData.hin m hO) (KData.hout m hO)

/-- THE RUN under the expert index in range: the result array at the proof data's fold over the grid, the six
    arguments unchanged. -/
theorem run_main (hcol : (m (((0 : Dev nD) : Thread nD τ).loc main_arg5) ValueIdx.ix0).toNat < 8) :
    θ_run defs (onTc (τ := τ) (main (F := F))) ⟨m, fun _ => 0, ρ⟩ (fun r => ∀ c : Dev nD,
      r.2.mem ((c.tc : Thread nD τ).loc main_v0) = (KData.dats m (ok_of_col m hcol) 0 c).arrAt 5 (cfgM m (ok_of_col m hcol)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_main_of m ρ (ok_of_col m hcol) (KBody.body_obligation m (ok_of_col m hcol))

/-- THE FRAME under the expert index in range: the program terminates without fault and its six argument arrays end
    as launched. -/
theorem frame (hcol : (m (((0 : Dev nD) : Thread nD τ).loc main_arg5) ValueIdx.ix0).toNat < 8) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ hcol)

end Cert.KernelIdeal.Run

end
-- ==== Proof.KBaseBits.lean ====
/-
  The contents of the core's buffers when the kernel region is entered, and the prefetched table read off them.

  The program first broadcasts the scalar expert index into a one-word table in scalar memory and reshapes the two
  bias arrays; then the one kernel region runs. `V` is each buffer after those three host operations, `tbl` the
  table's contents there, `Ok` the pipeline's side condition of it (every table-indexed block inside its array),
  and `adm` / `cfgM` the table as admissible contents and the pipeline at them.
-/
import proofs.«119035_g17592186045067_cont_7to1_1554_11_alg».proof.Proof.Gen.Kernel.Launch
import Idealize.ShloMosaic.Lib.Pipeline.Frame

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch, as the host operations' valuation; -/
abbrev V₀ (c : Dev nD) : Valuation τ sig (Elt F) := fun b => m (c, b)

/-- and when the region is entered: the three host operations have run. -/
abbrev V (c : Dev nD) (b : Ref sig .tc) : Buf (Elt F) ((c : Thread nD τ).loc b) :=
  StableHlo.after hostOps0 (V₀ m c) b

/-- The table's contents when the region is entered (there is one device). -/
def tbl : pre0.Contents (Elt F) := fun j => V m (0 : Dev nD) (pre0.ref j)

/-- On every device the table holds those contents. -/
theorem V_pre (c : Dev nD) (j : Fin 1) : V m c (pre0.ref j) = tbl m j := by
  obtain rfl : c = 0 := Subsingleton.elim _ _; rfl

/-- The pipeline's side condition of the table's contents. -/
abbrev Ok : Prop := ok0 (F := F) (tbl m)

/-- The table as admissible contents, and the pipeline at them. -/
abbrev adm (hO : Ok m) : (pcfg0 (F := F)).Adm := ⟨tbl m, hO⟩
abbrev cfgM (hO : Ok m) : Pipeline.Cfg sig Λ₀ := cfg0 (adm m hO)

end Cert.Kernel.Run

end
-- ==== Proof.KLaunchBits.lean ====
/-
  The kernel's run, from any proof data of the one pipeline.

  The program is three host operations (the scalar expert index broadcast into the one-word table, the two bias
  arrays reshaped) followed by the kernel region, whose index maps read the table. Given proof data for the pipeline
  at the table's contents — what the body leaves in each window, an invariant carrying the scratch tile between grid
  points, and the body obligation — every weakly fair execution terminates without fault, the result array holds
  what the pipeline library computes from the proof data, and the six argument arrays are unchanged.
-/
import proofs.«119035_g17592186045067_cont_7to1_1554_11_alg».proof.Proof.KBaseBits

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation allocates. -/
theorem hostOps0_fresh : (hostOps0 : List (HloOp τ sig (Elt F))).Forall fun op => op.fresh = ∅ :=
  ⟨rfl, rfl, rfl⟩

/-- The program up to the region: the three host operations run over the unscoped buffers, leaving them at `V`. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh fun c => main_chain c

/-- The host operations write the table and the two reshaped biases only. -/
theorem not_written (b : Ref sig .tc) (hb : b ≠ main_call0_v0 ∧ b ≠ main_call0_v1 ∧ b ≠ main_call0_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.TRef.unary, StableHlo.TRef.reshape, StableHlo.unary_writes, StableHlo.reshape_writes, Finset.mem_singleton] <;>
    exact StableHlo.devRef_ne_of_ne ‹_›

/-- An argument array reaches the region as launched. -/
theorem V_arg (c : Dev nD) (b : Ref sig .tc) (hb : b ≠ main_call0_v0 ∧ b ≠ main_call0_v1 ∧ b ≠ main_call0_v2) :
    V m c b = m ((c : Thread nD τ).loc b) :=
  StableHlo.after_of_forall_not_mem (b := Proc.devRef .tc b) hostOps0 (V₀ m c) (not_written b hb)

section Run

variable (hO : Ok m)
  (dats : (p : Fin 1) → (c : Dev nD) → Dat τ (Elt F) Unit ℕ (UR sig nD τ) ℕ (Pipeline.pin pcfgs (fun _ => adm m hO) p) c)

-- the launch theorem's implicit arguments are found by unifying its conclusion with this one, which takes unfolding
-- plain definitions in a metavariable's type
set_option backward.isDefEq.respectTransparency.types false in
/-- The frame run from proof data: the pipeline's arrays at what the library computes, every other unscoped buffer as
    the region found it. -/
theorem run_blocks
    (hbody : ∀ c, BodyObligation (dats 0 c) (defs₀ (F := F)) Variants.none () Set.univ)
    (hq : ∀ c w, (dats 0 c).q w = fullShare) (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m hO).N) ⊢ Pipeline.ΦA spec0 c) :
    θ_run defs (onTc (τ := τ) (main (F := F))) (s₀ m ρ) (Pipeline.FramePost (Pipeline.pin pcfgs fun _ => adm m hO) dats 0 (V m)) :=
  Pipeline.θ_run_frameP_track pcfgs (fun _ => adm m hO) dats (0 : Fin 1) launch0 defs₀ Variants.none m ρ main
    (hbody := fun c => (hbody c).loose) (hshare := fun c => (dats 0 c).share_full (hq c))
    (howed := howed) (V := V m) (hmain := hmain m) (hA := hA) (hpf := V_pre m)
    (hin := hin) (hout := hout)

set_option backward.isDefEq.respectTransparency.types false in
/-- The run from proof data, read at the program's arrays: the result array holds what the library computes from the
    proof data (window 5 after the last grid point), and each argument array is as launched — a staged input because
    the pipeline only reads it, a bias or the expert index because it bypasses the region, each untouched by the host
    operations before it. -/
theorem run_of
    (hbody : ∀ c, BodyObligation (dats 0 c) (defs₀ (F := F)) Variants.none () Set.univ)
    (hq : ∀ c w, (dats 0 c).q w = fullShare) (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m hO).N) ⊢ Pipeline.ΦA spec0 c) :
    θ_run defs (onTc (τ := τ) (main (F := F))) ⟨m, fun _ => 0, ρ⟩ (fun r => ∀ c : Dev nD,
      r.2.mem ((c.tc : Thread nD τ).loc main_v0) = (dats 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1 5,
      ((h c).1 0).trans (((dats 0 c).arrAt_in 0 rfl _).trans ((hA c 0).trans (V_arg m c main_arg0 (by decide)))),
      ((h c).1 1).trans (((dats 0 c).arrAt_in 1 rfl _).trans ((hA c 1).trans (V_arg m c main_arg1 (by decide)))),
      ((h c).2 main_arg2 (by decide : main_arg2 ∈ Pipeline.restRefs sig spec0)).trans (V_arg m c main_arg2 (by decide)),
      ((h c).1 3).trans (((dats 0 c).arrAt_in 3 rfl _).trans ((hA c 3).trans (V_arg m c main_arg3 (by decide)))),
      ((h c).2 main_arg4 (by decide : main_arg4 ∈ Pipeline.restRefs sig spec0)).trans (V_arg m c main_arg4 (by decide)),
      ((h c).2 main_arg5 (by decide : main_arg5 ∈ Pipeline.restRefs sig spec0)).trans (V_arg m c main_arg5 (by decide))⟩)
    (run_blocks m ρ hO dats hbody hq howed hA hin hout)

/-- The frame from proof data: the run with the result dropped. -/
theorem frame_of
    (hbody : ∀ c, BodyObligation (dats 0 c) (defs₀ (F := F)) Variants.none () Set.univ)
    (hq : ∀ c w, (dats 0 c).q w = fullShare) (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m hO).N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_of m ρ hO dats hbody hq howed hA hin hout)

end Run

end Cert.Kernel.Run

end
-- ==== Proof.KOkBits.lean ====
/-
  The table word in range puts every table-indexed block inside its array.

  The one-word table is the broadcast of the scalar expert index, so its word is that scalar. Four windows' index maps
  read it as the leading block index of an array whose leading extent is 8 (the two weight tensors and the two
  reshaped biases); their other block indices are a grid coordinate below 4 or zero. So when the scalar, read as an
  unsigned word, is below 8, every such block lies inside its array — the pipeline's side condition `Ok`.
-/
import proofs.«119035_g17592186045067_cont_7to1_1554_11_alg».proof.Proof.KBaseBits
import Idealize.ShloMosaic.Lib.ValueIdx

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- A scalar has one index. -/
theorem scalar_idx (x : S_.Idx) : x = ValueIdx.ix0 := funext fun a => a.elim0

/-- The table's word, at its one index, is the scalar expert index as launched: the broadcast copies it. -/
theorem tbl_word (x : S1.Idx) : tbl m 0 x = m (((0 : Dev nD) : Thread nD τ).loc main_arg5) ValueIdx.ix0 := by
  unfold tbl
  show StableHlo.after hostOps0 (V₀ m 0) (Proc.devRef .tc main_call0_v0) x = _
  after_results
  show m (((0 : Dev nD) : Thread nD τ).loc main_arg5) _ = _
  exact congrArg (m (((0 : Dev nD) : Thread nD τ).loc main_arg5)) (scalar_idx _)

/-- The expert index below 8 (as an unsigned word) gives the pipeline's side condition: each of the four
    table-indexed windows has its block inside its array at every grid point. -/
theorem ok_of_col (hcol : (m (((0 : Dev nD) : Thread nD τ).loc main_arg5) ValueIdx.ix0).toNat < 8) : Ok m := by
  have hl : ∀ x : S1.Idx, BitVec.toNat (tbl m 0 x) < 8 := fun x => lt_of_eq_of_lt (congrArg BitVec.toNat (tbl_word m x)) hcol
  refine ⟨fun i => ?_, fun i => ?_, fun i => ?_, fun i => ?_⟩
  · -- the first weight tensor [8, 1024, 4096] in blocks [1, 1024, 1024] at (word, 0, j)
    obtain ⟨w, hw, e⟩ : ∃ w : BitVec 32, w.toNat < 8 ∧ cc0_transform_1 inb_S1_S1_0 numel1_S1 (tbl m) i = ![w.toNat, 0, (BitVec.ofNat 32 (i 1).val).toNat] :=
      ⟨_, hl _, rfl⟩
    have h1 : (i 1).val < 4 := (i 1).isLt
    refine ⟨fun a => ?_, Or.inl rfl⟩
    rw [e]
    fin_cases a <;> simp [S1x1024x1024, S8x1024x4096] <;> omega
  · -- the first bias, reshaped [8, 4, 1, 1024], in blocks [1, 1, 1, 1024] at (word, j, 0, 0)
    obtain ⟨w, hw, e⟩ : ∃ w : BitVec 32, w.toNat < 8 ∧ cc0_transform_2 inb_S1_S1_0 numel1_S1 (tbl m) i = ![w.toNat, (BitVec.ofNat 32 (i 1).val).toNat, 0, 0] :=
      ⟨_, hl _, rfl⟩
    have h1 : (i 1).val < 4 := (i 1).isLt
    refine ⟨fun a => ?_, Or.inl rfl⟩
    rw [e]
    fin_cases a <;> simp [S1x1x1x1024, S8x4x1x1024] <;> omega
  · -- the second weight tensor [8, 4096, 1024] in blocks [1, 1024, 1024] at (word, j, 0)
    obtain ⟨w, hw, e⟩ : ∃ w : BitVec 32, w.toNat < 8 ∧ cc0_transform_3 inb_S1_S1_0 numel1_S1 (tbl m) i = ![w.toNat, (BitVec.ofNat 32 (i 1).val).toNat, 0] :=
      ⟨_, hl _, rfl⟩
    have h1 : (i 1).val < 4 := (i 1).isLt
    refine ⟨fun a => ?_, Or.inl rfl⟩
    rw [e]
    fin_cases a <;> simp [S1x1024x1024, S8x4096x1024] <;> omega
  · -- the second bias, reshaped [8, 1, 1, 1024], in blocks [1, 1, 1, 1024] at (word, 0, 0, 0)
    obtain ⟨w, hw, e⟩ : ∃ w : BitVec 32, w.toNat < 8 ∧ cc0_transform_4 inb_S1_S1_0 numel1_S1 (tbl m) i = ![w.toNat, 0, 0, 0] :=
      ⟨_, hl _, rfl⟩
    refine ⟨fun a => ?_, Or.inl rfl⟩
    rw [e]
    fin_cases a <;> simp [S1x1x1x1024, S8x1x1x1024] <;> omega

end Cert.Kernel.Run

end
-- ==== Proof.KRunZBits.lean ====
/-
  The kernel body at the FIRST hidden tile of a token tile (second grid coordinate 0), run once on any staging
  memrefs. There the body casts the token tile to bf16 into the scratch, reads it back, forms the four 256-wide
  sub-chunks of the hidden tile and their contributions to the output tile, and stores the sum plus the second bias
  into the output's staging buffer. Each buffer the body writes ends with a list of written pieces (a rectangle and the value stored through it), which
  the statement carries as its witness.
-/
import proofs.«119035_g17592186045067_cont_7to1_1554_11_alg».proof.Proof.Gen.Kernel.Launch
import proofs.«119035_g17592186045067_cont_7to1_1554_11_alg».proof.Proof.Gen.Kernel.Skeleton
import Idealize.ShloMosaic.Lib.Pipeline.FrameBody
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch condition (is the second grid coordinate zero?), as the body computes it. -/
abbrev cond1 (i : grid0.Coords) : Prop := (Scalar.cmpi .ne (Scalar.extui (Scalar.cmpi .eq (BitVec.ofNat 32 (i 1).val) 0#32)) 0#32) = 1#1

set_option maxHeartbeats 4000000 in
/-- The body where the second grid coordinate is zero: from the five input buffers at their contents and the output
    buffer and the scratch at anything, it runs to the inputs as they were, the output buffer and the scratch with the
    witness pieces written. -/
noncomputable def runZ (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : cond1 i) (hc2 : k0_cond2 i = 1#1) (hc3 : ¬ k0_cond3 i = 1#1)
    (x0 : Vec F S1024x1024 .f32) (w1 : Vec F S1x1024x1024 .f32) (b1 : Vec F S1x1x1x1024 .f32)
    (w2 : Vec F S1x1024x1024 .f32) (b2 : Vec F S1x1x1x1024 .f32) :
    Σ' (L8 : List (View.Piece (Elt F) S1024x1024 .f32)), { L9 : List (View.Piece (Elt F) S1024x1024 .bf16) //
      ∀ (E : Set ℕ) (K : PUnit → sProp 𝕄),
        iprop(owns (c : Thread nD τ) arg3 fullShare x0 ∗ owns (c : Thread nD τ) arg4 fullShare w1 ∗ owns (c : Thread nD τ) arg5 fullShare b1
            ∗ owns (c : Thread nD τ) arg6 fullShare w2 ∗ owns (c : Thread nD τ) arg7 fullShare b2
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare w1 ∗ owns (c : Thread nD τ) arg5 fullShare b1
                ∗ owns (c : Thread nD τ) arg6 fullShare w2 ∗ owns (c : Thread nD τ) arg7 fullShare b2
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, ?_, fun E K => ?run⟩
  case run =>
    simp only [cc0__mlp_body_eq_skeleton]; unfold cc0__mlp_body_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.Kernel.KRun

end
-- ==== Proof.KRunPBits.lean ====
/-
  The kernel body at a LATER hidden tile of a token tile (second grid coordinate not 0), run once on any staging
  memrefs. There the body reads the bf16 token tile the first hidden tile left in the scratch, forms the hidden
  tile's contribution to the output tile, and adds it to what the output's staging buffer holds. The output
  buffer ends with a list of written pieces, which the statement carries as its witness.
-/
import proofs.«119035_g17592186045067_cont_7to1_1554_11_alg».proof.Proof.KRunZBits

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the second grid coordinate is not zero: from the weight and first-bias buffers at their contents,
    the output buffer at `prev` and the scratch at `xs`, it runs to those as they were and the output buffer with the
    witness pieces written. -/
noncomputable def runP (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : ¬ cond1 i) (hc2 : ¬ k0_cond2 i = 1#1) (hc3 : k0_cond3 i = 1#1)
    (w1 : Vec F S1x1024x1024 .f32) (b1 : Vec F S1x1x1x1024 .f32)
    (w2 : Vec F S1x1024x1024 .f32) (prev : Vec F S1024x1024 .f32) (xs : Vec F S1024x1024 .bf16) :
    { L8 : List (View.Piece (Elt F) S1024x1024 .f32) //
      ∀ (E : Set ℕ) (K : PUnit → sProp 𝕄),
        iprop(owns (c : Thread nD τ) arg4 fullShare w1 ∗ owns (c : Thread nD τ) arg5 fullShare b1
            ∗ owns (c : Thread nD τ) arg6 fullShare w2
            ∗ owns (c : Thread nD τ) arg8 fullShare prev ∗ owns (c : Thread nD τ) arg9 fullShare xs
            ∗ (iprop(owns (c : Thread nD τ) arg4 fullShare w1 ∗ owns (c : Thread nD τ) arg5 fullShare b1
                ∗ owns (c : Thread nD τ) arg6 fullShare w2
                ∗ (∃ f, arg8.view.loc (c : Thread nD τ) ↦[arg8.view.set]{fullShare} arg8.view.writes (Elt F) f L8)
                ∗ owns (c : Thread nD τ) arg9 fullShare xs) -∗ K ⟨⟩))
          ⊢ wp frame (wpE (defs₀ (F := F)) Variants.none c none) E (cc0__mlp_body i arg2 harg2 arg3 harg3 arg4 harg4 arg5 harg5 arg6 harg6 arg7 harg7 arg8 harg8 arg9 harg9) K } := by
  refine ⟨?_, fun E K => ?run⟩
  case run =>
    simp only [cc0__mlp_body_eq_skeleton]; unfold cc0__mlp_body_skel
    unfold owns
    iintro ⟨⟨%f4, %hf4, H4⟩, ⟨%f5, %hf5, H5⟩, ⟨%f6, %hf6, H6⟩, ⟨%f8, %hf8, H8⟩, ⟨%f9, %hf9, H9⟩, Hk⟩
    obtain rfl := harg4.eq_unread hf4; obtain rfl := harg5.eq_unread hf5
    obtain rfl := harg6.eq_unread hf6; obtain rfl := harg8.eq_unread hf8; obtain rfl := harg9.eq_unread hf9
    sl_exec (disch := first | exact hc1 | exact hc2 | exact hc3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    iexists _; isplitr; · ipureintro; exact harg9.read_unread _
    iexact H9

end Cert.Kernel.KRun

end
-- ==== Proof.KDataBits.lean ====
/-
  The kernel's proof data. The grid is 8 token tiles by 4 hidden tiles, walked row by row: point `t` is token tile
  `t / 4`, hidden tile `t % 4`. At the first hidden tile of a token tile the body casts the token tile to bf16 into
  its scratch and stores (contribution of hidden tile 0) + (second bias) into the output tile's staging buffer; at
  each later hidden tile it reads the cast tile back from the scratch and adds that hidden tile's contribution to the
  staging buffer. So what the output's staging buffer holds after point `t` is a recursion on `t` (`outAt`), and
  between two points of one token tile the scratch holds the cast of that token tile (`PhiK`).
-/
import proofs.«119035_g17592186045067_cont_7to1_1554_11_alg».proof.Proof.KBaseBits
import proofs.«119035_g17592186045067_cont_7to1_1554_11_alg».proof.Proof.KRunPBits
import Idealize.ShloMosaic.Lib.Pipeline.Value

set_option maxRecDepth 16384

noncomputable section

namespace Cert.Kernel.KData

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Run Cert.Kernel.KRun

/-! ## The sub-chunk rectangles and the body's arithmetic on one point's blocks -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The whole-tile rectangle of a [1024,1024] buffer. -/
abbrev rT : Rect S1024x1024 := Rect.unit (s := S1024x1024) ![0, 0] S1024x1024.size inb_S1024x1024_S1024x1024_0_0
/-- Sub-chunk `k` (256 hidden units) of the first weight block [1,1024,1024]: columns 256k … 256k+255. -/
abbrev rW1_0 : Rect S1x1024x1024 := Rect.unit (s := S1x1024x1024) ![0, 0, 0] S1x1024x256.size inb_S1x1024x1024_S1x1024x256_0_0_0
abbrev rW1_1 : Rect S1x1024x1024 := Rect.unit (s := S1x1024x1024) ![0, 0, 256] S1x1024x256.size inb_S1x1024x1024_S1x1024x256_0_0_256
abbrev rW1_2 : Rect S1x1024x1024 := Rect.unit (s := S1x1024x1024) ![0, 0, 512] S1x1024x256.size inb_S1x1024x1024_S1x1024x256_0_0_512
abbrev rW1_3 : Rect S1x1024x1024 := Rect.unit (s := S1x1024x1024) ![0, 0, 768] S1x1024x256.size inb_S1x1024x1024_S1x1024x256_0_0_768
/-- Sub-chunk `k` of the first bias block [1,1,1,1024]. -/
abbrev rB1_0 : Rect S1x1x1x1024 := Rect.unit (s := S1x1x1x1024) ![0, 0, 0, 0] S1x1x1x256.size inb_S1x1x1x1024_S1x1x1x256_0_0_0_0
abbrev rB1_1 : Rect S1x1x1x1024 := Rect.unit (s := S1x1x1x1024) ![0, 0, 0, 256] S1x1x1x256.size inb_S1x1x1x1024_S1x1x1x256_0_0_0_256
abbrev rB1_2 : Rect S1x1x1x1024 := Rect.unit (s := S1x1x1x1024) ![0, 0, 0, 512] S1x1x1x256.size inb_S1x1x1x1024_S1x1x1x256_0_0_0_512
abbrev rB1_3 : Rect S1x1x1x1024 := Rect.unit (s := S1x1x1x1024) ![0, 0, 0, 768] S1x1x1x256.size inb_S1x1x1x1024_S1x1x1x256_0_0_0_768
/-- Sub-chunk `k` of the second weight block [1,1024,1024]: rows 256k … 256k+255. -/
abbrev rW2_0 : Rect S1x1024x1024 := Rect.unit (s := S1x1024x1024) ![0, 0, 0] S1x256x1024.size inb_S1x1024x1024_S1x256x1024_0_0_0
abbrev rW2_1 : Rect S1x1024x1024 := Rect.unit (s := S1x1024x1024) ![0, 256, 0] S1x256x1024.size inb_S1x1024x1024_S1x256x1024_0_256_0
abbrev rW2_2 : Rect S1x1024x1024 := Rect.unit (s := S1x1024x1024) ![0, 512, 0] S1x256x1024.size inb_S1x1024x1024_S1x256x1024_0_512_0
abbrev rW2_3 : Rect S1x1024x1024 := Rect.unit (s := S1x1024x1024) ![0, 768, 0] S1x256x1024.size inb_S1x1024x1024_S1x256x1024_0_768_0
/-- The whole second-bias block [1,1,1,1024]. -/
abbrev rB2 : Rect S1x1x1x1024 := Rect.unit (s := S1x1x1x1024) ![0, 0, 0, 0] S1x1x1x1024.size inb_S1x1x1x1024_S1x1x1x1024_0_0_0_0

/-- One hidden tile's contribution to the output tile: with `v3` the bf16 token tile, `w1`, `b1`, `w2` the hidden
    tile's first-layer weights and bias and second-layer weights, the sum over the four sub-chunks `k` of
    gelu (v3 · w1ₖ + b1ₖ) · w2ₖ — the body's payloads composed as the body composes them. -/
def accOf (v3 : Vec F S1024x1024 .bf16) (w1 : Vec F S1x1024x1024 .f32) (b1 : Vec F S1x1x1x1024 .f32)
    (w2 : Vec F S1x1024x1024 .f32) : FVec F S1024x1024 .f32 :=
  k0_pay9 v3
    (k0_pay5 (k0_pay3 v3 (View.ld w1 rW1_0) (View.ld b1 rB1_0) (View.ld w2 rW2_0)) (k0_pay4 v3 (View.ld w1 rW1_1))
      (View.ld b1 rB1_1) (View.ld w2 rW2_1))
    (k0_pay6 v3 (View.ld w1 rW1_2) (View.ld b1 rB1_2)) (k0_pay7 v3 (View.ld w1 rW1_2) (View.ld b1 rB1_2)) (k0_pay8 (F := F))
    (View.ld w2 rW2_2) (View.ld w1 rW1_3) (View.ld b1 rB1_3) (View.ld w2 rW2_3)

/-- What the first hidden tile of a token tile stores: its contribution plus the second bias. -/
def firstOf (v3 : Vec F S1024x1024 .bf16) (w1 : Vec F S1x1024x1024 .f32) (b1 : Vec F S1x1x1x1024 .f32)
    (w2 : Vec F S1x1024x1024 .f32) (b2 : Vec F S1x1x1x1024 .f32) : FVec F S1024x1024 .f32 :=
  k0_pay10 v3
    (k0_pay5 (k0_pay3 v3 (View.ld w1 rW1_0) (View.ld b1 rB1_0) (View.ld w2 rW2_0)) (k0_pay4 v3 (View.ld w1 rW1_1))
      (View.ld b1 rB1_1) (View.ld w2 rW2_1))
    (k0_pay6 v3 (View.ld w1 rW1_2) (View.ld b1 rB1_2)) (k0_pay7 v3 (View.ld w1 rW1_2) (View.ld b1 rB1_2)) (k0_pay8 (F := F))
    (View.ld w2 rW2_2) (View.ld w1 rW1_3) (View.ld b1 rB1_3) (View.ld w2 rW2_3) (View.ld b2 rB2)

variable (m : (ℓ : Loc nD τ sig) → Buf (Elt F) ℓ)

/-! ## The windows' blocks -/

/-- The grid has 32 points, at any contents of the table. -/
theorem N_M (hO : Ok m) : (cfgM m hO).N = 32 := N_0

/-- Window `w`'s block at point `t`, read off its array as the region finds it (for a window whose index map
    reads the table, a function of the table's word). -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The token tile, the two weight blocks and the two bias blocks at point `t`. -/
abbrev X (hO : Ok m) (c : Dev nD) (t : Fin (cfgM m hO).N) : Vec F S1024x1024 .f32 := iblk m hO c 0 t
abbrev W1 (hO : Ok m) (c : Dev nD) (t : Fin (cfgM m hO).N) : Vec F S1x1024x1024 .f32 := iblk m hO c 1 t
abbrev B1 (hO : Ok m) (c : Dev nD) (t : Fin (cfgM m hO).N) : Vec F S1x1x1x1024 .f32 := iblk m hO c 2 t
abbrev W2 (hO : Ok m) (c : Dev nD) (t : Fin (cfgM m hO).N) : Vec F S1x1024x1024 .f32 := iblk m hO c 3 t
abbrev B2 (hO : Ok m) (c : Dev nD) (t : Fin (cfgM m hO).N) : Vec F S1x1x1x1024 .f32 := iblk m hO c 4 t

/-- The first point of the token tile position `n` lies in (positions past the grid wrap; none is consulted). -/
def rowPt (hO : Ok m) (n : ℕ) : Fin (cfgM m hO).N := ⟨(n - n % 4) % 32, by rw [N_M]; exact Nat.mod_lt _ (by decide)⟩

theorem rowPt_self (hO : Ok m) (t : Fin (cfgM m hO).N) (h : t.val % 4 = 0) : rowPt m hO t.val = t := by
  have hN := N_M m hO; have := t.isLt
  apply Fin.ext; show (t.val - t.val % 4) % 32 = t.val; omega

theorem rowPt_succ (hO : Ok m) (n : ℕ) (h : (n + 1) % 4 ≠ 0) : rowPt m hO (n + 1) = rowPt m hO n := by
  apply Fin.ext; show (n + 1 - (n + 1) % 4) % 32 = (n - n % 4) % 32; omega

/-- The bf16 cast of the token tile of the row position `n` lies in: what the scratch holds between that row's points. -/
abbrev castAt (hO : Ok m) (c : Dev nD) (n : ℕ) : Vec F S1024x1024 .bf16 := k0_pay2 (X m hO c (rowPt m hO n))

/-! ## What the output tile's staging buffer holds after each point -/

/-- THE ACCUMULATION, by recursion on the position: at the first hidden tile of a token tile, that tile's contribution
    plus the second bias; at a later one, its contribution added to what the point before left. -/
def outAt (hO : Ok m) (c : Dev nD) : (n : ℕ) → n < (cfgM m hO).N → Vec F S1024x1024 .f32
  | 0, hn => firstOf (k0_pay2 (X m hO c ⟨0, hn⟩)) (W1 m hO c ⟨0, hn⟩) (B1 m hO c ⟨0, hn⟩) (W2 m hO c ⟨0, hn⟩) (B2 m hO c ⟨0, hn⟩)
  | n + 1, hn =>
    if (n + 1) % 4 = 0 then
      firstOf (k0_pay2 (X m hO c ⟨n + 1, hn⟩)) (W1 m hO c ⟨n + 1, hn⟩) (B1 m hO c ⟨n + 1, hn⟩) (W2 m hO c ⟨n + 1, hn⟩) (B2 m hO c ⟨n + 1, hn⟩)
    else
      k0_pay1 (accOf (castAt m hO c (n + 1)) (W1 m hO c ⟨n + 1, hn⟩) (B1 m hO c ⟨n + 1, hn⟩) (W2 m hO c ⟨n + 1, hn⟩))
        (outAt hO c n (Nat.lt_of_succ_lt hn))

/-- At the first hidden tile of a token tile. -/
theorem outAt_first (hO : Ok m) (c : Dev nD) (t : Fin (cfgM m hO).N) (h : t.val % 4 = 0) :
    outAt m hO c t.val t.isLt = firstOf (k0_pay2 (X m hO c t)) (W1 m hO c t) (B1 m hO c t) (W2 m hO c t) (B2 m hO c t) := by
  obtain ⟨n, hn⟩ := t
  cases n with
  | zero => rfl
  | succ n => exact (if_pos h).trans rfl

/-- At a later hidden tile: over what the point before left. -/
theorem outAt_later (hO : Ok m) (c : Dev nD) (t : Fin (cfgM m hO).N) (h : ¬t.val % 4 = 0) :
    outAt m hO c t.val t.isLt = k0_pay1 (accOf (castAt m hO c t.val) (W1 m hO c t) (B1 m hO c t) (W2 m hO c t))
      (outAt m hO c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- The scratch as a memref: the kernel's own whole scoped buffer. -/
abbrev scM : Memref sig .tc .vmem S1024x1024 .bf16 := Memref.whole cc0_scratch0

/-- Before position `n`: the generator register at some state, the table's half the region hands the body (the body
    never loads it), and the scratch — at anything before the first hidden tile of a token tile, at the cast of the
    row's token tile before a later one. -/
def PhiK (hO : Ok m) (c : Dev nD) (n : ℕ) : sProp 𝕄 :=
  iprop((∃ r, prngReg c r) ∗ Pipeline.ΦT pre0 (tbl m) c
    ∗ (if n % 4 = 0 then iprop(∃ d, owns (c : Thread nD τ) scM fullShare d) else owns (c : Thread nD τ) scM fullShare (castAt m hO c n)))

theorem PhiK_first (hO : Ok m) (c : Dev nD) (n : ℕ) (h : n % 4 = 0) :
    PhiK m hO c n = iprop((∃ r, prngReg c r) ∗ Pipeline.ΦT pre0 (tbl m) c ∗ (∃ d, owns (c : Thread nD τ) scM fullShare d)) := by
  unfold PhiK; rw [if_pos h]

theorem PhiK_later (hO : Ok m) (c : Dev nD) (n : ℕ) (h : ¬n % 4 = 0) :
    PhiK m hO c n = iprop((∃ r, prngReg c r) ∗ Pipeline.ΦT pre0 (tbl m) c ∗ owns (c : Thread nD τ) scM fullShare (castAt m hO c n)) := by
  unfold PhiK; rw [if_neg h]

/-! ## The proof data -/

/-- The proof data of the one pipeline on core `c`: the arrays as the region finds them; after the body at point `t`
    each input's buffer at its block and the output's at `outAt`; the invariant `PhiK`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t.val t.isLt
  Φ t := PhiK m hO c t.val
  q _ := fullShare
  owed _ := 0

theorem A_eq (hO : Ok m) (c : Dev nD) (w : Fin (cfgM m hO).W) : (dats m hO 0 c).A w = V m c (Pipeline.arrRef spec0 w) := by
  dsimp only [dats]

theorem Phi_eq (hO : Ok m) (c : Dev nD) (t : Fin ((cfgM m hO).N + 1)) : (dats m hO 0 c).Φ t = PhiK m hO c t.val := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = outAt m hO c t.val t.isLt := by dsimp only [dats]; try rfl

/-! ## The two ends of the invariant -/

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [Phi_eq, show ((0 : Fin ((cfgM m hO).N + 1)).val) = 0 from rfl, PhiK_first m hO c 0 rfl, PhiA_eq]
  iintro ⟨⟨HS, Hg⟩, HT⟩
  isplitl [Hg]; · iexact Hg
  isplitl [HT]; · iexact HT
  iexact HS

/-- After the last point the invariant gives the class invariant back (the table's half is dropped). -/
theorem hout (hO : Ok m) (c : Dev nD) : (dats m hO 0 c).Φ (Fin.last (cfgM m hO).N) ⊢ Pipeline.ΦA spec0 c := by
  rw [Phi_eq, PhiK_first m hO c _ (by rw [Fin.val_last, N_M]), PhiA_eq]
  iintro ⟨Hg, -, HS⟩
  isplitl [HS]; · iexact HS
  iexact Hg

end Cert.Kernel.KData

end
-- ==== Proof.KBodyBits.lean ====
/-
  The body obligation of the kernel's proof data. Per point, by the case the second grid coordinate puts the point in:
  at the first hidden tile of a token tile the body finds its five inputs at their blocks, the output's staging buffer and
  the scratch at anything, and leaves the cast token tile in the scratch and (contribution + second bias) in the
  output's buffer; at a later hidden tile it finds the cast token tile in the scratch and in the output's buffer what
  the point before left (the buffer is written back only after the last hidden tile of a token tile), and leaves the
  sum. The body's two cases are stated once on any staging memrefs; here the pieces they leave are read back as the proof
  data's values.
-/
import proofs.«119035_g17592186045067_cont_7to1_1554_11_alg».proof.Proof.KDataBits

set_option maxRecDepth 16384

noncomputable section

namespace Cert.Kernel.KBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Run Cert.Kernel.KRun Cert.Kernel.KData

/-! ## What the two cases' pieces read back as -/

/-- Every index of a [1024,1024] buffer lies in the whole-tile rectangle: one store through it covers the buffer. -/
theorem coverT {e : EltTy} (w : rT.shape.Idx → Elt F e) (y : S1024x1024.Idx) :
    ∃ p ∈ [(⟨rT, w⟩ : View.Piece (Elt F) S1024x1024 e)], y ∈ p.1.set :=
  ⟨_, List.mem_singleton_self _, View.mem_set_unit_zero hz2 inb_S1024x1024_S1024x1024_0_0 y⟩

/-- At the first hidden tile the scratch ends at the bf16 cast of the token tile. -/
theorem read9Z (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : cond1 i) (hc2 : k0_cond2 i = 1#1) (hc3 : ¬ k0_cond3 i = 1#1)
    (x0 : Vec F S1024x1024 .f32) (w1 : Vec F S1x1024x1024 .f32) (b1 : Vec F S1x1x1x1024 .f32)
    (w2 : Vec F S1x1024x1024 .f32) (b2 : Vec F S1x1x1x1024 .f32) (f) :
    arg9.view.read (Elt F) (arg9.view.writes (Elt F) f (runZ c i arg2 harg2 arg3 harg3 arg4 harg4 arg5 harg5 arg6 harg6 arg7 harg7 arg8 harg8 arg9 harg9 hc1 hc2 hc3 x0 w1 b1 w2 b2).2.1) = k0_pay2 x0 := by
  unfold runZ
  dsimp only
  unfold runZ.sl.H9_1
  rw [View.read_writes_eq_canon _ _ _ (coverT _), View.canon_unit_zero hz2, View.readAt_eq_ld, Memref.IsWhole.read_unread,
    View.ld_unit_zero hz2]

/-- At the first hidden tile the output's staging buffer ends at that tile's contribution plus the second bias. -/
theorem read8Z (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : cond1 i) (hc2 : k0_cond2 i = 1#1) (hc3 : ¬ k0_cond3 i = 1#1)
    (x0 : Vec F S1024x1024 .f32) (w1 : Vec F S1x1024x1024 .f32) (b1 : Vec F S1x1x1x1024 .f32)
    (w2 : Vec F S1x1024x1024 .f32) (b2 : Vec F S1x1x1x1024 .f32) (f) :
    arg8.view.read (Elt F) (arg8.view.writes (Elt F) f (runZ c i arg2 harg2 arg3 harg3 arg4 harg4 arg5 harg5 arg6 harg6 arg7 harg7 arg8 harg8 arg9 harg9 hc1 hc2 hc3 x0 w1 b1 w2 b2).1) = firstOf (k0_pay2 x0) w1 b1 w2 b2 := by
  unfold runZ
  dsimp only
  rw [View.read_writes_eq_canon _ _ _ (coverT _), View.canon_unit_zero hz2]
  unfold runZ.sl.r_2 runZ.sl.r_3 runZ.sl.r_4 runZ.sl.r runZ.sl.r_1 runZ.sl.v3
  unfold runZ.sl.H9_1
  simp only [View.readCov_cons_toLoadRect, View.readAt_eq_ld, Memref.IsWhole.read_unread, View.ld_unit_zero (S := S1024x1024) hz2]
  rfl

/-- At a later hidden tile the output's staging buffer ends at what it held plus that tile's contribution. -/
theorem read8P (c : Dev nD) (i : grid0.Coords)
    (arg2 : Memref sig .tc .smem S1 .i32) (harg2 : arg2.IsWhole)
    (arg3 : Memref sig .tc .vmem S1024x1024 .f32) (harg3 : arg3.IsWhole)
    (arg4 : Memref sig .tc .vmem S1x1024x1024 .f32) (harg4 : arg4.IsWhole)
    (arg5 : Memref sig .tc .vmem S1x1x1x1024 .f32) (harg5 : arg5.IsWhole)
    (arg6 : Memref sig .tc .vmem S1x1024x1024 .f32) (harg6 : arg6.IsWhole)
    (arg7 : Memref sig .tc .vmem S1x1x1x1024 .f32) (harg7 : arg7.IsWhole)
    (arg8 : Memref sig .tc .vmem S1024x1024 .f32) (harg8 : arg8.IsWhole)
    (arg9 : Memref sig .tc .vmem S1024x1024 .bf16) (harg9 : arg9.IsWhole)
    (hc1 : ¬ cond1 i) (hc2 : ¬ k0_cond2 i = 1#1) (hc3 : k0_cond3 i = 1#1)
    (w1 : Vec F S1x1024x1024 .f32) (b1 : Vec F S1x1x1x1024 .f32)
    (w2 : Vec F S1x1024x1024 .f32) (prev : Vec F S1024x1024 .f32) (xs : Vec F S1024x1024 .bf16) (f) :
    arg8.view.read (Elt F) (arg8.view.writes (Elt F) f (runP c i arg2 harg2 arg3 harg3 arg4 harg4 arg5 harg5 arg6 harg6 arg7 harg7 arg8 harg8 arg9 harg9 hc1 hc2 hc3 w1 b1 w2 prev xs).1) = k0_pay1 (accOf xs w1 b1 w2) prev := by
  unfold runP
  dsimp only
  rw [View.read_writes_eq_canon _ _ _ (coverT _), View.canon_unit_zero hz2]
  unfold runP.sl.r_6 runP.sl.r_3 runP.sl.r_4 runP.sl.r_5 runP.sl.r_1 runP.sl.r_2 runP.sl.r
  simp only [View.readAt_eq_ld, Memref.IsWhole.read_unread, View.ld_unit_zero (S := S1024x1024) hz2]
  rfl

/-! ## The branch conditions and the schedule, decided over the grid -/

/-- The three conditions hold, respectively fail, exactly at the first hidden tile of a token tile. -/
theorem hcond1 : ∀ t : Fin grid0.N, cond1 (grid0.coords t) ↔ t.val % 4 = 0 := by decide +kernel
theorem hcond2 : ∀ t : Fin grid0.N, k0_cond2 (grid0.coords t) = 1#1 ↔ t.val % 4 = 0 := by decide +kernel
theorem hcond3 : ∀ t : Fin grid0.N, k0_cond3 (grid0.coords t) = 1#1 ↔ ¬t.val % 4 = 0 := by decide +kernel

/-- The output tile is written back after the last hidden tile of each token tile, whatever the table holds (its index
    map does not read it). -/
theorem flush5 (a : (pcfg0 (F := F)).Adm) : ∀ t : Fin (cfg0 a).N, ((cfg0 a).win 5).flush t = true ↔ t.val % 4 = 3 :=
  (by decide +kernel : ∀ t : Fin grid0.N, Pipeline.Window.flushOf grid0 true cc0_transform_5 t = true ↔ t.val % 4 = 3)

/-- The output window is idle nowhere: one of its two stores runs at every point. -/
theorem live5 (a : (pcfg0 (F := F)).Adm) : ∀ i : grid0.Coords, (cfg0 a).idle 5 i = false :=
  (by decide +kernel : ∀ i : grid0.Coords, (!(k0_cond2 i == 1#1) && !(k0_cond3 i == 1#1)) = false)

variable (m : (ℓ : Loc nD τ sig) → Buf (Elt F) ℓ)

/-! ## What the body finds in each staging buffer -/
/-- Each input's current staging buffer holds its block at every point, fetched there or not. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- At the first hidden tile of a token tile the output's staging buffer is fresh (the first point, or just written back). -/
theorem before5_first (hO : Ok m) (c : Dev nD) (t : Fin (cfgM m hO).N) (h : t.val % 4 = 0) (d) :
    (dats m hO 0 c).before 5 t d = d := by
  refine (dats m hO 0 c).before_out_reset 5 rfl t ?_ d
  by_cases h0 : t.val = 0
  · exact .inl h0
  · refine .inr ⟨h0, (flush5 (adm m hO) _).mpr ?_⟩
    show (t.val - 1) % 4 = 3
    omega

/-- At a later one it holds what the point before left. -/
theorem before5_later (hO : Ok m) (c : Dev nD) (t : Fin (cfgM m hO).N) (h : ¬t.val % 4 = 0) (d) :
    (dats m hO 0 c).before 5 t d = outAt m hO c (t.val - 1) (Nat.lt_of_le_of_lt (Nat.sub_le _ _) t.isLt) := by
  have h0 : t.val ≠ 0 := fun e => h (by rw [e])
  rw [(dats m hO 0 c).before_out_kept 5 rfl t h0 ?_ (live5 (adm m hO)) (fun _ _ => rfl) d, after5]
  cases hf : ((cfgM m hO).win 5).flush ⟨t.val - 1, Nat.lt_of_le_of_lt (Nat.sub_le _ _) t.isLt⟩
  · rfl
  · exfalso
    have := (flush5 (adm m hO) _).mp hf
    change (t.val - 1) % 4 = 3 at this
    omega

/-! ## The body at a point -/

/-- Each window's current staging memref at point `t`, as the pipeline passes it to the body, and its wholeness. -/
abbrev ms0 (hO : Ok m) (t : Fin (cfgM m hO).N) : Memref sig .tc .vmem S1024x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1024x1024 .f32 := spec0_5.stage ((cfgM m hO).slots t 5)
abbrev hs5 (hO : Ok m) (t : Fin (cfgM m hO).N) : (ms5 m hO t).IsWhole := hstage0_5 (((cfgM m hO).slots t 5).cast nbuf0_5)

/-- The kernel body at point `t`, on what the pipeline calls it with. -/
abbrev bodyAt (hO : Ok m) (t : Fin (cfgM m hO).N) : Prog (TpuEff nD τ sig (Elt F) Λ₀ .tc) PUnit :=
  cc0__mlp_body (grid0.coords t) (Memref.whole main_call0_v0) (Memref.isWhole_whole _) (ms0 m hO t) (hs0 m hO t) (ms1 m hO t) (hs1 m hO t)
    (ms2 m hO t) (hs2 m hO t) (ms3 m hO t) (hs3 m hO t) (ms4 m hO t) (hs4 m hO t) (ms5 m hO t) (hs5 m hO t) scM (Memref.isWhole_whole _)

/-- What the body is called with at point `t` (the body obligation's precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 4000000 in
/-- The body at any point: the inputs' memrefs hold their blocks; the second grid coordinate decides the case; at the
    first hidden tile the output's buffer and the scratch are handed at anything and taken back at this point's
    contents; at a later one the output's buffer holds what the point before left and the scratch the row's cast token
    tile, and the first and last inputs, which the body does not touch there, pass by. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).owesAt () t.succ = (dats m hO 0 c).owesAt () t.castSucc from rfl]
  rw [Phi_eq, Phi_eq, show (t.castSucc).val = t.val from rfl, show (t.succ).val = t.val + 1 from rfl]
  rw [show (dats m hO 0 c).leavesExact 0 t = owns (c : Thread nD τ) (ms0 m hO t) fullShare ((dats m hO 0 c).after 0 t) from by
    unfold Dat.leavesExact; rfl, after0]
  rw [show (dats m hO 0 c).leavesExact 1 t = owns (c : Thread nD τ) (ms1 m hO t) fullShare ((dats m hO 0 c).after 1 t) from by
    unfold Dat.leavesExact; rfl, after1]
  rw [show (dats m hO 0 c).leavesExact 2 t = owns (c : Thread nD τ) (ms2 m hO t) fullShare ((dats m hO 0 c).after 2 t) from by
    unfold Dat.leavesExact; rfl, after2]
  rw [show (dats m hO 0 c).leavesExact 3 t = owns (c : Thread nD τ) (ms3 m hO t) fullShare ((dats m hO 0 c).after 3 t) from by
    unfold Dat.leavesExact; rfl, after3]
  rw [show (dats m hO 0 c).leavesExact 4 t = owns (c : Thread nD τ) (ms4 m hO t) fullShare ((dats m hO 0 c).after 4 t) from by
    unfold Dat.leavesExact; rfl, after4]
  rw [show (dats m hO 0 c).leavesExact 5 t = owns (c : Thread nD τ) (ms5 m hO t) fullShare ((dats m hO 0 c).after 5 t) from by
    unfold Dat.leavesExact; rw [live5 (adm m hO) _]; rfl, after5]
  have hN : t.val < 32 := lt_of_lt_of_eq t.isLt (N_M m hO)
  by_cases h0 : t.val % 4 = 0
  · have h1 : ¬(t.val + 1) % 4 = 0 := by omega
    rw [PhiK_first m hO c _ h0, PhiK_later m hO c _ h1, outAt_first m hO c t h0]
    rw [show castAt m hO c (t.val + 1) = k0_pay2 (X m hO c t) from by
      unfold castAt; rw [rowPt_succ m hO _ h1, rowPt_self m hO t h0]]
    iintro ⟨⟨Hg, HT, ⟨%ds, HS⟩⟩, Ho, ⟨%d0, H0⟩, ⟨%d1, H1⟩, ⟨%d2, H2⟩, ⟨%d3, H3⟩, ⟨%d4, H4⟩, ⟨%d5, H5⟩⟩
    iapply ((runZ c (grid0.coords t) _ _ _ _ _ _ _ _ _ _ _ _ _ _ _ _ ((hcond1 t).mpr h0) ((hcond2 t).mpr h0) (fun h => (hcond3 t).mp h h0)
      (X m hO c t) (W1 m hO c t) (B1 m hO c t) (W2 m hO c t) (B2 m hO c t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, ⟨%e5, H5⟩, ⟨%es, HS⟩⟩
    isplitl [Hg HT HS]
    · isplitl [Hg]; · iexact Hg
      isplitl [HT]; · iexact HT
      unfold owns; iexists _; isplitr
      swap; · iexact HS
      ipureintro; exact read9Z c _ _ _ _ _ _ _ _ _ _ _ _ _ _ _ _ _ _ _ _ _ _ _ _ _ _
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read8Z c _ _ _ _ _ _ _ _ _ _ _ _ _ _ _ _ _ _ _ _ _ _ _ _ _ _
  · rw [PhiK_later m hO c _ h0, outAt_later m hO c t h0]
    simp only [before5_later m hO c t h0]
    iintro ⟨⟨Hg, HT, HS⟩, Ho, ⟨%d0, H0⟩, ⟨%d1, H1⟩, ⟨%d2, H2⟩, ⟨%d3, H3⟩, ⟨%d4, H4⟩, ⟨%d5, H5⟩⟩
    iapply ((runP c (grid0.coords t) (Memref.whole main_call0_v0) (Memref.isWhole_whole _) (ms0 m hO t) (hs0 m hO t) _ _ _ _ _ _ (ms4 m hO t) (hs4 m hO t) _ _ _ _
      (fun h => h0 ((hcond1 t).mp h)) (fun h => h0 ((hcond2 t).mp h)) ((hcond3 t).mpr h0)
      (W1 m hO c t) (B1 m hO c t) (W2 m hO c t) (outAt m hO c (t.val - 1) (Nat.lt_of_le_of_lt (Nat.sub_le _ _) t.isLt)) (castAt m hO c t.val)).2 Set.univ _)
    isplitl [H1]; · iexact H1
    isplitl [H2]; · iexact H2
    isplitl [H3]; · iexact H3
    isplitl [H5]; · iexact H5
    isplitl [HS]; · iexact HS
    iintro ⟨H1, H2, H3, ⟨%e5, H5⟩, HS⟩
    isplitl [Hg HT HS]
    · by_cases h1 : (t.val + 1) % 4 = 0
      · rw [PhiK_first m hO c _ h1]
        isplitl [Hg]; · iexact Hg
        isplitl [HT]; · iexact HT
        iexists _; iexact HS
      · rw [PhiK_later m hO c _ h1, show castAt m hO c (t.val + 1) = castAt m hO c t.val from by
          unfold castAt; rw [rowPt_succ m hO _ h1]]
        isplitl [Hg]; · iexact Hg
        isplitl [HT]; · iexact HT
        iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read8P c _ _ _ _ _ _ _ _ _ _ _ _ _ _ _ _ _ _ _ _ _ _ _ _ _ _

/-- The library's body obligation, at every point. -/
theorem body_obligation (hO : Ok m) (c : Dev nD) :
    BodyObligation (dats (F := F) m hO 0 c) (defs₀ (F := F)) Variants.none () Set.univ := fun t => by
  rw [bigSep_W0, bigSep_W0]
  exact sound_body m hO c t

end Cert.Kernel.KBody

end
-- ==== Proof.KRunBits.lean ====
/-
  The kernel's run at the proof data of the pipeline, under the expert index in range.

  With the expert index below 8 the table's contents are admissible (every table-indexed block inside its array), the
  pipeline runs at them, and the proof data name what each grid point leaves in the output window. So the run ends
  with the result array at the library's fold of those blocks over the 32 grid points and the six arguments as
  launched. The body obligation is the kernel body's own triple at every grid point.
-/
import proofs.«119035_g17592186045067_cont_7to1_1554_11_alg».proof.Proof.KLaunchBits
import proofs.«119035_g17592186045067_cont_7to1_1554_11_alg».proof.Proof.KOkBits
import proofs.«119035_g17592186045067_cont_7to1_1554_11_alg».proof.Proof.KDataBits
import proofs.«119035_g17592186045067_cont_7to1_1554_11_alg».proof.Proof.KBodyBits

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The run, given the body obligation of the proof data: the result array is window 5's array after the last grid
    point, the arguments are unchanged. -/
theorem run_main_of (hO : Ok m)
    (hbody : ∀ c, BodyObligation (KData.dats m hO 0 c) (defs₀ (F := F)) Variants.none () Set.univ) :
    θ_run defs (onTc (τ := τ) (main (F := F))) ⟨m, fun _ => 0, ρ⟩ (fun r => ∀ c : Dev nD,
      r.2.mem ((c.tc : Thread nD τ).loc main_v0) = (KData.dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ hO (KData.dats m hO) hbody (fun _ _ => rfl) (fun _ _ => rfl) (KData.A_eq m hO) (KData.hin m hO) (KData.hout m hO)

/-- THE RUN under the expert index in range: the result array at the proof data's fold over the grid, the six
    arguments unchanged. -/
theorem run_main (hcol : (m (((0 : Dev nD) : Thread nD τ).loc main_arg5) ValueIdx.ix0).toNat < 8) :
    θ_run defs (onTc (τ := τ) (main (F := F))) ⟨m, fun _ => 0, ρ⟩ (fun r => ∀ c : Dev nD,
      r.2.mem ((c.tc : Thread nD τ).loc main_v0) = (KData.dats m (ok_of_col m hcol) 0 c).arrAt 5 (cfgM m (ok_of_col m hcol)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_main_of m ρ (ok_of_col m hcol) (KBody.body_obligation m (ok_of_col m hcol))

/-- THE FRAME under the expert index in range: the program terminates without fault and its six argument arrays end
    as launched. -/
theorem frame (hcol : (m (((0 : Dev nD) : Thread nD τ).loc main_arg5) ValueIdx.ix0).toNat < 8) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ hcol)

end Cert.Kernel.Run

end
-- ==== Proof.KVIdx.lean ====
/-
  Where each block of each grid point sits in the argument arrays.

  Point `t` of the 8 × 4 grid is token tile `t / 4`, hidden tile `t % 4`. The token tile and the output tile are block
  `(t / 4, 0)` of their [8192, 1024] arrays; with `e` the expert index word, the first layer's weights are block
  `(e, 0, t % 4)` of [8, 1024, 4096], its bias block `(e, t % 4, 0, 0)` of the bias reshaped [8, 4, 1, 1024], the second
  layer's weights block `(e, t % 4, 0)` of [8, 4096, 1024], its bias block `(e, 0, 0, 0)` of the bias reshaped
  [8, 1, 1, 1024]. A block's element at `y` is the array's element whose coordinate on each axis is the block index
  times the block's extent plus `y`'s coordinate; through a reshape, the element at the same row-major position.
-/
import proofs.«119035_g17592186045067_cont_7to1_1554_11_alg».proof.Proof.KData
import proofs.«119035_g17592186045067_cont_7to1_1554_11_alg».proof.Proof.KOk
import proofs.«119035_g17592186045067_cont_7to1_1554_11_alg».proof.Proof.KLaunch
import Idealize.ShloMosaic.Lib.Pipeline.Value
import Idealize.ShloMosaic.Lib.ValueLayout

set_option maxRecDepth 16384

noncomputable section

open scoped BigOperators

namespace Cert.KernelIdeal.KValue

open Cert.KernelIdeal Cert.KernelIdeal.Gen Cert.KernelIdeal.Run Cert.KernelIdeal.KData
open Idealize.ShloMosaic Idealize.ShloMosaic.TcCoe Idealize.ShloMosaic.ValueIdx
open Idealize.SL Idealize.SL.Sem
open Idealize.ShloMosaic.Pipeline (Dat)

variable {F : FTy → Type} [FloatOps F] [Named F]
variable (m : (ℓ : Loc nD τ sig) → Buf (Elt F) ℓ)

/-- The grid's coordinates at point `t`: row-major, the hidden-tile axis fastest. -/
theorem cf : ∀ t : Fin grid0.N, (grid0.coords t 0).val = t.val / 4 ∧ (grid0.coords t 1).val = t.val % 4 := by decide +kernel
/-- The token tile's and the output tile's block index at point `t`. -/
theorem tf0 : ∀ t : Fin grid0.N, cc0_transform_0 (grid0.coords t) = ![t.val / 4, 0] := by decide +kernel
theorem tf5 : ∀ t : Fin grid0.N, cc0_transform_5 (grid0.coords t) = ![t.val / 4, 0] := by decide +kernel
/-- The hidden-tile coordinate as the index maps compute it (a 32-bit word of a number below 4). -/
theorem a1f : ∀ t : Fin grid0.N, (BitVec.ofNat 32 (grid0.coords t 1).val).toNat = t.val % 4 := by decide +kernel

/-- The expert index word. -/
abbrev colW : BitVec 32 := m (((0 : Dev nD) : Thread nD τ).loc main_arg5) ValueIdx.ix0

/-- What the index maps read from the table is the expert index word. -/
theorem pf_at : (tbl m).at 0 (Rect.unit (s := S1) ![0] S1.size inb_S1_S1_0) numel1_S1 = colW m := tbl_word m _

variable (hO : Ok m) (c : Dev nD) (t : Fin (cfgM m hO).N)

/-- The six windows' block indices at point `t`. -/
theorem idx0 : ((cfgM m hO).win 0).index t = ![t.val / 4, 0] := tf0 t
theorem idx5 : ((cfgM m hO).win 5).index t = ![t.val / 4, 0] := tf5 t
theorem idx1 : ((cfgM m hO).win 1).index t = ![(colW m).toNat, 0, t.val % 4] := by
  show ![((tbl m).at 0 (Rect.unit (s := S1) ![0] S1.size inb_S1_S1_0) numel1_S1).toNat, (0#32 : BitVec 32).toNat, (BitVec.ofNat 32 (grid0.coords t 1).val).toNat] = _
  rw [a1f t, pf_at]; rfl
theorem idx2 : ((cfgM m hO).win 2).index t = ![(colW m).toNat, t.val % 4, 0, 0] := by
  show ![((tbl m).at 0 (Rect.unit (s := S1) ![0] S1.size inb_S1_S1_0) numel1_S1).toNat, (BitVec.ofNat 32 (grid0.coords t 1).val).toNat, (0#32 : BitVec 32).toNat, (0#32 : BitVec 32).toNat] = _
  rw [a1f t, pf_at]; rfl
theorem idx3 : ((cfgM m hO).win 3).index t = ![(colW m).toNat, t.val % 4, 0] := by
  show ![((tbl m).at 0 (Rect.unit (s := S1) ![0] S1.size inb_S1_S1_0) numel1_S1).toNat, (BitVec.ofNat 32 (grid0.coords t 1).val).toNat, (0#32 : BitVec 32).toNat] = _
  rw [a1f t, pf_at]; rfl
theorem idx4 : ((cfgM m hO).win 4).index t = ![(colW m).toNat, 0, 0, 0] := by
  show ![((tbl m).at 0 (Rect.unit (s := S1) ![0] S1.size inb_S1_S1_0) numel1_S1).toNat, (0#32 : BitVec 32).toNat, (0#32 : BitVec 32).toNat, (0#32 : BitVec 32).toNat] = _
  rw [pf_at]; rfl

/-- The two biases as the region finds them: reshaped by the host operations. -/
theorem V_b1 : (V m c main_call0_v1 : S8x4x1x1024.Idx → Elt F .f32)
    = shapeCast S8x4x1x1024 (m ((c : Thread nD τ).loc main_arg2) : S8x4096.Idx → Elt F .f32) shapeCasts_S8x4096_S8x4x1x1024 := by
  show StableHlo.after hostOps0 (V₀ m c) (Proc.devRef .tc main_call0_v1) = _
  after_results
  rfl
theorem V_b2 : (V m c main_call0_v2 : S8x1x1x1024.Idx → Elt F .f32)
    = shapeCast S8x1x1x1024 (m ((c : Thread nD τ).loc main_arg4) : S8x1024.Idx → Elt F .f32) shapeCasts_S8x1024_S8x1x1x1024 := by
  show StableHlo.after hostOps0 (V₀ m c) (Proc.devRef .tc main_call0_v2) = _
  after_results
  rfl

/-! ## The blocks read at an index of the argument arrays

A block's element at `y` is the array's element whose coordinate on each axis is the block index times the block's
extent plus `y`'s coordinate. -/

theorem X_at (y : S1024x1024.Idx) (i : S8192x1024.Idx)
    (h0 : (i 0).val = 1024 * (t.val / 4) + (y 0).val) (h1 : (i 1).val = (y 1).val) :
    X m hO c t y = m ((c : Thread nD τ).loc main_arg0) i := by
  show V m c main_arg0 ((((cfgM m hO).win 0).blk t).view.emb y) = _
  rw [V_arg m c main_arg0 (by decide)]
  refine congrArg _ (funext fun a => Fin.ext ?_)
  have e := idx0 m hO t
  match a with
  | ⟨0, _⟩ => show ((cfgM m hO).win 0).index t (0 : Fin 2) * 1024 + 1 * (y 0).val = (i 0).val; rw [e, h0]; show t.val / 4 * 1024 + _ = _; omega
  | ⟨1, _⟩ => show ((cfgM m hO).win 0).index t (1 : Fin 2) * 1024 + 1 * (y 1).val = (i 1).val; rw [e, h1]; show 0 * 1024 + _ = _; omega

theorem W1_at (y : S1x1024x1024.Idx) (i : S8x1024x4096.Idx)
    (h0 : (i 0).val = (colW m).toNat) (h1 : (i 1).val = (y 1).val) (h2 : (i 2).val = 1024 * (t.val % 4) + (y 2).val) :
    W1 m hO c t y = m ((c : Thread nD τ).loc main_arg1) i := by
  show V m c main_arg1 ((((cfgM m hO).win 1).blk t).view.emb y) = _
  rw [V_arg m c main_arg1 (by decide)]
  refine congrArg _ (funext fun a => Fin.ext ?_)
  have e := idx1 m hO t
  have hy0 : (y 0).val < 1 := (y 0).isLt
  match a with
  | ⟨0, _⟩ => show ((cfgM m hO).win 1).index t (0 : Fin 3) * 1 + 1 * (y 0).val = (i 0).val; rw [e, h0]; show (colW m).toNat * 1 + _ = _; omega
  | ⟨1, _⟩ => show ((cfgM m hO).win 1).index t (1 : Fin 3) * 1024 + 1 * (y 1).val = (i 1).val; rw [e, h1]; show 0 * 1024 + _ = _; omega
  | ⟨2, _⟩ => show ((cfgM m hO).win 1).index t (2 : Fin 3) * 1024 + 1 * (y 2).val = (i 2).val; rw [e, h2]; show t.val % 4 * 1024 + _ = _; omega

theorem W2_at (y : S1x1024x1024.Idx) (i : S8x4096x1024.Idx)
    (h0 : (i 0).val = (colW m).toNat) (h1 : (i 1).val = 1024 * (t.val % 4) + (y 1).val) (h2 : (i 2).val = (y 2).val) :
    W2 m hO c t y = m ((c : Thread nD τ).loc main_arg3) i := by
  show V m c main_arg3 ((((cfgM m hO).win 3).blk t).view.emb y) = _
  rw [V_arg m c main_arg3 (by decide)]
  refine congrArg _ (funext fun a => Fin.ext ?_)
  have e := idx3 m hO t
  have hy0 : (y 0).val < 1 := (y 0).isLt
  match a with
  | ⟨0, _⟩ => show ((cfgM m hO).win 3).index t (0 : Fin 3) * 1 + 1 * (y 0).val = (i 0).val; rw [e, h0]; show (colW m).toNat * 1 + _ = _; omega
  | ⟨1, _⟩ => show ((cfgM m hO).win 3).index t (1 : Fin 3) * 1024 + 1 * (y 1).val = (i 1).val; rw [e, h1]; show t.val % 4 * 1024 + _ = _; omega
  | ⟨2, _⟩ => show ((cfgM m hO).win 3).index t (2 : Fin 3) * 1024 + 1 * (y 2).val = (i 2).val; rw [e, h2]; show 0 * 1024 + _ = _; omega

theorem B1_at (y : S1x1x1x1024.Idx) (i : S8x4096.Idx)
    (h0 : (i 0).val = (colW m).toNat) (h1 : (i 1).val = 1024 * (t.val % 4) + (y 3).val) :
    B1 m hO c t y = m ((c : Thread nD τ).loc main_arg2) i := by
  show (V m c main_call0_v1 : S8x4x1x1024.Idx → Elt F .f32) ((((cfgM m hO).win 2).blk t).view.emb y) = _
  rw [V_b1]
  refine shapeCast_apply _ _ _ i ((Shape.rowMajor_val_two i).trans (Eq.trans ?_ (Shape.rowMajor_val_four (d := ![8, 4, 1, 1024]) _).symm))
  have e := idx2 m hO t
  have hy0 : (y 0).val < 1 := (y 0).isLt
  have hy1 : (y 1).val < 1 := (y 1).isLt
  have hy2 : (y 2).val < 1 := (y 2).isLt
  have ht : t.val % 4 < 4 := Nat.mod_lt _ (by decide)
  show (i 0).val * 4096 + (i 1).val
    = (((((cfgM m hO).win 2).index t (0 : Fin 4) * 1 + 1 * (y 0).val) * 4 + (((cfgM m hO).win 2).index t (1 : Fin 4) * 1 + 1 * (y 1).val)) * 1
        + (((cfgM m hO).win 2).index t (2 : Fin 4) * 1 + 1 * (y 2).val)) * 1024 + (((cfgM m hO).win 2).index t (3 : Fin 4) * 1024 + 1 * (y 3).val)
  rw [e, h0, h1]
  show _ = ((((colW m).toNat * 1 + 1 * (y 0).val) * 4 + (t.val % 4 * 1 + 1 * (y 1).val)) * 1 + (0 * 1 + 1 * (y 2).val)) * 1024 + (0 * 1024 + 1 * (y 3).val)
  omega

theorem B2_at (y : S1x1x1x1024.Idx) (i : S8x1024.Idx)
    (h0 : (i 0).val = (colW m).toNat) (h1 : (i 1).val = (y 3).val) :
    B2 m hO c t y = m ((c : Thread nD τ).loc main_arg4) i := by
  show (V m c main_call0_v2 : S8x1x1x1024.Idx → Elt F .f32) ((((cfgM m hO).win 4).blk t).view.emb y) = _
  rw [V_b2]
  refine shapeCast_apply _ _ _ i ((Shape.rowMajor_val_two i).trans (Eq.trans ?_ (Shape.rowMajor_val_four (d := ![8, 1, 1, 1024]) _).symm))
  have e := idx4 m hO t
  have hy0 : (y 0).val < 1 := (y 0).isLt
  have hy1 : (y 1).val < 1 := (y 1).isLt
  have hy2 : (y 2).val < 1 := (y 2).isLt
  show (i 0).val * 1024 + (i 1).val
    = (((((cfgM m hO).win 4).index t (0 : Fin 4) * 1 + 1 * (y 0).val) * 1 + (((cfgM m hO).win 4).index t (1 : Fin 4) * 1 + 1 * (y 1).val)) * 1
        + (((cfgM m hO).win 4).index t (2 : Fin 4) * 1 + 1 * (y 2).val)) * 1024 + (((cfgM m hO).win 4).index t (3 : Fin 4) * 1024 + 1 * (y 3).val)
  rw [e, h0, h1]
  show _ = ((((colW m).toNat * 1 + 1 * (y 0).val) * 1 + (0 * 1 + 1 * (y 1).val)) * 1 + (0 * 1 + 1 * (y 2).val)) * 1024 + (0 * 1024 + 1 * (y 3).val)
  omega

end Cert.KernelIdeal.KValue
end
-- ==== Proof.Consts.lean ====
/-
  The binary constants the two programs spell, as the real numbers their single-precision patterns denote.
  The two constants of the tanh form are 13386282 / 2^24 (nearest to √(2/π)) and 12003091 / 2^28 (nearest to 0.044715);
  the fused program's named constant is their exact product, 80338380498831 / 2^51.
-/
import Idealize.ShloMosaic.PureOps.Ideal

noncomputable section

namespace Cert.Consts

open Idealize.ShloMosaic

/-- The zero pattern denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `0.5` denotes one half. -/
theorem ofBits_half : Ideal.ofBits .f32 0x3F000000#32 = ((1 / 2 : ℝ) : EReal) := by
  simp [Ideal.ofBits, Ideal.ieee, -EReal.coe_mul]; norm_num

/-- The single-precision neighbour of `√(2/π)` denotes `13386282 / 2^24`. -/
theorem ofBits_c : Ideal.ofBits .f32 0x3F4C422A#32 = ((13386282 / 16777216 : ℝ) : EReal) := by
  simp [Ideal.ofBits, Ideal.ieee, -EReal.coe_mul]; norm_num

/-- The single-precision neighbour of `0.044715` denotes `12003091 / 2^28`. -/
theorem ofBits_a : Ideal.ofBits .f32 0x3D372713#32 = ((12003091 / 268435456 : ℝ) : EReal) := by
  simp [Ideal.ofBits, Ideal.ieee, -EReal.coe_mul]; norm_num

end Cert.Consts

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Algebra.lean ====
/-
  The two laws that join the fused, blocked program to the specification.

  (1) The fused GELU. With `h = 1/2`, the fused program computes `(z·h)·tanh(z·((z·z)·κ + c)) + z·h`, the specification
      `z·(h·(1 + tanh(c·(z + a·((z·z)·z)))))`. For a REAL `z` and `κ = a·c` the two tanh arguments agree by distributivity,
      and so do the outer forms. Distributivity fails at the infinities of the extended reals, which is why `z` must be
      real: it is, because the inputs are (a finite sum of products of reals, plus a real).
  (2) The hidden axis by blocks. The 4096 hidden units are visited as 4 tiles of 1024, each as 4 chunks of 256; a sum over
      them regroups freely, since only commutativity and associativity of `+` are involved.
-/
import proofs.«119035_g17592186045067_cont_7to1_1554_11_alg».proof.Proof.Spec
import proofs.«119035_g17592186045067_cont_7to1_1554_11_alg».proof.Proof.Consts
import proofs.«119035_g17592186045067_cont_7to1_1554_11_alg».proof.Proof.LibBlockSum

noncomputable section

open scoped BigOperators

namespace Cert.MoeMlp

open Idealize.ShloMosaic Idealize.ShloMosaic.ValueIdx

/-- The fused program's named constant: the exact product `a · c` of the two constants of the tanh form. -/
abbrev cAC : EReal := ((80338380498831 / 2251799813685248 : ℝ) : EReal)

/-- The fused program's GELU, in its own order of operations. -/
def geluFused (z : EReal) : EReal :=
  (z * cHalf) * Ideal.tanh (z * ((z * z) * cAC + cC)) + z * cHalf

/-- On a real argument the fused GELU is the specification's: `z((z z) a c + c) = c (z + a ((z z) z))` and
    `(z h) T + z h = z (h (1 + T))` in the reals. -/
theorem geluFused_coe (r : ℝ) : geluFused (r : EReal) = gelu (r : EReal) := by
  unfold geluFused gelu
  simp only [cAC, cC, cA, cHalf, cOne, Consts.ofBits_c, Consts.ofBits_a, Consts.ofBits_half, Consts.ofBits_one]
  have h1 : (r * ((r * r) * (80338380498831 / 2251799813685248) + 13386282 / 16777216) : ℝ)
      = 13386282 / 16777216 * (r + 12003091 / 268435456 * ((r * r) * r)) := by ring
  simp only [← EReal.coe_mul, ← EReal.coe_add, Ideal.tanh_coe]
  rw [h1]
  congr 1
  ring

/-- A finite sum of real numbers, taken in the extended reals, is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- With real inputs the hidden pre-activation is a real number. -/
theorem hidden_real (x : (⟨2, ![8192, 1024]⟩ : Shape).Idx → EReal) (W1 : (⟨3, ![8, 1024, 4096]⟩ : Shape).Idx → EReal)
    (b1 : (⟨2, ![8, 4096]⟩ : Shape).Idx → EReal)
    (hx : ∀ i, ∃ r : ℝ, x i = (r : EReal)) (hW : ∀ i, ∃ r : ℝ, W1 i = (r : EReal)) (hb : ∀ i, ∃ r : ℝ, b1 i = (r : EReal))
    (e : Fin 8) (t : Fin 8192) (f : Fin 4096) : ∃ r : ℝ, hidden x W1 b1 e t f = (r : EReal) := by
  choose xr hxr using hx
  choose wr hwr using hW
  choose br hbr using hb
  refine ⟨(∑ k : Fin 1024, xr (ix2 t k) * wr (ix3 e k f)) + br (ix2 e f), ?_⟩
  unfold hidden
  simp only [hxr, hwr, hbr, ← EReal.coe_mul]
  rw [sum_coe, EReal.coe_add]

/-- Hence, with real inputs, the fused GELU of the hidden pre-activation is the specification's. -/
theorem geluFused_hidden (x : (⟨2, ![8192, 1024]⟩ : Shape).Idx → EReal) (W1 : (⟨3, ![8, 1024, 4096]⟩ : Shape).Idx → EReal)
    (b1 : (⟨2, ![8, 4096]⟩ : Shape).Idx → EReal)
    (hx : ∀ i, ∃ r : ℝ, x i = (r : EReal)) (hW : ∀ i, ∃ r : ℝ, W1 i = (r : EReal)) (hb : ∀ i, ∃ r : ℝ, b1 i = (r : EReal))
    (e : Fin 8) (t : Fin 8192) (f : Fin 4096) :
    geluFused (hidden x W1 b1 e t f) = gelu (hidden x W1 b1 e t f) := by
  obtain ⟨r, hr⟩ := hidden_real x W1 b1 hx hW hb e t f
  rw [hr]
  exact geluFused_coe r

/-- A sum over the 4096 hidden units, taken as 4 tiles of 4 chunks of 256 units. -/
theorem sum_hidden_blocks (g : ℕ → EReal) :
    ∑ f : Fin 4096, g f.val
      = ∑ j ∈ Finset.range 4, ∑ s ∈ Finset.range 4, ∑ l : Fin 256, g (1024 * j + (256 * s + l.val)) := by
  rw [← Cert.Lib.sum_blocks 4 1024 g]
  refine Finset.sum_congr rfl fun j _ => ?_
  exact (Cert.Lib.sum_blocks 4 256 (fun n => g (1024 * j + n))).symm

end Cert.MoeMlp

end
-- ==== Proof.PointValue.lean ====
/-
  One grid point's arithmetic, read at an index, over the extended reals.

  A point holds a tile of 1024 tokens (kept in scratch after a change of format, which is the identity here) and, of the
  selected expert, a tile of 1024 hidden units: 1024 columns of the first layer's weights, their biases, and the matching
  1024 rows of the second layer's weights. It visits the hidden tile in 4 chunks of 256 units. A chunk contributes, at
  row `p` and output column `q`,
      ∑ l < 256, g (∑ k < 1024, x p k · W1 k l + b1 l) · W2 l q            (g the fused GELU),
  and the point's contribution is the four chunks' sums added first to last. At the first hidden tile the point stores
  that plus the second layer's bias row; at a later one it adds it to what the output tile held.
  Every step is pointwise, a re-laying of indices, or a matrix product into a zero accumulator (a plain sum over the
  contracted coordinate), so each lemma is a short chain of equalities.
-/
import proofs.«119035_g17592186045067_cont_7to1_1554_11_alg».proof.Proof.Gen.KernelIdeal.Skeleton
import proofs.«119035_g17592186045067_cont_7to1_1554_11_alg».proof.Proof.Algebra
import proofs.«119035_g17592186045067_cont_7to1_1554_11_alg».proof.Proof.LibPlainDot
import Idealize.ShloMosaic.Lib.ValueLayout
import Idealize.ShloMosaic.Lib.Pipeline.Value
import Idealize.ShloMosaic.PureOps.IdealRules

noncomputable section
open scoped BigOperators
namespace Cert.KernelIdeal.PointValue
open Idealize.ShloMosaic Idealize.ShloMosaic.ValueIdx Cert.KernelIdeal Cert.KernelIdeal.Gen Cert.MoeMlp

/-- A matrix product into the zero accumulator whose dimension numbers are the plain ones, at an index: the sum over
    the contracted coordinate. -/
theorem matmul_rec_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  subst hd
  exact Cert.Lib.matmul_plain_zero_apply prec l r p q

/-- The second product's dimension numbers are the plain ones: `[1024, 256] × [256, 1024]`. -/
theorem dot2_plain : dot_S1024x256_S256x1024_S1024x1024_1_0_0_1_n_n = DotDims.plain 1024 256 1024 := rfl
/-- The first product's dimension numbers are the plain ones: `[1024, 1024] × [1024, 256]`. -/
theorem dot1_plain : dot_S1024x1024_S1024x256_S1024x256_1_0_0_1_n_n = DotDims.plain 1024 1024 256 := rfl

/-- The named constant denotes the exact product of the two constants of the tanh form. -/
theorem named_ac : Named.named (F := Ideal) κ "a_c" (φ := .f32) 0x3D122279#32 = cAC :=
  IdealRules.named_const.ideal_named_scalar _ _ _ _ rfl

/-- A `[1, 1, 1, n]` array cast to `[n]` reads, at `l`, the operand at `(0, 0, 0, l)`. -/
theorem shapeCast_111n_n_apply {α : Type} {n : ℕ} (x : (⟨4, ![1, 1, 1, n]⟩ : Shape).Idx → α)
    (h : (⟨4, ![1, 1, 1, n]⟩ : Shape).ShapeCasts ⟨1, ![n]⟩) (l : Fin n) :
    shapeCast ⟨1, ![n]⟩ x h (ix1 l) = x (ix4 (0 : Fin 1) (0 : Fin 1) (0 : Fin 1) l) :=
  shapeCast_apply x h _ _ (by
    rw [Shape.rowMajor_val_four, Shape.rowMajor_val_one]
    show ((0 * 1 + 0) * 1 + 0) * n + l.val = l.val
    omega)

/-- A `[1, 1, 1, n]` array cast to `[1, n]` reads, at `(u, l)`, the operand at `(0, 0, 0, l)`. -/
theorem shapeCast_111n_1n_apply {α : Type} {n : ℕ} (x : (⟨4, ![1, 1, 1, n]⟩ : Shape).Idx → α)
    (h : (⟨4, ![1, 1, 1, n]⟩ : Shape).ShapeCasts ⟨2, ![1, n]⟩) (u : Fin 1) (l : Fin n) :
    shapeCast ⟨2, ![1, n]⟩ x h (ix2 u l) = x (ix4 (0 : Fin 1) (0 : Fin 1) (0 : Fin 1) l) :=
  shapeCast_apply x h _ _ (by
    have hu : u.val = 0 := by omega
    rw [Shape.rowMajor_val_four, Shape.rowMajor_val_two]
    show ((0 * 1 + 0) * 1 + 0) * n + l.val = u.val * n + l.val
    rw [hu])

/-- The fused GELU as the program spells it on a `[1024, 256]` vector. -/
def geluVec (z : FVec Ideal S1024x256 .f32) : FVec Ideal S1024x256 .bf16 :=
  truncf (F := Ideal) FTy.bf16
    (addf
      (mulf (mulf z (broadcast S1024x256 (FloatOps.ofBits (F := Ideal) FTy.f32 1056964608#32)))
        (tanh (mulf z (addf (mulf (mulf z z) (broadcast S1024x256 (Named.named (F := Ideal) κ "a_c" (φ := .f32) 1024598649#32)))
          (broadcast S1024x256 (FloatOps.ofBits (F := Ideal) FTy.f32 1061962282#32))))))
      (mulf z (broadcast S1024x256 (FloatOps.ofBits (F := Ideal) FTy.f32 1056964608#32))))
    bitsLt_bf16_f32

/-- Read at an index it is the fused GELU of the entry: every operation is pointwise and a change of format is the identity. -/
theorem geluVec_apply (z : FVec Ideal S1024x256 .f32) (i : S1024x256.Idx) : geluVec z i = geluFused (z i) := by
  show (z i * Ideal.ofBits .f32 1056964608#32) * Ideal.tanh (z i * ((z i * z i) * Named.named (F := Ideal) κ "a_c" (φ := .f32) 1024598649#32 + Ideal.ofBits .f32 1061962282#32))
      + z i * Ideal.ofBits .f32 1056964608#32 = geluFused (z i)
  rw [show (1024598649#32 : BitVec 32) = 0x3D122279#32 from rfl, named_ac]
  rfl

/-- The pre-activation of one chunk of 256 hidden units: the cast tile times the chunk's first-layer weights, plus the
    chunk's bias row (the program's own term for the third chunk, which is the same text for every chunk). -/
abbrev zvec (v3 : Vec Ideal S1024x1024 .bf16) (w1 : Vec Ideal S1x1024x256 .f32) (b1 : Vec Ideal S1x1x1x256 .f32) :
    FVec Ideal S1024x256 .f32 := k0_pay6 (F := Ideal) v3 w1 b1

/-- The chunk's pre-activation at row `p`, unit `l`: `∑ k, x p k · W1 k l + b1 l`. -/
theorem zvec_apply (v3 : Vec Ideal S1024x1024 .bf16) (w1 : Vec Ideal S1x1024x256 .f32) (b1 : Vec Ideal S1x1x1x256 .f32)
    (p : Fin 1024) (l : Fin 256) :
    zvec v3 w1 b1 (ix2 p l) = (∑ k : Fin 1024, v3 (ix2 p k) * w1 (ix3 0 k l)) + b1 (ix4 0 0 0 l) := by
  show matmul (F := Ideal) dot_S1024x1024_S1024x256_S1024x256_1_0_0_1_n_n none v3
        (truncf (F := Ideal) FTy.bf16 (shapeCast S1024x256 w1 shapeCasts_S1x1024x256_S1024x256) bitsLt_bf16_f32)
        (constant (F := Ideal) S1024x256 FTy.f32 0#32) (ix2 p l)
      + broadcastTo S1024x256
        (shapeCast S1x256 (shapeCast S256 b1 shapeCasts_S1x1x1x256_S256) shapeCasts_S256_S1x256)
        broadcasts_S1x256_S1024x256 (ix2 p l) = _
  refine congrArg₂ (· + ·) ?_ ?_
  · refine (matmul_rec_zero_apply _ dot1_plain none _ _ p l).trans ?_
    refine Finset.sum_congr rfl fun k _ => ?_
    refine congrArg (v3 (ix2 p k) * ·) ?_
    exact shapeCast_1ab_ab_apply w1 _ k l
  · refine (broadcastTo_1b_ab_apply _ _ p l).trans ?_
    refine (shapeCast_a_1a_apply _ _ 0 l).trans ?_
    exact shapeCast_111n_n_apply b1 _ l

/-- One chunk's contribution to the output tile at `(p, q)`: over its 256 hidden units, the fused GELU of the
    pre-activation times the chunk's second-layer weights. -/
def chunk (v3 : Vec Ideal S1024x1024 .bf16) (w1 : Vec Ideal S1x1024x256 .f32) (b1 : Vec Ideal S1x1x1x256 .f32)
    (w2 : Vec Ideal S1x256x1024 .f32) (p q : Fin 1024) : EReal :=
  ∑ l : Fin 256, geluFused ((∑ k : Fin 1024, v3 (ix2 p k) * w1 (ix3 0 k l)) + b1 (ix4 0 0 0 l)) * w2 (ix3 0 l q)

/-- The product of a fused-GELU'd vector with a chunk of second-layer weights, as the program spells it. -/
def secondVec (g : FVec Ideal S1024x256 .bf16) (w2 : Vec Ideal S1x256x1024 .f32) : FVec Ideal S1024x1024 .f32 :=
  matmul (F := Ideal) dot_S1024x256_S256x1024_S1024x1024_1_0_0_1_n_n none g
    (truncf (F := Ideal) FTy.bf16 (shapeCast S256x1024 w2 shapeCasts_S1x256x1024_S256x1024) bitsLt_bf16_f32)
    (constant (F := Ideal) S1024x1024 FTy.f32 0#32)

/-- At `(p, q)`: the sum over the chunk's 256 hidden units. -/
theorem secondVec_apply (z : FVec Ideal S1024x256 .f32) (w2 : Vec Ideal S1x256x1024 .f32) (p q : Fin 1024) :
    secondVec (geluVec z) w2 (ix2 p q) = ∑ l : Fin 256, geluFused (z (ix2 p l)) * w2 (ix3 0 l q) := by
  refine (matmul_rec_zero_apply _ dot2_plain none _ _ p q).trans ?_
  refine Finset.sum_congr rfl fun l _ => ?_
  refine congrArg₂ (· * ·) (geluVec_apply z _) ?_
  exact shapeCast_1ab_ab_apply w2 _ l q

/-- One chunk, whole: the program's term for it is the sum of the specification's form. -/
theorem chunkVec_apply (v3 : Vec Ideal S1024x1024 .bf16) (w1 : Vec Ideal S1x1024x256 .f32) (b1 : Vec Ideal S1x1x1x256 .f32)
    (w2 : Vec Ideal S1x256x1024 .f32) (p q : Fin 1024) :
    secondVec (geluVec (zvec v3 w1 b1)) w2 (ix2 p q) = chunk v3 w1 b1 w2 p q := by
  refine (secondVec_apply (zvec v3 w1 b1) w2 p q).trans ?_
  unfold chunk
  refine Finset.sum_congr rfl fun l _ => ?_
  rw [zvec_apply]

/-- The first chunk's term is the common chunk form. -/
theorem pay3_eq (v3 : Vec Ideal S1024x1024 .bf16) (v4 : Vec Ideal S1x1024x256 .f32) (v8 : Vec Ideal S1x1x1x256 .f32)
    (v25 : Vec Ideal S1x256x1024 .f32) :
    k0_pay3 (F := Ideal) v3 v4 v8 v25 = secondVec (geluVec (zvec v3 v4 v8)) v25 := rfl

/-- One grid point's contribution to the output tile: the four chunks' terms added first to last. -/
def accVec (v3 : Vec Ideal S1024x1024 .bf16)
    (v4 v29 v55 v81 : Vec Ideal S1x1024x256 .f32) (v8 v33 v59 v85 : Vec Ideal S1x1x1x256 .f32)
    (v25 v50 v76 v102 : Vec Ideal S1x256x1024 .f32) : FVec Ideal S1024x1024 .f32 :=
  k0_pay9 (F := Ideal) v3 (k0_pay5 (k0_pay3 v3 v4 v8 v25) (k0_pay4 v3 v29) v33 v50) (k0_pay6 v3 v55 v59)
    (k0_pay7 v3 v55 v59) k0_pay8 v76 v81 v85 v102

/-- It is the sum of the four chunk forms, associated to the left. -/
theorem accVec_eq (v3 : Vec Ideal S1024x1024 .bf16)
    (v4 v29 v55 v81 : Vec Ideal S1x1024x256 .f32) (v8 v33 v59 v85 : Vec Ideal S1x1x1x256 .f32)
    (v25 v50 v76 v102 : Vec Ideal S1x256x1024 .f32) :
    accVec v3 v4 v29 v55 v81 v8 v33 v59 v85 v25 v50 v76 v102
      = addf (addf (addf (secondVec (geluVec (zvec v3 v4 v8)) v25) (secondVec (geluVec (zvec v3 v29 v33)) v50))
          (secondVec (geluVec (zvec v3 v55 v59)) v76)) (secondVec (geluVec (zvec v3 v81 v85)) v102) := rfl

/-- At `(p, q)`: the four chunks' sums, added first to last. -/
theorem accVec_apply (v3 : Vec Ideal S1024x1024 .bf16)
    (v4 v29 v55 v81 : Vec Ideal S1x1024x256 .f32) (v8 v33 v59 v85 : Vec Ideal S1x1x1x256 .f32)
    (v25 v50 v76 v102 : Vec Ideal S1x256x1024 .f32) (p q : Fin 1024) :
    accVec v3 v4 v29 v55 v81 v8 v33 v59 v85 v25 v50 v76 v102 (ix2 p q)
      = ((chunk v3 v4 v8 v25 p q + chunk v3 v29 v33 v50 p q) + chunk v3 v55 v59 v76 p q) + chunk v3 v81 v85 v102 p q := by
  rw [accVec_eq]
  show ((secondVec (geluVec (zvec v3 v4 v8)) v25 (ix2 p q) + secondVec (geluVec (zvec v3 v29 v33)) v50 (ix2 p q))
      + secondVec (geluVec (zvec v3 v55 v59)) v76 (ix2 p q)) + secondVec (geluVec (zvec v3 v81 v85)) v102 (ix2 p q) = _
  rw [chunkVec_apply, chunkVec_apply, chunkVec_apply, chunkVec_apply]

/-- The store at the first hidden tile: the point's contribution plus the second-layer bias row. -/
theorem pay10_apply (v3 : Vec Ideal S1024x1024 .bf16)
    (v4 v29 v55 v81 : Vec Ideal S1x1024x256 .f32) (v8 v33 v59 v85 : Vec Ideal S1x1x1x256 .f32)
    (v25 v50 v76 v102 : Vec Ideal S1x256x1024 .f32) (v113 : Vec Ideal S1x1x1x1024 .f32) (p q : Fin 1024) :
    k0_pay10 (F := Ideal) v3 (k0_pay5 (k0_pay3 v3 v4 v8 v25) (k0_pay4 v3 v29) v33 v50) (k0_pay6 v3 v55 v59)
        (k0_pay7 v3 v55 v59) k0_pay8 v76 v81 v85 v102 v113 (ix2 p q)
      = accVec v3 v4 v29 v55 v81 v8 v33 v59 v85 v25 v50 v76 v102 (ix2 p q) + v113 (ix4 0 0 0 q) := by
  show accVec v3 v4 v29 v55 v81 v8 v33 v59 v85 v25 v50 v76 v102 (ix2 p q)
      + broadcastTo S1024x1024 (shapeCast S1x1024 v113 shapeCasts_S1x1x1x1024_S1x1024) broadcasts_S1x1024_S1024x1024 (ix2 p q) = _
  refine congrArg (accVec v3 v4 v29 v55 v81 v8 v33 v59 v85 v25 v50 v76 v102 (ix2 p q) + ·) ?_
  refine (broadcastTo_1b_ab_apply _ _ p q).trans ?_
  exact shapeCast_111n_1n_apply v113 _ 0 q

/-- The store at a later hidden tile: what the output tile held plus the point's contribution. -/
theorem pay1_apply (v106 : FVec Ideal S1024x1024 .f32) (v113 : Vec Ideal S1024x1024 .f32) (i : S1024x1024.Idx) :
    k0_pay1 (F := Ideal) v106 v113 i = v113 i + v106 i := by
  show shapeCast S1024x1024 v113 shapeCasts_S1024x1024_S1024x1024 i + v106 i = _
  rw [shapeCast_self]

/-- The cast of the token tile kept in scratch is the tile itself: a change of format is the identity. -/
theorem pay2_apply (v113 : Vec Ideal S1024x1024 .f32) (i : S1024x1024.Idx) : k0_pay2 (F := Ideal) v113 i = v113 i := by
  show shapeCast S1024x1024 (truncf (F := Ideal) .bf16 v113 bitsLt_bf16_f32) shapeCasts_S1024x1024_S1024x1024 i = _
  rw [shapeCast_self]
  rfl

end Cert.KernelIdeal.PointValue

end
-- ==== Proof.Blocks.lean ====
/-
  From the sixteen chunk sums to the specification.

  Fix a token row `t`, an output column `d` and the expert `e`. Writing `G f` for the hidden unit `f`'s term
  `gelu (z t f) · W2 e f d`, the specification is `(∑ f < 4096, G f) + b2 e d`. The blocked program forms, for each of
  the 4 hidden tiles `j`, the four chunk sums `C j s = ∑ l < 256, G (1024 j + 256 s + l)` added first to last, adds the
  bias after the first tile and each later tile's total after that. Since `+` on the extended reals is commutative and
  associative the two agree; the fused GELU inside `G` is the specification's because the pre-activation is real.
-/
import proofs.«119035_g17592186045067_cont_7to1_1554_11_alg».proof.Proof.Algebra

noncomputable section

open scoped BigOperators

namespace Cert.MoeMlp

open Idealize.ShloMosaic Idealize.ShloMosaic.ValueIdx

/-- The blocked, fused sum is the specification, given what each chunk sum is. -/
theorem blocked_eq_out (x : (⟨2, ![8192, 1024]⟩ : Shape).Idx → EReal) (W1 : (⟨3, ![8, 1024, 4096]⟩ : Shape).Idx → EReal)
    (b1 : (⟨2, ![8, 4096]⟩ : Shape).Idx → EReal) (W2 : (⟨3, ![8, 4096, 1024]⟩ : Shape).Idx → EReal)
    (b2 : (⟨2, ![8, 1024]⟩ : Shape).Idx → EReal)
    (hx : ∀ i, ∃ r : ℝ, x i = (r : EReal)) (hW : ∀ i, ∃ r : ℝ, W1 i = (r : EReal)) (hb : ∀ i, ∃ r : ℝ, b1 i = (r : EReal))
    (e : Fin 8) (t : Fin 8192) (d : Fin 1024)
    (hid : Fin 4 → Fin 4 → Fin 256 → Fin 4096) (hhid : ∀ j s l, (hid j s l).val = 1024 * j.val + (256 * s.val + l.val))
    (C : Fin 4 → Fin 4 → EReal)
    (hC : ∀ j s, C j s = ∑ l : Fin 256, geluFused (hidden x W1 b1 e t (hid j s l)) * W2 (ix3 e (hid j s l) d)) :
    ((((((C 0 0 + C 0 1) + C 0 2) + C 0 3) + b2 (ix2 e d)) + (((C 1 0 + C 1 1) + C 1 2) + C 1 3))
        + (((C 2 0 + C 2 1) + C 2 2) + C 2 3)) + (((C 3 0 + C 3 1) + C 3 2) + C 3 3)
      = out x W1 b1 W2 b2 e (ix2 t d) := by
  -- the hidden unit's term, and its extension by zero to all naturals
  let G : Fin 4096 → EReal := fun f => gelu (hidden x W1 b1 e t f) * W2 (ix3 e f d)
  let g : ℕ → EReal := fun n => if h : n < 4096 then G ⟨n, h⟩ else 0
  have hg : ∀ j s : Fin 4, ∑ l : Fin 256, g (1024 * j.val + (256 * s.val + l.val)) = C j s := by
    intro j s
    rw [hC]
    refine Finset.sum_congr rfl fun l _ => ?_
    have hlt : 1024 * j.val + (256 * s.val + l.val) < 4096 := by have := j.isLt; have := s.isLt; have := l.isLt; omega
    have hf : (⟨1024 * j.val + (256 * s.val + l.val), hlt⟩ : Fin 4096) = hid j s l := Fin.ext (hhid j s l).symm
    show (if h : 1024 * j.val + (256 * s.val + l.val) < 4096 then G ⟨_, h⟩ else 0) = _
    rw [dif_pos hlt, hf, geluFused_hidden x W1 b1 hx hW hb]
  have hsum : ∑ f : Fin 4096, G f = ∑ f : Fin 4096, g f.val := by
    refine Finset.sum_congr rfl fun f _ => ?_
    show G f = if h : f.val < 4096 then G ⟨f.val, h⟩ else 0
    rw [dif_pos f.isLt]
  show _ = (∑ f : Fin 4096, G f) + b2 (ix2 e d)
  rw [hsum, sum_hidden_blocks g]
  simp only [Finset.sum_range_succ, Finset.sum_range_zero, zero_add]
  have e00 := hg 0 0; have e01 := hg 0 1; have e02 := hg 0 2; have e03 := hg 0 3
  have e10 := hg 1 0; have e11 := hg 1 1; have e12 := hg 1 2; have e13 := hg 1 3
  have e20 := hg 2 0; have e21 := hg 2 1; have e22 := hg 2 2; have e23 := hg 2 3
  have e30 := hg 3 0; have e31 := hg 3 1; have e32 := hg 3 2; have e33 := hg 3 3
  simp only [Fin.val_zero, Fin.val_one, Fin.val_two, show ((3 : Fin 4) : ℕ) = 3 from rfl] at e00 e01 e02 e03 e10 e11 e12 e13 e20 e21 e22 e23 e30 e31 e32 e33
  rw [e00, e01, e02, e03, e10, e11, e12, e13, e20, e21, e22, e23, e30, e31, e32, e33]
  ac_rfl

end Cert.MoeMlp

end
-- ==== Proof.KVChunk.lean ====
/-
  One chunk of one grid point against the specification.

  The 4096 hidden units are unit `1024 j + 256 s + l` for hidden tile `j`, chunk `s`, position `l`. The specification's
  term for a chunk at token row `T` and output column `q` is the sum over its 256 units of the fused GELU of the
  pre-activation times the second layer's weight. The program's chunk sum is that term as soon as each operand it
  reads — the token row, the chunk's first-layer columns and biases, the chunk's second-layer rows — is the
  corresponding entry of the argument arrays.
-/
import proofs.«119035_g17592186045067_cont_7to1_1554_11_alg».proof.Proof.KData
import proofs.«119035_g17592186045067_cont_7to1_1554_11_alg».proof.Proof.PointValue
import proofs.«119035_g17592186045067_cont_7to1_1554_11_alg».proof.Proof.Blocks

set_option maxRecDepth 16384

noncomputable section

open scoped BigOperators

namespace Cert.KernelIdeal.KValue

open Cert.KernelIdeal Cert.KernelIdeal.Gen Cert.KernelIdeal.Run Cert.KernelIdeal.KData
open Idealize.ShloMosaic Idealize.ShloMosaic.TcCoe Idealize.ShloMosaic.ValueIdx
open Idealize.SL Idealize.SL.Sem
open Idealize.ShloMosaic.Pipeline (Dat)

open Cert.KernelIdeal.PointValue Cert.MoeMlp

/-- Hidden unit `l` of chunk `s` of hidden tile `j`. -/
def hid (j s : Fin 4) (l : Fin 256) : Fin 4096 :=
  ⟨1024 * j.val + (256 * s.val + l.val), by have := j.isLt; have := s.isLt; have := l.isLt; omega⟩

theorem hid_val (j s : Fin 4) (l : Fin 256) : (hid j s l).val = 1024 * j.val + (256 * s.val + l.val) := rfl

/-- The specification's term for one chunk: over its 256 hidden units, the fused GELU of the pre-activation times the
    second layer's weight. -/
def Cterm (x : (⟨2, ![8192, 1024]⟩ : Shape).Idx → EReal) (W1a : (⟨3, ![8, 1024, 4096]⟩ : Shape).Idx → EReal)
    (b1a : (⟨2, ![8, 4096]⟩ : Shape).Idx → EReal) (W2a : (⟨3, ![8, 4096, 1024]⟩ : Shape).Idx → EReal)
    (e : Fin 8) (T : Fin 8192) (q : Fin 1024) (j s : Fin 4) : EReal :=
  ∑ l : Fin 256, geluFused (Cert.MoeMlp.hidden x W1a b1a e T (hid j s l)) * W2a (ix3 e (hid j s l) q)

/-- One chunk of one grid point is the specification's chunk term, once each of its operands is read off the
    argument arrays. -/
theorem chunk_eq (x : (⟨2, ![8192, 1024]⟩ : Shape).Idx → EReal) (W1a : (⟨3, ![8, 1024, 4096]⟩ : Shape).Idx → EReal)
    (b1a : (⟨2, ![8, 4096]⟩ : Shape).Idx → EReal) (W2a : (⟨3, ![8, 4096, 1024]⟩ : Shape).Idx → EReal)
    (e : Fin 8) (T : Fin 8192) (p q : Fin 1024) (j s : Fin 4)
    (v3 : Vec Ideal S1024x1024 .bf16) (w1s : Vec Ideal S1x1024x256 .f32) (b1s : Vec Ideal S1x1x1x256 .f32)
    (w2s : Vec Ideal S1x256x1024 .f32)
    (hv : ∀ k : Fin 1024, v3 (ix2 p k) = x (ix2 T k))
    (hw1 : ∀ (k : Fin 1024) (l : Fin 256), w1s (ix3 0 k l) = W1a (ix3 e k (hid j s l)))
    (hb1 : ∀ l : Fin 256, b1s (ix4 0 0 0 l) = b1a (ix2 e (hid j s l)))
    (hw2 : ∀ l : Fin 256, w2s (ix3 0 l q) = W2a (ix3 e (hid j s l) q)) :
    chunk v3 w1s b1s w2s p q = Cterm x W1a b1a W2a e T q j s := by
  unfold chunk Cterm Cert.MoeMlp.hidden
  refine Finset.sum_congr rfl fun l _ => ?_
  rw [hb1 l, hw2 l]
  refine congrArg (fun z => geluFused (z + b1a (ix2 e (hid j s l))) * W2a (ix3 e (hid j s l) q)) ?_
  exact Finset.sum_congr rfl fun k _ => by rw [hv k, hw1 k l]

end Cert.KernelIdeal.KValue
end
-- ==== Proof.KVRow.lean ====
/-
  One token tile's four grid points in closed form.

  At token row `T = 1024 (t / 4) + p` and output column `q`, each grid point of the token tile contributes the four
  chunk terms of its hidden tile (its operands read off the argument arrays); the first point adds the second layer's
  bias, each later point adds its contribution to what the tile held. After the last hidden tile the tile therefore
  holds the blocked total, which is the specification there because sums of extended reals regroup freely and the
  fused GELU is the specification's on a real pre-activation.
-/
import proofs.«119035_g17592186045067_cont_7to1_1554_11_alg».proof.Proof.KVIdx
import proofs.«119035_g17592186045067_cont_7to1_1554_11_alg».proof.Proof.KVChunk

set_option maxRecDepth 16384

noncomputable section

open scoped BigOperators

namespace Cert.KernelIdeal.KValue

open Cert.KernelIdeal Cert.KernelIdeal.Gen Cert.KernelIdeal.Run Cert.KernelIdeal.KData
open Idealize.ShloMosaic Idealize.ShloMosaic.TcCoe Idealize.ShloMosaic.ValueIdx
open Idealize.SL Idealize.SL.Sem
open Idealize.ShloMosaic.Pipeline (Dat)

open Cert.KernelIdeal.PointValue Cert.MoeMlp

variable (m : (ℓ : Loc nD τ sig) → Buf (Elt Ideal) ℓ) (c : Dev nD)

/-- The five argument arrays, as functions of their indices. -/
abbrev xA : (⟨2, ![8192, 1024]⟩ : Shape).Idx → EReal := m ((c : Thread nD τ).loc main_arg0)
abbrev w1A : (⟨3, ![8, 1024, 4096]⟩ : Shape).Idx → EReal := m ((c : Thread nD τ).loc main_arg1)
abbrev b1A : (⟨2, ![8, 4096]⟩ : Shape).Idx → EReal := m ((c : Thread nD τ).loc main_arg2)
abbrev w2A : (⟨3, ![8, 4096, 1024]⟩ : Shape).Idx → EReal := m ((c : Thread nD τ).loc main_arg3)
abbrev b2A : (⟨2, ![8, 1024]⟩ : Shape).Idx → EReal := m ((c : Thread nD τ).loc main_arg4)

variable (hO : Ok m)

/-- One grid point's contribution at `(p, q)`, in the specification's terms: its four chunk terms added first to last. -/
theorem acc_eq (u : Fin (cfgM m hO).N) (j : Fin 4) (hj : j.val = u.val % 4) (T : Fin 8192) (p q : Fin 1024)
    (hT : T.val = 1024 * (u.val / 4) + p.val) (e : Fin 8) (he : e.val = (colW m).toNat) :
    accOf (castAt m hO c u.val) (W1 m hO c u) (B1 m hO c u) (W2 m hO c u) (ix2 p q)
      = ((Cterm (xA m c) (w1A m c) (b1A m c) (w2A m c) e T q j 0 + Cterm (xA m c) (w1A m c) (b1A m c) (w2A m c) e T q j 1)
          + Cterm (xA m c) (w1A m c) (b1A m c) (w2A m c) e T q j 2) + Cterm (xA m c) (w1A m c) (b1A m c) (w2A m c) e T q j 3 := by
  have hu : u.val < 32 := (N_M m hO) ▸ u.isLt
  have hv : ∀ k : Fin 1024, castAt m hO c u.val (ix2 p k) = xA m c (ix2 T k) := fun k =>
    (pay2_apply _ _).trans (X_at m hO c (rowPt m hO u.val) (ix2 p k) (ix2 T k)
      (by show T.val = 1024 * (((u.val - u.val % 4) % 32) / 4) + p.val; omega) rfl)
  show accVec (castAt m hO c u.val) (View.ld (W1 m hO c u) rW1_0) (View.ld (W1 m hO c u) rW1_1) (View.ld (W1 m hO c u) rW1_2)
      (View.ld (W1 m hO c u) rW1_3) (View.ld (B1 m hO c u) rB1_0) (View.ld (B1 m hO c u) rB1_1) (View.ld (B1 m hO c u) rB1_2)
      (View.ld (B1 m hO c u) rB1_3) (View.ld (W2 m hO c u) rW2_0) (View.ld (W2 m hO c u) rW2_1) (View.ld (W2 m hO c u) rW2_2)
      (View.ld (W2 m hO c u) rW2_3) (ix2 p q) = _
  rw [accVec_apply]
  rw [(chunk_eq (xA m c) (w1A m c) (b1A m c) (w2A m c) e T p q j (0 : Fin 4) (castAt m hO c u.val)
      (View.ld (W1 m hO c u) rW1_0) (View.ld (B1 m hO c u) rB1_0) (View.ld (W2 m hO c u) rW2_0) hv
      (fun k l => W1_at m hO c u (rW1_0.idx (ix3 0 k l)) (ix3 e k (hid j 0 l)) he
        (by have h : ((rW1_0.idx (ix3 (0 : Fin 1) k l)) (1 : Fin 3)).val = 0 + 1 * k.val := rfl
            show k.val = _; omega)
        (by have h : ((rW1_0.idx (ix3 (0 : Fin 1) k l)) (2 : Fin 3)).val = 0 + 1 * l.val := rfl
            show 1024 * j.val + (256 * ((0 : Fin 4) : ℕ) + l.val) = _
            have hs : ((0 : Fin 4) : ℕ) = 0 := rfl
            omega))
      (fun l => B1_at m hO c u (rB1_0.idx (ix4 0 0 0 l)) (ix2 e (hid j 0 l)) he
        (by have h : ((rB1_0.idx (ix4 (0 : Fin 1) (0 : Fin 1) (0 : Fin 1) l)) (3 : Fin 4)).val = 0 + 1 * l.val := rfl
            show 1024 * j.val + (256 * ((0 : Fin 4) : ℕ) + l.val) = _
            have hs : ((0 : Fin 4) : ℕ) = 0 := rfl
            omega))
      (fun l => W2_at m hO c u (rW2_0.idx (ix3 0 l q)) (ix3 e (hid j 0 l) q) he
        (by have h : ((rW2_0.idx (ix3 (0 : Fin 1) l q)) (1 : Fin 3)).val = 0 + 1 * l.val := rfl
            show 1024 * j.val + (256 * ((0 : Fin 4) : ℕ) + l.val) = _
            have hs : ((0 : Fin 4) : ℕ) = 0 := rfl
            omega)
        (by have h : ((rW2_0.idx (ix3 (0 : Fin 1) l q)) (2 : Fin 3)).val = 0 + 1 * q.val := rfl
            show q.val = _; omega)))]
  rw [(chunk_eq (xA m c) (w1A m c) (b1A m c) (w2A m c) e T p q j (1 : Fin 4) (castAt m hO c u.val)
      (View.ld (W1 m hO c u) rW1_1) (View.ld (B1 m hO c u) rB1_1) (View.ld (W2 m hO c u) rW2_1) hv
      (fun k l => W1_at m hO c u (rW1_1.idx (ix3 0 k l)) (ix3 e k (hid j 1 l)) he
        (by have h : ((rW1_1.idx (ix3 (0 : Fin 1) k l)) (1 : Fin 3)).val = 0 + 1 * k.val := rfl
            show k.val = _; omega)
        (by have h : ((rW1_1.idx (ix3 (0 : Fin 1) k l)) (2 : Fin 3)).val = 256 + 1 * l.val := rfl
            show 1024 * j.val + (256 * ((1 : Fin 4) : ℕ) + l.val) = _
            have hs : ((1 : Fin 4) : ℕ) = 1 := rfl
            omega))
      (fun l => B1_at m hO c u (rB1_1.idx (ix4 0 0 0 l)) (ix2 e (hid j 1 l)) he
        (by have h : ((rB1_1.idx (ix4 (0 : Fin 1) (0 : Fin 1) (0 : Fin 1) l)) (3 : Fin 4)).val = 256 + 1 * l.val := rfl
            show 1024 * j.val + (256 * ((1 : Fin 4) : ℕ) + l.val) = _
            have hs : ((1 : Fin 4) : ℕ) = 1 := rfl
            omega))
      (fun l => W2_at m hO c u (rW2_1.idx (ix3 0 l q)) (ix3 e (hid j 1 l) q) he
        (by have h : ((rW2_1.idx (ix3 (0 : Fin 1) l q)) (1 : Fin 3)).val = 256 + 1 * l.val := rfl
            show 1024 * j.val + (256 * ((1 : Fin 4) : ℕ) + l.val) = _
            have hs : ((1 : Fin 4) : ℕ) = 1 := rfl
            omega)
        (by have h : ((rW2_1.idx (ix3 (0 : Fin 1) l q)) (2 : Fin 3)).val = 0 + 1 * q.val := rfl
            show q.val = _; omega)))]
  rw [(chunk_eq (xA m c) (w1A m c) (b1A m c) (w2A m c) e T p q j (2 : Fin 4) (castAt m hO c u.val)
      (View.ld (W1 m hO c u) rW1_2) (View.ld (B1 m hO c u) rB1_2) (View.ld (W2 m hO c u) rW2_2) hv
      (fun k l => W1_at m hO c u (rW1_2.idx (ix3 0 k l)) (ix3 e k (hid j 2 l)) he
        (by have h : ((rW1_2.idx (ix3 (0 : Fin 1) k l)) (1 : Fin 3)).val = 0 + 1 * k.val := rfl
            show k.val = _; omega)
        (by have h : ((rW1_2.idx (ix3 (0 : Fin 1) k l)) (2 : Fin 3)).val = 512 + 1 * l.val := rfl
            show 1024 * j.val + (256 * ((2 : Fin 4) : ℕ) + l.val) = _
            have hs : ((2 : Fin 4) : ℕ) = 2 := rfl
            omega))
      (fun l => B1_at m hO c u (rB1_2.idx (ix4 0 0 0 l)) (ix2 e (hid j 2 l)) he
        (by have h : ((rB1_2.idx (ix4 (0 : Fin 1) (0 : Fin 1) (0 : Fin 1) l)) (3 : Fin 4)).val = 512 + 1 * l.val := rfl
            show 1024 * j.val + (256 * ((2 : Fin 4) : ℕ) + l.val) = _
            have hs : ((2 : Fin 4) : ℕ) = 2 := rfl
            omega))
      (fun l => W2_at m hO c u (rW2_2.idx (ix3 0 l q)) (ix3 e (hid j 2 l) q) he
        (by have h : ((rW2_2.idx (ix3 (0 : Fin 1) l q)) (1 : Fin 3)).val = 512 + 1 * l.val := rfl
            show 1024 * j.val + (256 * ((2 : Fin 4) : ℕ) + l.val) = _
            have hs : ((2 : Fin 4) : ℕ) = 2 := rfl
            omega)
        (by have h : ((rW2_2.idx (ix3 (0 : Fin 1) l q)) (2 : Fin 3)).val = 0 + 1 * q.val := rfl
            show q.val = _; omega)))]
  rw [(chunk_eq (xA m c) (w1A m c) (b1A m c) (w2A m c) e T p q j (3 : Fin 4) (castAt m hO c u.val)
      (View.ld (W1 m hO c u) rW1_3) (View.ld (B1 m hO c u) rB1_3) (View.ld (W2 m hO c u) rW2_3) hv
      (fun k l => W1_at m hO c u (rW1_3.idx (ix3 0 k l)) (ix3 e k (hid j 3 l)) he
        (by have h : ((rW1_3.idx (ix3 (0 : Fin 1) k l)) (1 : Fin 3)).val = 0 + 1 * k.val := rfl
            show k.val = _; omega)
        (by have h : ((rW1_3.idx (ix3 (0 : Fin 1) k l)) (2 : Fin 3)).val = 768 + 1 * l.val := rfl
            show 1024 * j.val + (256 * ((3 : Fin 4) : ℕ) + l.val) = _
            have hs : ((3 : Fin 4) : ℕ) = 3 := rfl
            omega))
      (fun l => B1_at m hO c u (rB1_3.idx (ix4 0 0 0 l)) (ix2 e (hid j 3 l)) he
        (by have h : ((rB1_3.idx (ix4 (0 : Fin 1) (0 : Fin 1) (0 : Fin 1) l)) (3 : Fin 4)).val = 768 + 1 * l.val := rfl
            show 1024 * j.val + (256 * ((3 : Fin 4) : ℕ) + l.val) = _
            have hs : ((3 : Fin 4) : ℕ) = 3 := rfl
            omega))
      (fun l => W2_at m hO c u (rW2_3.idx (ix3 0 l q)) (ix3 e (hid j 3 l) q) he
        (by have h : ((rW2_3.idx (ix3 (0 : Fin 1) l q)) (1 : Fin 3)).val = 768 + 1 * l.val := rfl
            show 1024 * j.val + (256 * ((3 : Fin 4) : ℕ) + l.val) = _
            have hs : ((3 : Fin 4) : ℕ) = 3 := rfl
            omega)
        (by have h : ((rW2_3.idx (ix3 (0 : Fin 1) l q)) (2 : Fin 3)).val = 0 + 1 * q.val := rfl
            show q.val = _; omega)))]

/-- The second bias's block at `(0, 0, 0, q)` is the bias at `(e, q)`. -/
theorem b2_eq (u : Fin (cfgM m hO).N) (q : Fin 1024) (e : Fin 8) (he : e.val = (colW m).toNat) :
    View.ld (B2 m hO c u) rB2 (ix4 0 0 0 q) = b2A m c (ix2 e q) :=
  B2_at m hO c u (rB2.idx (ix4 0 0 0 q)) (ix2 e q) he
    (by have h : ((rB2.idx (ix4 (0 : Fin 1) (0 : Fin 1) (0 : Fin 1) q)) (3 : Fin 4)).val = 0 + 1 * q.val := rfl
        show q.val = _; omega)

/-- THE OUTPUT TILE AFTER THE LAST HIDDEN TILE of a token tile, at `(p, q)`: the first hidden tile's four chunk terms
    and the bias, then each later hidden tile's four chunk terms — which is the specification at token row
    `1024 (t / 4) + p` and column `q`, the pre-activations being real. -/
theorem outAt_flush
    (hx : ∀ i, ∃ r : ℝ, xA m c i = (r : EReal)) (hW : ∀ i, ∃ r : ℝ, w1A m c i = (r : EReal)) (hb : ∀ i, ∃ r : ℝ, b1A m c i = (r : EReal))
    (t : Fin (cfgM m hO).N) (h3 : t.val % 4 = 3) (T : Fin 8192) (p q : Fin 1024)
    (hT : T.val = 1024 * (t.val / 4) + p.val) (e : Fin 8) (he : e.val = (colW m).toNat) :
    outAt m hO c t.val t.isLt (ix2 p q) = Cert.MoeMlp.out (xA m c) (w1A m c) (b1A m c) (w2A m c) (b2A m c) e (ix2 T q) := by
  have hN : (cfgM m hO).N = 32 := N_M m hO
  have ht : t.val < 32 := hN ▸ t.isLt
  let t2 : Fin (cfgM m hO).N := ⟨t.val - 1, by omega⟩
  let t1 : Fin (cfgM m hO).N := ⟨t2.val - 1, by show t.val - 1 - 1 < _; omega⟩
  let t0 : Fin (cfgM m hO).N := ⟨t1.val - 1, by show t.val - 1 - 1 - 1 < _; omega⟩
  have v2 : t2.val = t.val - 1 := rfl
  have v1 : t1.val = t.val - 1 - 1 := rfl
  have v0 : t0.val = t.val - 1 - 1 - 1 := rfl
  have e3 := outAt_later m hO c t (by omega)
  have e2 := outAt_later m hO c t2 (by rw [v2]; omega)
  have e1 := outAt_later m hO c t1 (by rw [v1]; omega)
  have e0 := outAt_first m hO c t0 (by rw [v0]; omega)
  have hc0 : k0_pay2 (X m hO c t0) = castAt m hO c t0.val := by
    show _ = k0_pay2 (X m hO c (rowPt m hO t0.val)); rw [rowPt_self m hO t0 (by rw [v0]; omega)]
  rw [e3, pay1_apply]
  show outAt m hO c t2.val t2.isLt (ix2 p q) + _ = _
  rw [e2, pay1_apply]
  show (outAt m hO c t1.val t1.isLt (ix2 p q) + _) + _ = _
  rw [e1, pay1_apply]
  show ((outAt m hO c t0.val t0.isLt (ix2 p q) + _) + _) + _ = _
  rw [e0, hc0]
  rw [show firstOf (castAt m hO c t0.val) (W1 m hO c t0) (B1 m hO c t0) (W2 m hO c t0) (B2 m hO c t0) (ix2 p q)
        = accOf (castAt m hO c t0.val) (W1 m hO c t0) (B1 m hO c t0) (W2 m hO c t0) (ix2 p q) + View.ld (B2 m hO c t0) rB2 (ix4 0 0 0 q)
      from pay10_apply _ _ _ _ _ _ _ _ _ _ _ _ _ _ p q]
  rw [b2_eq m c hO t0 q e he,
    acc_eq m c hO t0 0 (by rw [v0]; show (0 : ℕ) = _; omega) T p q (by rw [v0]; omega) e he,
    acc_eq m c hO t1 1 (by rw [v1]; show (1 : ℕ) = _; omega) T p q (by rw [v1]; omega) e he,
    acc_eq m c hO t2 2 (by rw [v2]; show (2 : ℕ) = _; omega) T p q (by rw [v2]; omega) e he,
    acc_eq m c hO t 3 (by show (3 : ℕ) = _; omega) T p q hT e he]
  exact Cert.MoeMlp.blocked_eq_out (xA m c) (w1A m c) (b1A m c) (w2A m c) (b2A m c) hx hW hb e T q hid hid_val
    (Cterm (xA m c) (w1A m c) (b1A m c) (w2A m c) e T q) (fun j s => rfl)

end Cert.KernelIdeal.KValue
end
-- ==== Proof.KValue.lean ====
/-
  The kernel's result array is the specification.

  The output tile's block index is `(t / 4, 0)`: it changes after the last hidden tile of each token tile and the grid
  ends there, so those 8 points write the tile back, and every row `r` of the result lies in the tile written back
  after token tile `r / 1024`. What is written there is, by the row's closed form, the specification at rows
  `1024 (t / 4) …`; so the array the run leaves is the specification everywhere.
-/
import proofs.«119035_g17592186045067_cont_7to1_1554_11_alg».proof.Proof.KVRow

set_option maxRecDepth 16384

noncomputable section

open scoped BigOperators

namespace Cert.KernelIdeal.KValue

open Cert.KernelIdeal Cert.KernelIdeal.Gen Cert.KernelIdeal.Run Cert.KernelIdeal.KData
open Idealize.ShloMosaic Idealize.ShloMosaic.TcCoe Idealize.ShloMosaic.ValueIdx
open Idealize.SL Idealize.SL.Sem
open Idealize.ShloMosaic.Pipeline (Dat)

open Cert.KernelIdeal.PointValue Cert.MoeMlp

variable (m : (ℓ : Loc nD τ sig) → Buf (Elt Ideal) ℓ) (c : Dev nD) (hO : Ok m)

/-- The output tile is written back exactly after the last hidden tile of each token tile: its block index
    `(t / 4, 0)` changes there, and the grid ends there. -/
theorem flush5_iff (t : Fin (cfgM m hO).N) : ((cfgM m hO).win 5).flush t = true ↔ t.val % 4 = 3 := by
  have hN : (cfgM m hO).N = 32 := N_M m hO
  have ht : t.val < 32 := hN ▸ t.isLt
  unfold Pipeline.Window.flush
  rw [show ((cfgM m hO).win 5).isOut = true from rfl, Bool.true_and, Bool.or_eq_true, decide_eq_true_eq, decide_eq_true_eq]
  constructor
  · rintro (h | ⟨h, hne⟩)
    · have : t.val + 1 = 32 := h.trans hN
      omega
    · rw [idx5, idx5] at hne
      by_contra h3
      apply hne
      have : (t.val + 1) / 4 = t.val / 4 := by omega
      show ![(t.val + 1) / 4, 0] = ![t.val / 4, 0]
      rw [this]
  · intro h3
    by_cases hl : t.val + 1 = 32
    · exact Or.inl (hl.trans hN.symm)
    · refine Or.inr ⟨lt_of_lt_of_eq (by omega : t.val + 1 < 32) hN.symm, ?_⟩
      rw [idx5, idx5]
      intro heq
      have h0 : (t.val + 1) / 4 = t.val / 4 := congrFun heq 0
      omega

/-- Where point `t`'s output block sits in the result array: rows `1024 (t / 4) …`, all columns. -/
theorem emb5 (t : Fin (cfgM m hO).N) (y : S1024x1024.Idx) (T : Fin 8192) (hT : T.val = 1024 * (t.val / 4) + (y 0).val) :
    (((cfgM m hO).win 5).blk t).view.emb y = ix2 T (y 1) := by
  refine funext fun a => Fin.ext ?_
  have e5 := idx5 m hO t
  match a with
  | ⟨0, _⟩ => show ((cfgM m hO).win 5).index t (0 : Fin 2) * 1024 + 1 * (y 0).val = T.val; rw [e5, hT]; show t.val / 4 * 1024 + _ = _; omega
  | ⟨1, _⟩ => show ((cfgM m hO).win 5).index t (1 : Fin 2) * 1024 + 1 * (y 1).val = (y 1).val; rw [e5]; show 0 * 1024 + _ = _; omega

/-- Row `r` of the result lies in the tile written back after the last hidden tile of token tile `r / 1024`. -/
theorem cover5 (i : S8192x1024.Idx) :
    ∃ t : Fin (cfgM m hO).N, ((cfgM m hO).win 5).flush t = true ∧ i ∈ (((cfgM m hO).win 5).blk t).view.set := by
  have hi0 : (i 0).val < 8192 := (i 0).isLt
  have hN := N_M m hO
  let t : Fin (cfgM m hO).N := ⟨4 * ((i 0).val / 1024) + 3, by rw [hN]; omega⟩
  have htv : t.val = 4 * ((i 0).val / 1024) + 3 := rfl
  refine ⟨t, (flush5_iff m hO t).mpr (by rw [htv]; omega), ?_⟩
  let y : S1024x1024.Idx := ix2 ⟨(i 0).val % 1024, Nat.mod_lt _ (by decide)⟩ (i 1)
  have hy : (((cfgM m hO).win 5).blk t).view.emb y = i := by
    rw [emb5 m hO t y (i 0) (by rw [htv]; show (i 0).val = 1024 * ((4 * ((i 0).val / 1024) + 3) / 4) + (i 0).val % 1024; omega)]
    exact (eq_ix2 i).symm
  exact hy ▸ (((cfgM m hO).win 5).blk t).view.emb_mem_set y

/-- WHAT A WRITE-BACK WRITES is the block of the specification at that point. -/
theorem flushed5_eq
    (hx : ∀ i, ∃ r : ℝ, xA m c i = (r : EReal)) (hW : ∀ i, ∃ r : ℝ, w1A m c i = (r : EReal)) (hb : ∀ i, ∃ r : ℝ, b1A m c i = (r : EReal))
    (e : Fin 8) (he : e.val = (colW m).toNat) (t : Fin (cfgM m hO).N) (hf : ((cfgM m hO).win 5).flush t = true) :
    (dats m hO 0 c).flushed 5 t = (((cfgM m hO).win 5).blk t).view.read (Elt Ideal) (Cert.MoeMlp.out (xA m c) (w1A m c) (b1A m c) (w2A m c) (b2A m c) e) := by
  have h3 := (flush5_iff m hO t).mp hf
  have hN : (cfgM m hO).N = 32 := N_M m hO
  have ht : t.val < 32 := hN ▸ t.isLt
  show ((cfgM m hO).win 5).cut ((cfgM m hO).grid.coords t) ((dats m hO 0 c).after 5 t) = _
  rw [after5]
  refine funext fun (y : S1024x1024.Idx) => ?_
  have hy0 : (y 0).val < 1024 := (y 0).isLt
  have hxi : ((cfgM m hO).win 5).xinj ((cfgM m hO).grid.coords t) y = ix2 (y 0) (y 1) :=
    funext fun a => by match a with | ⟨0, _⟩ => rfl | ⟨1, _⟩ => rfl
  have hemb : (((cfgM m hO).win 5).blk t).view.emb y = ix2 (⟨1024 * (t.val / 4) + (y 0).val, by omega⟩ : Fin 8192) (y 1) :=
    emb5 m hO t y _ rfl
  show outAt m hO c t.val t.isLt (((cfgM m hO).win 5).xinj ((cfgM m hO).grid.coords t) y) = (Cert.MoeMlp.out (xA m c) (w1A m c) (b1A m c) (w2A m c) (b2A m c) e) ((((cfgM m hO).win 5).blk t).view.emb y)
  rw [hxi, hemb]
  exact outAt_flush m c hO hx hW hb t h3 _ (y 0) (y 1) rfl e he

/-- THE RESULT ARRAY after the run is the specification of the argument arrays at the expert the index word names. -/
theorem final_value (m : (ℓ : Loc nD τ sig) → Buf (Elt Ideal) ℓ)
    (hcol : (m (((0 : Dev nD) : Thread nD τ).loc main_arg5) ValueIdx.ix0).toNat < 8)
    (hx : ∀ i, ∃ r : ℝ, m (((0 : Dev nD) : Thread nD τ).loc main_arg0) i = (r : EReal))
    (hW1 : ∀ i, ∃ r : ℝ, m (((0 : Dev nD) : Thread nD τ).loc main_arg1) i = (r : EReal))
    (hb1 : ∀ i, ∃ r : ℝ, m (((0 : Dev nD) : Thread nD τ).loc main_arg2) i = (r : EReal))
    (c : Dev nD) :
    (dats m (ok_of_col m hcol) 0 c).arrAt 5 (cfgM m (ok_of_col m hcol)).N
      = Cert.MoeMlp.out (m ((c : Thread nD τ).loc main_arg0)) (m ((c : Thread nD τ).loc main_arg1)) (m ((c : Thread nD τ).loc main_arg2))
          (m ((c : Thread nD τ).loc main_arg3)) (m ((c : Thread nD τ).loc main_arg4))
          (Cert.MoeMlp.expertOf (m (((0 : Dev nD) : Thread nD τ).loc main_arg5) ValueIdx.ix0) hcol) := by
  obtain rfl : c = 0 := Subsingleton.elim _ _
  exact (dats m (ok_of_col m hcol) 0 0).arrAt_eq_of_cover 5 _
    (fun t hf => flushed5_eq m 0 (ok_of_col m hcol) hx hW1 hb1 (Cert.MoeMlp.expertOf (colW m) hcol) rfl t hf)
    (cover5 m (ok_of_col m hcol))

end Cert.KernelIdeal.KValue
end
-- ==== Proof.lean ====
/-
  The five claims, assembled.

  The program is one expert's two-layer perceptron, `out = gelu (x · W1[e] + b1[e]) · W2[e] + b2[e]`, with the expert
  `e` a scalar index in `0 ≤ e < 8` (the precondition: the five float arrays hold real numbers and the index is in range).

  * The three frames. The host reference is a straight line of operations and runs from any memory. The kernel visits a
    grid of 8 token tiles by 4 hidden tiles; the index maps of the four weight and bias windows read the expert index from a
    table, so every block lies inside its array exactly because the index is below 8, and with that the launch goes through
    at the word level and at the extended reals alike.
  * The idealization's ledger: the fused program's one folded constant is named the exact product of the two constants of the
    tanh form, once per chunk of the hidden tile (four entries, one statement).
  * Equal results over the extended reals. The kernel's result array is read back tile by tile: a token tile's output is the
    bias plus, over the 4 hidden tiles and their 4 chunks of 256 units, the fused GELU of the pre-activation times the second
    layer's weights; the reference's is the specification by its own order of operations. The two meet in `Cert.MoeMlp.out`:
    regrouping the sum uses only commutativity and associativity, and the fused GELU is the specification's on a real
    pre-activation, which is where the finiteness of the inputs is used.
-/
import proofs.«119035_g17592186045067_cont_7to1_1554_11_alg».proof.Defs
import proofs.«119035_g17592186045067_cont_7to1_1554_11_alg».proof.Proof.Gen.Kernel
import proofs.«119035_g17592186045067_cont_7to1_1554_11_alg».proof.Proof.Gen.KernelIdeal
import proofs.«119035_g17592186045067_cont_7to1_1554_11_alg».proof.Proof.Gen.ReferenceIdeal
import proofs.«119035_g17592186045067_cont_7to1_1554_11_alg».proof.Proof.Gen.Pre_finite_inputs
import proofs.«119035_g17592186045067_cont_7to1_1554_11_alg».proof.Proof.PreFacts
import proofs.«119035_g17592186045067_cont_7to1_1554_11_alg».proof.Proof.RefFrame
import proofs.«119035_g17592186045067_cont_7to1_1554_11_alg».proof.Proof.RefSpec
import proofs.«119035_g17592186045067_cont_7to1_1554_11_alg».proof.Proof.KRun
import proofs.«119035_g17592186045067_cont_7to1_1554_11_alg».proof.Proof.KRunBits
import proofs.«119035_g17592186045067_cont_7to1_1554_11_alg».proof.Proof.KValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Pre_finite_inputs.Facts := Cert.Pre_finite_inputs.Gen.facts
instance : Cert.KernelIdeal.Facts := Cert.KernelIdeal.Gen.facts
instance : Cert.Kernel.Facts := Cert.Kernel.Gen.facts
instance : Cert.ReferenceIdeal.Facts := Cert.ReferenceIdeal.Gen.facts

/-- The idealized kernel's precondition puts the expert index word below 8. -/
theorem hcol_ideal (m : (ℓ : Loc Cert.KernelIdeal.nD Cert.KernelIdeal.τ Cert.KernelIdeal.sig) → Buf (Elt Ideal) ℓ)
    (h : Cert.Pre_KernelIdeal m) :
    (m (((0 : Dev Cert.KernelIdeal.nD) : Thread Cert.KernelIdeal.nD Cert.KernelIdeal.τ).loc Cert.KernelIdeal.main_arg5) ix0).toNat < 8 :=
  Cert.PreFacts.col_lt _ _ _ _ _ _ (h 0)

/-- The word-level kernel's precondition does the same. -/
theorem hcol_bits (m : (ℓ : Loc Cert.Kernel.nD Cert.Kernel.τ Cert.Kernel.sig) → Buf (Elt Bits) ℓ)
    (h : Cert.Pre_Kernel m) :
    (m (((0 : Dev Cert.Kernel.nD) : Thread Cert.Kernel.nD Cert.Kernel.τ).loc Cert.Kernel.main_arg5) ix0).toNat < 8 :=
  Cert.PreFacts.col_lt _ _ _ _ _ _ (h 0)

/-- The idealized kernel's precondition makes every entry of the five float arrays a real number. -/
theorem reals_ideal (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  obtain ⟨h0, h1, h2, h3, h4, _, _⟩ := Cert.PreFacts.decode _ _ _ _ _ _ (h c)
  exact ⟨h0, h1, h2, h3, h4⟩

/-- The word-level kernel runs and leaves its arguments unchanged: its blocks are in range because the index is. -/
theorem frame_kernel : Cert.frame_Kernel := fun m ρ hpre => Cert.Kernel.Run.frame m ρ (hcol_bits m hpre)

/-- So does the kernel read over the extended reals. -/
theorem frame_kernelIdeal : Cert.frame_KernelIdeal := fun m ρ hpre => Cert.KernelIdeal.Run.frame m ρ (hcol_ideal m hpre)

/-- The reference runs from any memory. -/
theorem frame_reference : Cert.frame_ReferenceIdeal := Cert.ReferenceIdeal.RefValue.frame

/-- The ledger's four entries are one statement: the table gives the folded constant the exact product of the two constants
    of the tanh form, and the printed constant is that value over the extended reals. -/
theorem preserves : Cert.preserves_Kernel_KernelIdeal :=
  ⟨IdealRules.named_const.statement Cert.KernelIdeal.κ "a_c" .f32 0x3D122279#32 ((80338380498831 / 2251799813685248 : ℝ) : EReal) rfl,
   IdealRules.named_const.statement Cert.KernelIdeal.κ "a_c" .f32 0x3D122279#32 ((80338380498831 / 2251799813685248 : ℝ) : EReal) rfl,
   IdealRules.named_const.statement Cert.KernelIdeal.κ "a_c" .f32 0x3D122279#32 ((80338380498831 / 2251799813685248 : ℝ) : EReal) rfl,
   IdealRules.named_const.statement Cert.KernelIdeal.κ "a_c" .f32 0x3D122279#32 ((80338380498831 / 2251799813685248 : ℝ) : EReal) rfl⟩

/-- Both programs end with the specification's array of the (agreeing) arguments. -/
theorem algebraic : Cert.algebraic_KernelIdeal_ReferenceIdeal := by
  intro m ρ m' ρ' hpre hagree
  have hcol := hcol_ideal m hpre
  obtain ⟨hx, hW1, hb1, _, _⟩ := reals_ideal m hpre 0
  refine ⟨fun c => Cert.MoeMlp.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.MoeMlp.expertOf (m (((0 : Dev Cert.KernelIdeal.nD) : Thread Cert.KernelIdeal.nD Cert.KernelIdeal.τ).loc Cert.KernelIdeal.main_arg5) ix0) hcol), ?_, ?_⟩
  · exact (θ_run Cert.KernelIdeal.defs _ _).mono
      (fun _ h c => ⟨(h c).1.trans (Cert.KernelIdeal.KValue.final_value m hcol hx hW1 hb1 c), (h c).2⟩)
      (Cert.KernelIdeal.Run.run_main (F := Ideal) m ρ hcol)
  · refine (θ_run Cert.ReferenceIdeal.defs _ _).mono (fun _ h c => ⟨?_, (h c).2⟩)
      (Cert.ReferenceIdeal.RefValue.run (F := Ideal) m' ρ')
    obtain rfl : c = 0 := Subsingleton.elim _ _
    have he : (m' (((0 : Dev Cert.ReferenceIdeal.nD).tc : Thread Cert.ReferenceIdeal.nD Cert.ReferenceIdeal.τ).loc Cert.ReferenceIdeal.main_arg5) ix0).toNat
        = (Cert.MoeMlp.expertOf (m (((0 : Dev Cert.KernelIdeal.nD) : Thread Cert.KernelIdeal.nD Cert.KernelIdeal.τ).loc Cert.KernelIdeal.main_arg5) ix0) hcol).val := by
      rw [(hagree 0).2.2.2.2.2]; rfl
    rw [(h 0).1, Cert.ReferenceIdeal.RefValue.result_eq m' 0 _ he,
      (hagree 0).1, (hagree 0).2.1, (hagree 0).2.2.1, (hagree 0).2.2.2.1, (hagree 0).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
